-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v87)) (v1 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_v89) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_v155) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S262144 : Shape := ⟨1, ![262144]⟩
abbrev S257x128 : Shape := ⟨2, ![257, 128]⟩
abbrev S128 : Shape := ⟨1, ![128]⟩
abbrev S128x128 : Shape := ⟨2, ![128, 128]⟩
abbrev S384x128 : Shape := ⟨2, ![384, 128]⟩
abbrev S128x1 : Shape := ⟨2, ![128, 1]⟩
abbrev S1 : Shape := ⟨1, ![1]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2 : S_.BroadcastsInDim S2 (![] : Fin 0 → Fin S2.rank)
  reducesTo_S2_S_d0 : S2.ReducesTo [0] S_

variable [Facts]

def fn_part7 {F : FTy → Type} [FloatOps F] (main_arg29 : FVec F S1 .f32) (main_arg30 : FVec F S2 .f32) (main_v118 : IVec S_ 1) (main_v119 : FVec F S128x1 .f32) : IVec S_ 1 :=
  let main_cst_46 : FVec F S_ .f32 := constant S_ .f32 0x7F800000#32
  let main_v120 : FVec F S128x1 .f32 := broadcastInDim S128x1 ![] bcast_S_S128x1 main_cst_46
  let main_v121 : IVec S128x1 1 := cmpf .olt main_v119 main_v120
  let main_c_47 : IVec S_ 1 := constantI S_ 1 1#1
  let main_v122 : IVec S_ 1 := (fun x v => Host.reduce IntOp.andi x v reducesTo_S128x1_S_d0_1 h_S_) main_v121 main_c_47
  let main_v123 : IVec S_ 1 := andi main_v118 main_v122
  let main_v124 : FVec F S1 .f32 := Host.absf main_arg29
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  let main_v129 : FVec F S2 .f32 := Host.absf main_arg30
  let main_cst_50 : FVec F S_ .f32 := constant S_ .f32 0x7F800000#32
  let main_v130 : FVec F S2 .f32 := broadcastInDim S2 ![] bcast_S_S2 main_cst_50
  let main_v131 : IVec S2 1 := cmpf .olt main_v129 main_v130
  let main_c_51 : IVec S_ 1 := constantI S_ 1 1#1
  let main_v132 : IVec S_ 1 := (fun x v => Host.reduce IntOp.andi x v reducesTo_S2_S_d0 h_S_) main_v131 main_c_51
  let main_v133 : IVec S_ 1 := andi main_v128 main_v132
  main_v133

def fn_part6 {F : FTy → Type} [FloatOps F] (main_arg25 : FVec F S1 .f32) (main_arg26 : FVec F S128x128 .f32) (main_arg27 : FVec F S128 .f32) (main_arg28 : FVec F S128x1 .f32) (main_arg29 : FVec F S1 .f32) (main_arg30 : FVec F S2 .f32) (main_v98 : IVec S_ 1) (main_v101 : IVec S128x1 1) (main_c_39 : IVec S_ 1) : IVec S_ 1 :=
  let main_v102 : IVec S_ 1 := (fun x v => Host.reduce IntOp.andi x v reducesTo_S128x1_S_d0_1 h_S_) main_v101 main_c_39
  let main_v103 : IVec S_ 1 := andi main_v98 main_v102
  let main_v104 : FVec F S1 .f32 := Host.absf main_arg25
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_v109 : FVec F S128x128 .f32 := Host.absf main_arg26
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg27
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x1 .f32 := Host.absf main_arg28
  fn_part7 (F := F) main_arg29 main_arg30 main_v118 main_v119

def fn_part5 {F : FTy → Type} [FloatOps F] (main_arg22 : FVec F S128x128 .f32) (main_arg23 : FVec F S128 .f32) (main_arg24 : FVec F S128x1 .f32) (main_arg25 : FVec F S1 .f32) (main_arg26 : FVec F S128x128 .f32) (main_arg27 : FVec F S128 .f32) (main_arg28 : FVec F S128x1 .f32) (main_arg29 : FVec F S1 .f32) (main_arg30 : FVec F S2 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg22
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg23
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x1 .f32 := Host.absf main_arg24
  let main_cst_38 : FVec F S_ .f32 := constant S_ .f32 0x7F800000#32
  let main_v100 : FVec F S128x1 .f32 := broadcastInDim S128x1 ![] bcast_S_S128x1 main_cst_38
  let main_v101 : IVec S128x1 1 := cmpf .olt main_v99 main_v100
  let main_c_39 : IVec S_ 1 := constantI S_ 1 1#1
  fn_part6 (F := F) main_arg25 main_arg26 main_arg27 main_arg28 main_arg29 main_arg30 main_v98 main_v101 main_c_39

def fn_part4 {F : FTy → Type} [FloatOps F] (main_arg18 : FVec F S384x128 .f32) (main_arg19 : FVec F S128 .f32) (main_arg20 : FVec F S128x128 .f32) (main_arg21 : FVec F S128 .f32) (main_arg22 : FVec F S128x128 .f32) (main_arg23 : FVec F S128 .f32) (main_arg24 : FVec F S128x1 .f32) (main_arg25 : FVec F S1 .f32) (main_arg26 : FVec F S128x128 .f32) (main_arg27 : FVec F S128 .f32) (main_arg28 : FVec F S128x1 .f32) (main_arg29 : FVec F S1 .f32) (main_arg30 : FVec F S2 .f32) (main_v63 : IVec S_ 1) (main_v67 : IVec S_ 1) : IVec S_ 1 :=
  let main_v68 : IVec S_ 1 := andi main_v63 main_v67
  let main_v69 : FVec F S384x128 .f32 := Host.absf main_arg18
  let main_cst_26 : FVec F S_ .f32 := constant S_ .f32 0x7F800000#32
  let main_v70 : FVec F S384x128 .f32 := broadcastInDim S384x128 ![] bcast_S_S384x128 main_cst_26
  let main_v71 : IVec S384x128 1 := cmpf .olt main_v69 main_v70
  let main_c_27 : IVec S_ 1 := constantI S_ 1 1#1
  let main_v72 : IVec S_ 1 := (fun x v => Host.reduce IntOp.andi x v reducesTo_S384x128_S_d0_1 h_S_) main_v71 main_c_27
  let main_v73 : IVec S_ 1 := andi main_v68 main_v72
  let main_v74 : FVec F S128 .f32 := Host.absf main_arg19
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg20
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg21
  let main_cst_32 : FVec F S_ .f32 := constant S_ .f32 0x7F800000#32
  fn_part5 (F := F) main_arg22 main_arg23 main_arg24 main_arg25 main_arg26 main_arg27 main_arg28 main_arg29 main_arg30 main_v83 main_v84 main_cst_32

def fn_part3 {F : FTy → Type} [FloatOps F] (main_arg15 : FVec F S128 .f32) (main_arg16 : FVec F S128x128 .f32) (main_arg17 : FVec F S128 .f32) (main_arg18 : FVec F S384x128 .f32) (main_arg19 : FVec F S128 .f32) (main_arg20 : FVec F S128x128 .f32) (main_arg21 : FVec F S128 .f32) (main_arg22 : FVec F S128x128 .f32) (main_arg23 : FVec F S128 .f32) (main_arg24 : FVec F S128x1 .f32) (main_arg25 : FVec F S1 .f32) (main_arg26 : FVec F S128x128 .f32) (main_arg27 : FVec F S128 .f32) (main_arg28 : FVec F S128x1 .f32) (main_arg29 : FVec F S1 .f32) (main_arg30 : FVec F S2 .f32) (main_v48 : IVec S_ 1) (main_v49 : FVec F S257x128 .f32) (main_v50 : FVec F S257x128 .f32) : IVec S_ 1 :=
  let main_v51 : IVec S257x128 1 := cmpf .olt main_v49 main_v50
  let main_c_19 : IVec S_ 1 := constantI S_ 1 1#1
  let main_v52 : IVec S_ 1 := (fun x v => Host.reduce IntOp.andi x v reducesTo_S257x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg16
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_arg19 main_arg20 main_arg21 main_arg22 main_arg23 main_arg24 main_arg25 main_arg26 main_arg27 main_arg28 main_arg29 main_arg30 main_v63 main_v67

def fn_part2 {F : FTy → Type} [FloatOps F] (main_arg11 : FVec F S128 .f32) (main_arg12 : FVec F S128x128 .f32) (main_arg13 : FVec F S128 .f32) (main_arg14 : FVec F S257x128 .f32) (main_arg15 : FVec F S128 .f32) (main_arg16 : FVec F S128x128 .f32) (main_arg17 : FVec F S128 .f32) (main_arg18 : FVec F S384x128 .f32) (main_arg19 : FVec F S128 .f32) (main_arg20 : FVec F S128x128 .f32) (main_arg21 : FVec F S128 .f32) (main_arg22 : FVec F S128x128 .f32) (main_arg23 : FVec F S128 .f32) (main_arg24 : FVec F S128x1 .f32) (main_arg25 : FVec F S1 .f32) (main_arg26 : FVec F S128x128 .f32) (main_arg27 : FVec F S128 .f32) (main_arg28 : FVec F S128x1 .f32) (main_arg29 : FVec F S1 .f32) (main_arg30 : FVec F S2 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S257x128 .f32 := Host.absf main_arg14
  let main_cst_18 : FVec F S_ .f32 := constant S_ .f32 0x7F800000#32
  let main_v50 : FVec F S257x128 .f32 := broadcastInDim S257x128 ![] bcast_S_S257x128 main_cst_18
  fn_part3 (F := F) main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg4 : FVec F S50000x3 .f32) (main_arg5 : FVec F S50000x3 .f32) (main_arg10 : FVec F S257x128 .f32) (main_arg11 : FVec F S128 .f32) (main_arg12 : FVec F S128x128 .f32) (main_arg13 : FVec F S128 .f32) (main_arg14 : FVec F S257x128 .f32) (main_arg15 : FVec F S128 .f32) (main_arg16 : FVec F S128x128 .f32) (main_arg17 : FVec F S128 .f32) (main_arg18 : FVec F S384x128 .f32) (main_arg19 : FVec F S128 .f32) (main_arg20 : FVec F S128x128 .f32) (main_arg21 : FVec F S128 .f32) (main_arg22 : FVec F S128x128 .f32) (main_arg23 : FVec F S128 .f32) (main_arg24 : FVec F S128x1 .f32) (main_arg25 : FVec F S1 .f32) (main_arg26 : FVec F S128x128 .f32) (main_arg27 : FVec F S128 .f32) (main_arg28 : FVec F S128x1 .f32) (main_arg29 : FVec F S1 .f32) (main_arg30 : FVec F S2 .f32) (main_v13 : IVec S_ 1) (main_v16 : IVec S50000x3 1) : IVec S_ 1 :=
  let main_c_5 : IVec S_ 1 := constantI S_ 1 1#1
  let main_v17 : IVec S_ 1 := (fun x v => Host.reduce IntOp.andi x v reducesTo_S50000x3_S_d0_1 h_S_) main_v16 main_c_5
  let main_v18 : IVec S_ 1 := andi main_v13 main_v17
  let main_v19 : FVec F S50000x3 .f32 := Host.absf main_arg4
  let main_cst_6 : FVec F S_ .f32 := constant S_ .f32 0x7F800000#32
  let main_v20 : FVec F S50000x3 .f32 := broadcastInDim S50000x3 ![] bcast_S_S50000x3 main_cst_6
  let main_v21 : IVec S50000x3 1 := cmpf .olt main_v19 main_v20
  let main_c_7 : IVec S_ 1 := constantI S_ 1 1#1
  let main_v22 : IVec S_ 1 := (fun x v => Host.reduce IntOp.andi x v reducesTo_S50000x3_S_d0_1 h_S_) main_v21 main_c_7
  let main_v23 : IVec S_ 1 := andi main_v18 main_v22
  let main_v24 : FVec F S50000x3 .f32 := Host.absf main_arg5
  let main_cst_8 : FVec F S_ .f32 := constant S_ .f32 0x7F800000#32
  let main_v25 : FVec F S50000x3 .f32 := broadcastInDim S50000x3 ![] bcast_S_S50000x3 main_cst_8
  let main_v26 : IVec S50000x3 1 := cmpf .olt main_v24 main_v25
  let main_c_9 : IVec S_ 1 := constantI S_ 1 1#1
  let main_v27 : IVec S_ 1 := (fun x v => Host.reduce IntOp.andi x v reducesTo_S50000x3_S_d0_1 h_S_) main_v26 main_c_9
  let main_v28 : IVec S_ 1 := andi main_v23 main_v27
  let main_v29 : FVec F S257x128 .f32 := Host.absf main_arg10
  let main_cst_10 : FVec F S_ .f32 := constant S_ .f32 0x7F800000#32
  let main_v30 : FVec F S257x128 .f32 := broadcastInDim S257x128 ![] bcast_S_S257x128 main_cst_10
  let main_v31 : IVec S257x128 1 := cmpf .olt main_v29 main_v30
  let main_c_11 : IVec S_ 1 := constantI S_ 1 1#1
  let main_v32 : IVec S_ 1 := (fun x v => Host.reduce IntOp.andi x v reducesTo_S257x128_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S50000x128 .f32) (main_arg1 : FVec F S50000x128 .f32) (main_arg2 : FVec F S50000x128 .f32) (main_arg3 : FVec F S50000x3 .f32) (main_arg4 : FVec F S50000x3 .f32) (main_arg5 : FVec F S50000x3 .f32) (main_arg6 : IVec S262144 32) (main_arg7 : IVec S262144 32) (main_arg8 : IVec S262144 32) (main_arg9 : IVec S262144 32) (main_arg10 : FVec F S257x128 .f32) (main_arg11 : FVec F S128 .f32) (main_arg12 : FVec F S128x128 .f32) (main_arg13 : FVec F S128 .f32) (main_arg14 : FVec F S257x128 .f32) (main_arg15 : FVec F S128 .f32) (main_arg16 : FVec F S128x128 .f32) (main_arg17 : FVec F S128 .f32) (main_arg18 : FVec F S384x128 .f32) (main_arg19 : FVec F S128 .f32) (main_arg20 : FVec F S128x128 .f32) (main_arg21 : FVec F S128 .f32) (main_arg22 : FVec F S128x128 .f32) (main_arg23 : FVec F S128 .f32) (main_arg24 : FVec F S128x1 .f32) (main_arg25 : FVec F S1 .f32) (main_arg26 : FVec F S128x128 .f32) (main_arg27 : FVec F S128 .f32) (main_arg28 : FVec F S128x1 .f32) (main_arg29 : FVec F S1 .f32) (main_arg30 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S50000x3 .f32 := Host.absf main_arg3
  let main_cst_4 : FVec F S_ .f32 := constant S_ .f32 0x7F800000#32
  let main_v15 : FVec F S50000x3 .f32 := broadcastInDim S50000x3 ![] bcast_S_S50000x3 main_cst_4
  let main_v16 : IVec S50000x3 1 := cmpf .olt main_v14 main_v15
  fn_part1 (F := F) main_arg4 main_arg5 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S50000x128 : Shape := ⟨2, ![50000, 128]⟩
abbrev S50000x3 : Shape := ⟨2, ![50000, 3]⟩
abbrev S262144 : Shape := ⟨1, ![262144]⟩
abbrev S257x128 : Shape := ⟨2, ![257, 128]⟩
abbrev S128 : Shape := ⟨1, ![128]⟩
abbrev S128x128 : Shape := ⟨2, ![128, 128]⟩
abbrev S384x128 : Shape := ⟨2, ![384, 128]⟩
abbrev S128x1 : Shape := ⟨2, ![128, 1]⟩
abbrev S1 : Shape := ⟨1, ![1]⟩
abbrev S2 : Shape := ⟨1, ![2]⟩
abbrev S_ : Shape := ⟨0, ![]⟩
abbrev S262144x1 : Shape := ⟨2, ![262144, 1]⟩
abbrev S262144x128 : Shape := ⟨2, ![262144, 128]⟩
abbrev S262144x3 : Shape := ⟨2, ![262144, 3]⟩
abbrev S1x128 : Shape := ⟨2, ![1, 128]⟩
abbrev S2048x128 : Shape := ⟨2, ![2048, 128]⟩
abbrev S2048x3 : Shape := ⟨2, ![2048, 3]⟩
abbrev S2048 : Shape := ⟨1, ![2048]⟩
abbrev S2048x1 : Shape := ⟨2, ![2048, 1]⟩
abbrev S1x1 : Shape := ⟨2, ![1, 1]⟩
abbrev S2000x128 : Shape := ⟨2, ![2000, 128]⟩
abbrev S2000x384 : Shape := ⟨2, ![2000, 384]⟩

abbrev nBuf : Space → Nat
  | .hbm => 143
  | .vmem => 56
  | .smem => 0
  | _ => 0

abbrev hbmTy0_0 (i : Nat) : BufTy := match i % 128 with
  | 0 => ⟨S50000x128, .f32⟩
  | 1 => ⟨S50000x128, .f32⟩
  | 2 => ⟨S50000x128, .f32⟩
  | 3 => ⟨S50000x3, .f32⟩
  | 4 => ⟨S50000x3, .f32⟩
  | 5 => ⟨S50000x3, .f32⟩
  | 6 => ⟨S262144, .i32⟩
  | 7 => ⟨S262144, .i32⟩
  | 8 => ⟨S262144, .i32⟩
  | 9 => ⟨S262144, .i32⟩
  | 10 => ⟨S257x128, .f32⟩
  | 11 => ⟨S128, .f32⟩
  | 12 => ⟨S128x128, .f32⟩
  | 13 => ⟨S128, .f32⟩
  | 14 => ⟨S257x128, .f32⟩
  | 15 => ⟨S128, .f32⟩
  | 16 => ⟨S128x128, .f32⟩
  | 17 => ⟨S128, .f32⟩
  | 18 => ⟨S384x128, .f32⟩
  | 19 => ⟨S128, .f32⟩
  | 20 => ⟨S128x128, .f32⟩
  | 21 => ⟨S128, .f32⟩
  | 22 => ⟨S128x128, .f32⟩
  | 23 => ⟨S128, .f32⟩
  | 24 => ⟨S128x1, .f32⟩
  | 25 => ⟨S1, .f32⟩
  | 26 => ⟨S128x128, .f32⟩
  | 27 => ⟨S128, .f32⟩
  | 28 => ⟨S128x1, .f32⟩
  | 29 => ⟨S1, .f32⟩
  | 30 => ⟨S2, .f32⟩
  | 31 => ⟨S50000x128, .bf16⟩
  | 32 => ⟨S50000x128, .bf16⟩
  | 33 => ⟨S50000x128, .bf16⟩
  | 34 => ⟨S_, .i32⟩
  | 35 => ⟨S262144, .i32⟩
  | 36 => ⟨S262144, .i1⟩
  | 37 => ⟨S_, .i32⟩
  | 38 => ⟨S262144, .i32⟩
  | 39 => ⟨S262144, .i32⟩
  | 40 => ⟨S262144, .i32⟩
  | 41 => ⟨S262144x1, .i32⟩
  | 42 => ⟨S262144x128, .bf16⟩
  | 43 => ⟨S_, .i32⟩
  | 44 => ⟨S262144, .i32⟩
  | 45 => ⟨S262144, .i1⟩
  | 46 => ⟨S_, .i32⟩
  | 47 => ⟨S262144, .i32⟩
  | 48 => ⟨S262144, .i32⟩
  | 49 => ⟨S262144, .i32⟩
  | 50 => ⟨S262144x1, .i32⟩
  | 51 => ⟨S262144x128, .bf16⟩
  | 52 => ⟨S_, .i32⟩
  | 53 => ⟨S262144, .i32⟩
  | 54 => ⟨S262144, .i1⟩
  | 55 => ⟨S_, .i32⟩
  | 56 => ⟨S262144, .i32⟩
  | 57 => ⟨S262144, .i32⟩
  | 58 => ⟨S262144, .i32⟩
  | 59 => ⟨S262144x1, .i32⟩
  | 60 => ⟨S262144x3, .f32⟩
  | 61 => ⟨S_, .i32⟩
  | 62 => ⟨S262144, .i32⟩
  | 63 => ⟨S262144, .i1⟩
  | 64 => ⟨S_, .i32⟩
  | 65 => ⟨S262144, .i32⟩
  | 66 => ⟨S262144, .i32⟩
  | 67 => ⟨S262144, .i32⟩
  | 68 => ⟨S262144x1, .i32⟩
  | 69 => ⟨S262144x3, .f32⟩
  | 70 => ⟨S_, .i32⟩
  | 71 => ⟨S262144, .i32⟩
  | 72 => ⟨S262144, .i1⟩
  | 73 => ⟨S_, .i32⟩
  | 74 => ⟨S262144, .i32⟩
  | 75 => ⟨S262144, .i32⟩
  | 76 => ⟨S262144, .i32⟩
  | 77 => ⟨S262144x1, .i32⟩
  | 78 => ⟨S262144x128, .bf16⟩
  | 79 => ⟨S_, .i32⟩
  | 80 => ⟨S262144, .i32⟩
  | 81 => ⟨S262144, .i1⟩
  | 82 => ⟨S_, .i32⟩
  | 83 => ⟨S262144, .i32⟩
  | 84 => ⟨S262144, .i32⟩
  | 85 => ⟨S262144, .i32⟩
  | 86 => ⟨S262144x1, .i32⟩
  | 87 => ⟨S262144x128, .bf16⟩
  | 88 => ⟨S_, .i32⟩
  | 89 => ⟨S262144, .i32⟩
  | 90 => ⟨S262144, .i1⟩
  | 91 => ⟨S_, .i32⟩
  | 92 => ⟨S262144, .i32⟩
  | 93 => ⟨S262144, .i32⟩
  | 94 => ⟨S262144, .i32⟩
  | 95 => ⟨S262144x1, .i32⟩
  | 96 => ⟨S262144x3, .f32⟩
  | 97 => ⟨S_, .i32⟩
  | 98 => ⟨S262144, .i32⟩
  | 99 => ⟨S262144, .i1⟩
  | 100 => ⟨S_, .i32⟩
  | 101 => ⟨S262144, .i32⟩
  | 102 => ⟨S262144, .i32⟩
  | 103 => ⟨S262144, .i32⟩
  | 104 => ⟨S262144x1, .i32⟩
  | 105 => ⟨S262144x3, .f32⟩
  | 106 => ⟨S128x128, .f32⟩
  | 107 => ⟨S128x128, .f32⟩
  | 108 => ⟨S1x128, .f32⟩
  | 109 => ⟨S128x128, .f32⟩
  | 110 => ⟨S128x128, .f32⟩
  | 111 => ⟨S1x128, .f32⟩
  | 112 => ⟨S262144x128, .f32⟩
  | 113 => ⟨S262144x3, .f32⟩
  | 114 => ⟨S262144x128, .f32⟩
  | 115 => ⟨S262144x3, .f32⟩
  | 116 => ⟨S_, .f32⟩
  | 117 => ⟨S50000x128, .f32⟩
  | 118 => ⟨S262144x1, .i32⟩
  | 119 => ⟨S50000x128, .f32⟩
  | 120 => ⟨S1, .f32⟩
  | 121 => ⟨S_, .f32⟩
  | 122 => ⟨S_, .f32⟩
  | 123 => ⟨S50000x3, .f32⟩
  | 124 => ⟨S262144x1, .i32⟩
  | 125 => ⟨S50000x3, .f32⟩
  | 126 => ⟨S50000x3, .f32⟩
  | 127 => ⟨S50000x3, .f32⟩
  | _ => ⟨S50000x128, .f32⟩

abbrev hbmTy0_1 (i : Nat) : BufTy := match i % 128 with
  | 0 => ⟨S_, .f32⟩
  | 1 => ⟨S50000x128, .f32⟩
  | 2 => ⟨S262144x1, .i32⟩
  | 3 => ⟨S50000x128, .f32⟩
  | 4 => ⟨S1, .f32⟩
  | 5 => ⟨S_, .f32⟩
  | 6 => ⟨S_, .f32⟩
  | 7 => ⟨S50000x3, .f32⟩
  | 8 => ⟨S262144x1, .i32⟩
  | 9 => ⟨S50000x3, .f32⟩
  | 10 => ⟨S50000x3, .f32⟩
  | 11 => ⟨S50000x3, .f32⟩
  | 12 => ⟨S50000x128, .f32⟩
  | 13 => ⟨S50000x3, .f32⟩
  | 14 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x3, .f32⟩
  | .local _ .vmem, ⟨5, _⟩ => ⟨S2048x3, .f32⟩
  | .local _ .vmem, ⟨6, _⟩ => ⟨S2048x3, .f32⟩
  | .local _ .vmem, ⟨7, _⟩ => ⟨S2048x3, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S128x1, .f32⟩
  | .local _ .vmem, ⟨17, _⟩ => ⟨S1, .f32⟩
  | .local _ .vmem, ⟨18, _⟩ => ⟨S2048x128, .f32⟩
  | .local _ .vmem, ⟨19, _⟩ => ⟨S2048x128, .f32⟩
  | .local _ .vmem, ⟨20, _⟩ => ⟨S2048x3, .f32⟩
  | .local _ .vmem, ⟨21, _⟩ => ⟨S2048x3, .f32⟩
  | .local _ .vmem, ⟨22, _⟩ => ⟨S2048x128, .bf16⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S2048x3, .f32⟩
  | .local _ .vmem, ⟨27, _⟩ => ⟨S2048x3, .f32⟩
  | .local _ .vmem, ⟨28, _⟩ => ⟨S2048x3, .f32⟩
  | .local _ .vmem, ⟨29, _⟩ => ⟨S2048x3, .f32⟩
  | .local _ .vmem, ⟨30, _⟩ => ⟨S128x128, .f32⟩
  | .local _ .vmem, ⟨31, _⟩ => ⟨S128x128, .f32⟩
  | .local _ .vmem, ⟨32, _⟩ => ⟨S1x128, .f32⟩
  | .local _ .vmem, ⟨33, _⟩ => ⟨S128, .f32⟩
  | .local _ .vmem, ⟨34, _⟩ => ⟨S128x128, .f32⟩
  | .local _ .vmem, ⟨35, _⟩ => ⟨S128, .f32⟩
  | .local _ .vmem, ⟨36, _⟩ => ⟨S128x128, .f32⟩
  | .local _ .vmem, ⟨37, _⟩ => ⟨S128, .f32⟩
  | .local _ .vmem, ⟨38, _⟩ => ⟨S128x1, .f32⟩
  | .local _ .vmem, ⟨39, _⟩ => ⟨S1, .f32⟩
  | .local _ .vmem, ⟨40, _⟩ => ⟨S2048x128, .f32⟩
  | .local _ .vmem, ⟨41, _⟩ => ⟨S2048x128, .f32⟩
  | .local _ .vmem, ⟨42, _⟩ => ⟨S2048x3, .f32⟩
  | .local _ .vmem, ⟨43, _⟩ => ⟨S2048x3, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S384x128, .f32⟩
  | .local _ .vmem, ⟨51, _⟩ => ⟨S128, .f32⟩
  | .local _ .vmem, ⟨52, _⟩ => ⟨S128x128, .f32⟩
  | .local _ .vmem, ⟨53, _⟩ => ⟨S128, .f32⟩
  | .local _ .vmem, ⟨54, _⟩ => ⟨S2000x128, .f32⟩
  | .local _ .vmem, ⟨55, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_c : Ref sig .tc := ⟨.hbm, 34, rfl⟩
abbrev main_v3 : Ref sig .tc := ⟨.hbm, 35, rfl⟩
abbrev main_v4 : Ref sig .tc := ⟨.hbm, 36, rfl⟩
abbrev main_c_0 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_c_1 : Ref sig .tc := ⟨.hbm, 43, rfl⟩
abbrev main_v10 : Ref sig .tc := ⟨.hbm, 44, rfl⟩
abbrev main_v11 : Ref sig .tc := ⟨.hbm, 45, rfl⟩
abbrev main_c_2 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_c_3 : Ref sig .tc := ⟨.hbm, 52, rfl⟩
abbrev main_v17 : Ref sig .tc := ⟨.hbm, 53, rfl⟩
abbrev main_v18 : Ref sig .tc := ⟨.hbm, 54, rfl⟩
abbrev main_c_4 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_c_5 : Ref sig .tc := ⟨.hbm, 61, rfl⟩
abbrev main_v24 : Ref sig .tc := ⟨.hbm, 62, rfl⟩
abbrev main_v25 : Ref sig .tc := ⟨.hbm, 63, rfl⟩
abbrev main_c_6 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_c_7 : Ref sig .tc := ⟨.hbm, 70, rfl⟩
abbrev main_v31 : Ref sig .tc := ⟨.hbm, 71, rfl⟩
abbrev main_v32 : Ref sig .tc := ⟨.hbm, 72, rfl⟩
abbrev main_c_8 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_c_9 : Ref sig .tc := ⟨.hbm, 79, rfl⟩
abbrev main_v38 : Ref sig .tc := ⟨.hbm, 80, rfl⟩
abbrev main_v39 : Ref sig .tc := ⟨.hbm, 81, rfl⟩
abbrev main_c_10 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_c_11 : Ref sig .tc := ⟨.hbm, 88, rfl⟩
abbrev main_v45 : Ref sig .tc := ⟨.hbm, 89, rfl⟩
abbrev main_v46 : Ref sig .tc := ⟨.hbm, 90, rfl⟩
abbrev main_c_12 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_c_13 : Ref sig .tc := ⟨.hbm, 97, rfl⟩
abbrev main_v52 : Ref sig .tc := ⟨.hbm, 98, rfl⟩
abbrev main_v53 : Ref sig .tc := ⟨.hbm, 99, rfl⟩
abbrev main_c_14 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65_0 : Ref sig .tc := ⟨.hbm, 112, rfl⟩
abbrev main_v65_1 : Ref sig .tc := ⟨.hbm, 113, rfl⟩
abbrev main_v66_0 : Ref sig .tc := ⟨.hbm, 114, rfl⟩
abbrev main_v66_1 : Ref sig .tc := ⟨.hbm, 115, rfl⟩
abbrev main_cst : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_15 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_16 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_cst_17 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg9_0 : Ref sig .tc := ⟨.vmem, 35, rfl⟩
abbrev cc1_stg10_0 : Ref sig .tc := ⟨.vmem, 36, rfl⟩
abbrev cc1_stg11_0 : Ref sig .tc := ⟨.vmem, 37, rfl⟩
abbrev cc1_stg12_0 : Ref sig .tc := ⟨.vmem, 38, rfl⟩
abbrev cc1_stg13_0 : Ref sig .tc := ⟨.vmem, 39, rfl⟩
abbrev cc1_stg14_0 : Ref sig .tc := ⟨.vmem, 40, rfl⟩
abbrev cc1_stg14_1 : Ref sig .tc := ⟨.vmem, 41, rfl⟩
abbrev cc1_stg15_0 : Ref sig .tc := ⟨.vmem, 42, rfl⟩
abbrev cc1_stg15_1 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg4_0 : Ref sig .tc := ⟨.vmem, 51, rfl⟩
abbrev cc2_stg5_0 : Ref sig .tc := ⟨.vmem, 52, rfl⟩
abbrev cc2_stg6_0 : Ref sig .tc := ⟨.vmem, 53, rfl⟩
abbrev cc2_stg7_0 : Ref sig .tc := ⟨.vmem, 54, rfl⟩
abbrev cc2_stg7_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem5_0 : DmaSem sig := 31
abbrev cc1_sem6_0 : DmaSem sig := 32
abbrev cc1_sem7_0 : DmaSem sig := 33
abbrev cc1_sem8_0 : DmaSem sig := 34
abbrev cc1_sem9_0 : DmaSem sig := 35
abbrev cc1_sem10_0 : DmaSem sig := 36
abbrev cc1_sem11_0 : DmaSem sig := 37
abbrev cc1_sem12_0 : DmaSem sig := 38
abbrev cc1_sem13_0 : DmaSem sig := 39
abbrev cc1_sem14_0 : DmaSem sig := 40
abbrev cc1_sem14_1 : DmaSem sig := 41
abbrev cc1_sem15_0 : DmaSem sig := 42
abbrev cc1_sem15_1 : DmaSem sig := 43
abbrev cc2_sem0_0 : DmaSem sig := 44
abbrev cc2_sem0_1 : DmaSem sig := 45
abbrev cc2_sem1_0 : DmaSem sig := 46
abbrev cc2_sem1_1 : DmaSem sig := 47
abbrev cc2_sem2_0 : DmaSem sig := 48
abbrev cc2_sem2_1 : DmaSem sig := 49
abbrev cc2_sem3_0 : DmaSem sig := 50
abbrev cc2_sem4_0 : DmaSem sig := 51
abbrev cc2_sem5_0 : DmaSem sig := 52
abbrev cc2_sem6_0 : DmaSem sig := 53
abbrev cc2_sem7_0 : DmaSem sig := 54
abbrev cc2_sem7_1 : DmaSem sig := 55

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x3 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S2048x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S2048x3 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S384x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bitsLt_bf16_f32 : FTy.bits .bf16 < FTy.bits .f32
  bcast_S_S262144 : S_.BroadcastsInDim S262144 (![] : Fin 0 → Fin S262144.rank)
  bcast_S262144_S262144x1_0 : S262144.BroadcastsInDim S262144x1 (![0] : Fin 1 → Fin S262144x1.rank)
  slices_S257x128_S128x128_0_0 : S257x128.Slices ![0, 0] S128x128
  slices_S257x128_S128x128_128_0 : S257x128.Slices ![128, 0] S128x128
  slices_S257x128_S1x128_256_0 : S257x128.Slices ![256, 0] S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  reduces_S2048x3_S2048 : S2048x3.Reduces [1] S2048
  shapeCasts_S2048_S2048x1 : S2048.ShapeCasts S2048x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S2048x1_S2048x1 : S2048x1.ShapeCasts S2048x1
  broadcasts_S2048x1_S2048x128 : S2048x1.Broadcasts S2048x128
  broadcasts_S1x128_S2048x128 : S1x128.Broadcasts S2048x128
  inb_S128_S128_0 : ∀ a, (![0] : Fin 1 → Nat) a + S128.size a ≤ S128.size a
  h_S128 : 0 < S128.numel
  shapeCasts_S128_S1x128 : S128.ShapeCasts S1x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  broadcasts_S2048x1_S2048x3 : S2048x1.Broadcasts S2048x3
  bcast_S_S50000x128 : S_.BroadcastsInDim S50000x128 (![] : Fin 0 → Fin S50000x128.rank)
  slices_S2_S1_0 : S2.Slices ![0] S1
  shapeCasts_S1_S_ : S1.ShapeCasts S_
  bcast_S_S50000x3 : S_.BroadcastsInDim S50000x3 (![] : Fin 0 → Fin S50000x3.rank)
  slices_S2_S1_1 : S2.Slices ![1] S1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x128_S2000x384_d1 : Shape.Concatenates [S2000x128, S2000x128, S2000x128] S2000x384 1
  inb_S384x128_S384x128_0_0 : ∀ a, (![0, 0] : Fin 2 → Nat) a + S384x128.size a ≤ S384x128.size a
  h_S384x128 : 0 < S384x128.numel
  broadcasts_S1x128_S2000x128 : S1x128.Broadcasts S2000x128
  gather_S50000x128_S262144x1_S262144x128_1_0_n_n_0_1_1128_wf : GatherDims.WF S50000x128 S262144x1 S262144x128 [1] [0] [] [0] [] 1 ![1, 128]
  gather_S50000x3_S262144x1_S262144x3_1_0_n_n_0_1_13_wf : GatherDims.WF S50000x3 S262144x1 S262144x3 [1] [0] [] [0] [] 1 ![1, 3]
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  scatter_S50000x128_S262144x1_S262144x128_1_0_0_1_wf : ScatterDims.WF S50000x128 S262144x1 S262144x128 [1] [0] [0] 1
  scatter_S50000x3_S262144x1_S262144x3_1_0_0_1_wf : ScatterDims.WF S50000x3 S262144x1 S262144x3 [1] [0] [0] 1
  dot_S2000x384_S384x128_S2000x128_1_0_0_1_n_n_wf : DotDims.WF S2000x384 S384x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .bf16 = 32 ∨ (Rect.block (s := S262144x128) S2048x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S262144x128.size a
  hwx0_1 : ∀ i : grid0.Coords, EltTy.bits .bf16 = 32 ∨ (Rect.block (s := S262144x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x3.size a ≤ S262144x3.size a
  hwx0_2 : ∀ i : grid0.Coords, EltTy.bits .f32 = 32 ∨ (Rect.block (s := S262144x3) S2048x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x3.size a ≤ S262144x3.size a
  hwx0_3 : ∀ i : grid0.Coords, EltTy.bits .f32 = 32 ∨ (Rect.block (s := S262144x3) S2048x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x1.size a ≤ S128x1.size a
  hwx0_12 : ∀ i : grid0.Coords, EltTy.bits .f32 = 32 ∨ (Rect.block (s := S128x1) S128x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1.size a ≤ S1.size a
  hwx0_13 : ∀ i : grid0.Coords, EltTy.bits .f32 = 32 ∨ (Rect.block (s := S1) S1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x128.size a ≤ S262144x128.size a
  hwx0_14 : ∀ i : grid0.Coords, EltTy.bits .f32 = 32 ∨ (Rect.block (s := S262144x128) S2048x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x3.size a ≤ S262144x3.size a
  hwx0_15 : ∀ i : grid0.Coords, EltTy.bits .f32 = 32 ∨ (Rect.block (s := S262144x3) S2048x3.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S262144x128.size a
  hwx1_0 : ∀ i : grid1.Coords, EltTy.bits .bf16 = 32 ∨ (Rect.block (s := S262144x128) S2048x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S262144x128.size a
  hwx1_1 : ∀ i : grid1.Coords, EltTy.bits .bf16 = 32 ∨ (Rect.block (s := S262144x128) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x3.size a ≤ S262144x3.size a
  hwx1_2 : ∀ i : grid1.Coords, EltTy.bits .f32 = 32 ∨ (Rect.block (s := S262144x3) S2048x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x3.size a ≤ S262144x3.size a
  hwx1_3 : ∀ i : grid1.Coords, EltTy.bits .f32 = 32 ∨ (Rect.block (s := S262144x3) S2048x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128.size a ≤ S128.size a
  hwx1_11 : ∀ i : grid1.Coords, EltTy.bits .f32 = 32 ∨ (Rect.block (s := S128) S128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128x1.size a ≤ S128x1.size a
  hwx1_12 : ∀ i : grid1.Coords, EltTy.bits .f32 = 32 ∨ (Rect.block (s := S128x1) S128x1.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1.size a ≤ S1.size a
  hwx1_13 : ∀ i : grid1.Coords, EltTy.bits .f32 = 32 ∨ (Rect.block (s := S1) S1.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S2048x128.size a ≤ S262144x128.size a
  hwx1_14 : ∀ i : grid1.Coords, EltTy.bits .f32 = 32 ∨ (Rect.block (s := S262144x128) S2048x128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S2048x3.size a ≤ S262144x3.size a
  hwx1_15 : ∀ i : grid1.Coords, EltTy.bits .f32 = 32 ∨ (Rect.block (s := S262144x3) S2048x3.size (cc1_transform_15 i) (hinb1_15 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S384x128.size a ≤ S384x128.size a
  hwx2_3 : ∀ i : grid2.Coords, EltTy.bits .f32 = 32 ∨ (Rect.block (s := S384x128) S384x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)

variable [Facts₀]

def gather_S50000x128_S262144x1_S262144x128_1_0_n_n_0_1_1128 : GatherDims S50000x128 S262144x1 S262144x128 where
  offsetDims := [1]
  collapsedSliceDims := [0]
  operandBatchingDims := []
  startIndicesBatchingDims := []
  startIndexMap := [0]
  indexVectorDim := 1
  sliceSizes := ![1, 128]
  wf := gather_S50000x128_S262144x1_S262144x128_1_0_n_n_0_1_1128_wf
def gather_S50000x3_S262144x1_S262144x3_1_0_n_n_0_1_13 : GatherDims S50000x3 S262144x1 S262144x3 where
  offsetDims := [1]
  collapsedSliceDims := [0]
  operandBatchingDims := []
  startIndicesBatchingDims := []
  startIndexMap := [0]
  indexVectorDim := 1
  sliceSizes := ![1, 3]
  wf := gather_S50000x3_S262144x1_S262144x3_1_0_n_n_0_1_13_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf
def scatter_S50000x128_S262144x1_S262144x128_1_0_0_1 : ScatterDims S50000x128 S262144x1 S262144x128 where
  updateWindowDims := [1]
  insertedWindowDims := [0]
  scatterDimsToOperandDims := [0]
  indexVectorDim := 1
  wf := scatter_S50000x128_S262144x1_S262144x128_1_0_0_1_wf
def scatter_S50000x3_S262144x1_S262144x3_1_0_0_1 : ScatterDims S50000x3 S262144x1 S262144x3 where
  updateWindowDims := [1]
  insertedWindowDims := [0]
  scatterDimsToOperandDims := [0]
  indexVectorDim := 1
  wf := scatter_S50000x3_S262144x1_S262144x3_1_0_0_1_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v9) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S2048x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S2048x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v59) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v60) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v61) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg22) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg23) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg24) S128x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg25) S1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v65_0) S2048x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v65_1) S2048x3.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v37) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S2048x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v58) S2048x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v62) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v64) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg17) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg26) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg27) S128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg28) S128x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg29) S1.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v66_0) S2048x128.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v66_1) S2048x3.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v79) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg18) S384x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg19) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg20) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg21) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v87) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S262144 : Shape := ⟨1, ![262144]⟩
abbrev S257x128 : Shape := ⟨2, ![257, 128]⟩
abbrev S128 : Shape := ⟨1, ![128]⟩
abbrev S128x128 : Shape := ⟨2, ![128, 128]⟩
abbrev S384x128 : Shape := ⟨2, ![384, 128]⟩
abbrev S128x1 : Shape := ⟨2, ![128, 1]⟩
abbrev S1 : Shape := ⟨1, ![1]⟩
abbrev S2 : Shape := ⟨1, ![2]⟩
abbrev S_ : Shape := ⟨0, ![]⟩
abbrev S262144x1 : Shape := ⟨2, ![262144, 1]⟩
abbrev S262144x3 : Shape := ⟨2, ![262144, 3]⟩
abbrev S262144x128 : Shape := ⟨2, ![262144, 128]⟩
abbrev S262144x257 : Shape := ⟨2, ![262144, 257]⟩
abbrev S1x128 : Shape := ⟨2, ![1, 128]⟩
abbrev S1x1 : Shape := ⟨2, ![1, 1]⟩
abbrev S50000x384 : Shape := ⟨2, ![50000, 384]⟩

abbrev nBuf : Space → Nat
  | .hbm => 218
  | .vmem => 0
  | .smem => 0
  | _ => 0

abbrev hbmTy0_0 (i : Nat) : BufTy := match i % 128 with
  | 0 => ⟨S50000x128, .f32⟩
  | 1 => ⟨S50000x128, .f32⟩
  | 2 => ⟨S50000x128, .f32⟩
  | 3 => ⟨S50000x3, .f32⟩
  | 4 => ⟨S50000x3, .f32⟩
  | 5 => ⟨S50000x3, .f32⟩
  | 6 => ⟨S262144, .i32⟩
  | 7 => ⟨S262144, .i32⟩
  | 8 => ⟨S262144, .i32⟩
  | 9 => ⟨S262144, .i32⟩
  | 10 => ⟨S257x128, .f32⟩
  | 11 => ⟨S128, .f32⟩
  | 12 => ⟨S128x128, .f32⟩
  | 13 => ⟨S128, .f32⟩
  | 14 => ⟨S257x128, .f32⟩
  | 15 => ⟨S128, .f32⟩
  | 16 => ⟨S128x128, .f32⟩
  | 17 => ⟨S128, .f32⟩
  | 18 => ⟨S384x128, .f32⟩
  | 19 => ⟨S128, .f32⟩
  | 20 => ⟨S128x128, .f32⟩
  | 21 => ⟨S128, .f32⟩
  | 22 => ⟨S128x128, .f32⟩
  | 23 => ⟨S128, .f32⟩
  | 24 => ⟨S128x1, .f32⟩
  | 25 => ⟨S1, .f32⟩
  | 26 => ⟨S128x128, .f32⟩
  | 27 => ⟨S128, .f32⟩
  | 28 => ⟨S128x1, .f32⟩
  | 29 => ⟨S1, .f32⟩
  | 30 => ⟨S2, .f32⟩
  | 31 => ⟨S_, .i32⟩
  | 32 => ⟨S262144, .i32⟩
  | 33 => ⟨S262144, .i1⟩
  | 34 => ⟨S_, .i32⟩
  | 35 => ⟨S262144, .i32⟩
  | 36 => ⟨S262144, .i32⟩
  | 37 => ⟨S262144, .i32⟩
  | 38 => ⟨S262144x1, .i32⟩
  | 39 => ⟨S262144x3, .f32⟩
  | 40 => ⟨S_, .i32⟩
  | 41 => ⟨S262144, .i32⟩
  | 42 => ⟨S262144, .i1⟩
  | 43 => ⟨S_, .i32⟩
  | 44 => ⟨S262144, .i32⟩
  | 45 => ⟨S262144, .i32⟩
  | 46 => ⟨S262144, .i32⟩
  | 47 => ⟨S262144x1, .i32⟩
  | 48 => ⟨S262144x3, .f32⟩
  | 49 => ⟨S262144x3, .f32⟩
  | 50 => ⟨S_, .i32⟩
  | 51 => ⟨S262144, .i32⟩
  | 52 => ⟨S262144, .i1⟩
  | 53 => ⟨S_, .i32⟩
  | 54 => ⟨S262144, .i32⟩
  | 55 => ⟨S262144, .i32⟩
  | 56 => ⟨S262144, .i32⟩
  | 57 => ⟨S262144x1, .i32⟩
  | 58 => ⟨S262144x128, .f32⟩
  | 59 => ⟨S_, .i32⟩
  | 60 => ⟨S262144, .i32⟩
  | 61 => ⟨S262144, .i1⟩
  | 62 => ⟨S_, .i32⟩
  | 63 => ⟨S262144, .i32⟩
  | 64 => ⟨S262144, .i32⟩
  | 65 => ⟨S262144, .i32⟩
  | 66 => ⟨S262144x1, .i32⟩
  | 67 => ⟨S262144x128, .f32⟩
  | 68 => ⟨S262144x3, .f32⟩
  | 69 => ⟨S_, .f32⟩
  | 70 => ⟨S262144, .f32⟩
  | 71 => ⟨S262144x1, .f32⟩
  | 72 => ⟨S262144x257, .f32⟩
  | 73 => ⟨S262144x128, .f32⟩
  | 74 => ⟨S1x128, .f32⟩
  | 75 => ⟨S262144x128, .f32⟩
  | 76 => ⟨S262144x128, .f32⟩
  | 77 => ⟨S_, .f32⟩
  | 78 => ⟨S262144x128, .f32⟩
  | 79 => ⟨S262144x128, .f32⟩
  | 80 => ⟨S262144x128, .f32⟩
  | 81 => ⟨S1x128, .f32⟩
  | 82 => ⟨S262144x128, .f32⟩
  | 83 => ⟨S262144x128, .f32⟩
  | 84 => ⟨S_, .f32⟩
  | 85 => ⟨S50000x128, .f32⟩
  | 86 => ⟨S262144x1, .i32⟩
  | 87 => ⟨S50000x128, .f32⟩
  | 88 => ⟨S262144x128, .f32⟩
  | 89 => ⟨S1x128, .f32⟩
  | 90 => ⟨S262144x128, .f32⟩
  | 91 => ⟨S262144x128, .f32⟩
  | 92 => ⟨S_, .f32⟩
  | 93 => ⟨S262144x128, .f32⟩
  | 94 => ⟨S262144x128, .f32⟩
  | 95 => ⟨S262144x1, .f32⟩
  | 96 => ⟨S1x1, .f32⟩
  | 97 => ⟨S262144x1, .f32⟩
  | 98 => ⟨S262144x1, .f32⟩
  | 99 => ⟨S262144x1, .f32⟩
  | 100 => ⟨S262144x1, .f32⟩
  | 101 => ⟨S_, .f32⟩
  | 102 => ⟨S262144x1, .f32⟩
  | 103 => ⟨S262144x1, .f32⟩
  | 104 => ⟨S_, .f32⟩
  | 105 => ⟨S262144x1, .f32⟩
  | 106 => ⟨S262144x1, .f32⟩
  | 107 => ⟨S1, .f32⟩
  | 108 => ⟨S_, .f32⟩
  | 109 => ⟨S262144x3, .f32⟩
  | 110 => ⟨S262144x3, .f32⟩
  | 111 => ⟨S_, .f32⟩
  | 112 => ⟨S50000x3, .f32⟩
  | 113 => ⟨S262144x1, .i32⟩
  | 114 => ⟨S50000x3, .f32⟩
  | 115 => ⟨S50000x3, .f32⟩
  | 116 => ⟨S50000x3, .f32⟩
  | 117 => ⟨S_, .i32⟩
  | 118 => ⟨S262144, .i32⟩
  | 119 => ⟨S262144, .i1⟩
  | 120 => ⟨S_, .i32⟩
  | 121 => ⟨S262144, .i32⟩
  | 122 => ⟨S262144, .i32⟩
  | 123 => ⟨S262144, .i32⟩
  | 124 => ⟨S262144x1, .i32⟩
  | 125 => ⟨S262144x3, .f32⟩
  | 126 => ⟨S_, .i32⟩
  | 127 => ⟨S262144, .i32⟩
  | _ => ⟨S50000x128, .f32⟩

abbrev hbmTy0_1 (i : Nat) : BufTy := match i % 128 with
  | 0 => ⟨S262144, .i1⟩
  | 1 => ⟨S_, .i32⟩
  | 2 => ⟨S262144, .i32⟩
  | 3 => ⟨S262144, .i32⟩
  | 4 => ⟨S262144, .i32⟩
  | 5 => ⟨S262144x1, .i32⟩
  | 6 => ⟨S262144x3, .f32⟩
  | 7 => ⟨S262144x3, .f32⟩
  | 8 => ⟨S_, .i32⟩
  | 9 => ⟨S262144, .i32⟩
  | 10 => ⟨S262144, .i1⟩
  | 11 => ⟨S_, .i32⟩
  | 12 => ⟨S262144, .i32⟩
  | 13 => ⟨S262144, .i32⟩
  | 14 => ⟨S262144, .i32⟩
  | 15 => ⟨S262144x1, .i32⟩
  | 16 => ⟨S262144x128, .f32⟩
  | 17 => ⟨S_, .i32⟩
  | 18 => ⟨S262144, .i32⟩
  | 19 => ⟨S262144, .i1⟩
  | 20 => ⟨S_, .i32⟩
  | 21 => ⟨S262144, .i32⟩
  | 22 => ⟨S262144, .i32⟩
  | 23 => ⟨S262144, .i32⟩
  | 24 => ⟨S262144x1, .i32⟩
  | 25 => ⟨S262144x128, .f32⟩
  | 26 => ⟨S262144x3, .f32⟩
  | 27 => ⟨S_, .f32⟩
  | 28 => ⟨S262144, .f32⟩
  | 29 => ⟨S262144x1, .f32⟩
  | 30 => ⟨S262144x257, .f32⟩
  | 31 => ⟨S262144x128, .f32⟩
  | 32 => ⟨S1x128, .f32⟩
  | 33 => ⟨S262144x128, .f32⟩
  | 34 => ⟨S262144x128, .f32⟩
  | 35 => ⟨S_, .f32⟩
  | 36 => ⟨S262144x128, .f32⟩
  | 37 => ⟨S262144x128, .f32⟩
  | 38 => ⟨S262144x128, .f32⟩
  | 39 => ⟨S1x128, .f32⟩
  | 40 => ⟨S262144x128, .f32⟩
  | 41 => ⟨S262144x128, .f32⟩
  | 42 => ⟨S_, .f32⟩
  | 43 => ⟨S50000x128, .f32⟩
  | 44 => ⟨S262144x1, .i32⟩
  | 45 => ⟨S50000x128, .f32⟩
  | 46 => ⟨S262144x128, .f32⟩
  | 47 => ⟨S1x128, .f32⟩
  | 48 => ⟨S262144x128, .f32⟩
  | 49 => ⟨S262144x128, .f32⟩
  | 50 => ⟨S_, .f32⟩
  | 51 => ⟨S262144x128, .f32⟩
  | 52 => ⟨S262144x128, .f32⟩
  | 53 => ⟨S262144x1, .f32⟩
  | 54 => ⟨S1x1, .f32⟩
  | 55 => ⟨S262144x1, .f32⟩
  | 56 => ⟨S262144x1, .f32⟩
  | 57 => ⟨S262144x1, .f32⟩
  | 58 => ⟨S262144x1, .f32⟩
  | 59 => ⟨S_, .f32⟩
  | 60 => ⟨S262144x1, .f32⟩
  | 61 => ⟨S262144x1, .f32⟩
  | 62 => ⟨S_, .f32⟩
  | 63 => ⟨S262144x1, .f32⟩
  | 64 => ⟨S262144x1, .f32⟩
  | 65 => ⟨S1, .f32⟩
  | 66 => ⟨S_, .f32⟩
  | 67 => ⟨S262144x3, .f32⟩
  | 68 => ⟨S262144x3, .f32⟩
  | 69 => ⟨S_, .f32⟩
  | 70 => ⟨S50000x3, .f32⟩
  | 71 => ⟨S262144x1, .i32⟩
  | 72 => ⟨S50000x3, .f32⟩
  | 73 => ⟨S50000x3, .f32⟩
  | 74 => ⟨S50000x3, .f32⟩
  | 75 => ⟨S50000x384, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S50000x128, .f32⟩
  | 88 => ⟨S50000x3, .f32⟩
  | 89 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_c : Ref sig .tc := ⟨.hbm, 31, rfl⟩
abbrev main_v0 : Ref sig .tc := ⟨.hbm, 32, rfl⟩
abbrev main_v1 : Ref sig .tc := ⟨.hbm, 33, rfl⟩
abbrev main_c_0 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_c_1 : Ref sig .tc := ⟨.hbm, 40, rfl⟩
abbrev main_v7 : Ref sig .tc := ⟨.hbm, 41, rfl⟩
abbrev main_v8 : Ref sig .tc := ⟨.hbm, 42, rfl⟩
abbrev main_c_2 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_c_3 : Ref sig .tc := ⟨.hbm, 50, rfl⟩
abbrev main_v15 : Ref sig .tc := ⟨.hbm, 51, rfl⟩
abbrev main_v16 : Ref sig .tc := ⟨.hbm, 52, rfl⟩
abbrev main_c_4 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_c_5 : Ref sig .tc := ⟨.hbm, 59, rfl⟩
abbrev main_v22 : Ref sig .tc := ⟨.hbm, 60, rfl⟩
abbrev main_v23 : Ref sig .tc := ⟨.hbm, 61, rfl⟩
abbrev main_c_6 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_7 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_8 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_9 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_cst_10 : Ref sig .tc := ⟨.hbm, 101, rfl⟩
abbrev main_v58 : Ref sig .tc := ⟨.hbm, 102, rfl⟩
abbrev main_v59 : Ref sig .tc := ⟨.hbm, 103, rfl⟩
abbrev main_cst_11 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_12 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_c_13 : Ref sig .tc := ⟨.hbm, 117, rfl⟩
abbrev main_v71 : Ref sig .tc := ⟨.hbm, 118, rfl⟩
abbrev main_v72 : Ref sig .tc := ⟨.hbm, 119, rfl⟩
abbrev main_c_14 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_c_15 : Ref sig .tc := ⟨.hbm, 126, rfl⟩
abbrev main_v78 : Ref sig .tc := ⟨.hbm, 127, rfl⟩
abbrev main_v79 : Ref sig .tc := ⟨.hbm, 128, rfl⟩
abbrev main_c_16 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_c_17 : Ref sig .tc := ⟨.hbm, 136, rfl⟩
abbrev main_v86 : Ref sig .tc := ⟨.hbm, 137, rfl⟩
abbrev main_v87 : Ref sig .tc := ⟨.hbm, 138, rfl⟩
abbrev main_c_18 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_c_19 : Ref sig .tc := ⟨.hbm, 145, rfl⟩
abbrev main_v93 : Ref sig .tc := ⟨.hbm, 146, rfl⟩
abbrev main_v94 : Ref sig .tc := ⟨.hbm, 147, rfl⟩
abbrev main_c_20 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_21 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_cst_22 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_cst_23 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_cst_24 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_cst_25 : Ref sig .tc := ⟨.hbm, 187, rfl⟩
abbrev main_v129 : Ref sig .tc := ⟨.hbm, 188, rfl⟩
abbrev main_v130 : Ref sig .tc := ⟨.hbm, 189, rfl⟩
abbrev main_cst_26 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_cst_27 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_cst_28 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  reducesTo_S262144x3_S262144_d1 : S262144x3.ReducesTo [1] S262144
  h_S_ : 0 < S_.numel
  concatenates_S262144x128_S262144x128_S262144x1_S262144x257_d1 : Shape.Concatenates [S262144x128, S262144x128, S262144x1] S262144x257 1
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S_S50000x128 : S_.BroadcastsInDim S50000x128 (![] : Fin 0 → Fin S50000x128.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  bcast_S_S262144x1 : S_.BroadcastsInDim S262144x1 (![] : Fin 0 → Fin S262144x1.rank)
  slices_S2_S1_0 : S2.Slices ![0] S1
  shapeCasts_S1_S_ : S1.ShapeCasts S_
  bcast_S262144x1_S262144x3_0_1 : S262144x1.BroadcastsInDim S262144x3 (![0, 1] : Fin 2 → Fin S262144x3.rank)
  bcast_S_S50000x3 : S_.BroadcastsInDim S50000x3 (![] : Fin 0 → Fin S50000x3.rank)
  slices_S2_S1_1 : S2.Slices ![1] S1
  concatenates_S50000x128_S50000x128_S50000x128_S50000x384_d1 : Shape.Concatenates [S50000x128, S50000x128, S50000x128] S50000x384 1
  bcast_S1x128_S50000x128_0_1 : S1x128.BroadcastsInDim S50000x128 (![0, 1] : Fin 2 → Fin S50000x128.rank)
  gather_S50000x3_S262144x1_S262144x3_1_0_n_n_0_1_13_wf : GatherDims.WF S50000x3 S262144x1 S262144x3 [1] [0] [] [0] [] 1 ![1, 3]
  gather_S50000x128_S262144x1_S262144x128_1_0_n_n_0_1_1128_wf : GatherDims.WF S50000x128 S262144x1 S262144x128 [1] [0] [] [0] [] 1 ![1, 128]
  dot_S262144x257_S257x128_S262144x128_1_0_0_1_n_n_wf : DotDims.WF S262144x257 S257x128 S262144x128 [1] [0] [0] [1] [] []
  dot_S262144x128_S128x128_S262144x128_1_0_0_1_n_n_wf : DotDims.WF S262144x128 S128x128 S262144x128 [1] [0] [0] [1] [] []
  scatter_S50000x128_S262144x1_S262144x128_1_0_0_1_wf : ScatterDims.WF S50000x128 S262144x1 S262144x128 [1] [0] [0] 1
  dot_S262144x128_S128x1_S262144x1_1_0_0_1_n_n_wf : DotDims.WF S262144x128 S128x1 S262144x1 [1] [0] [0] [1] [] []
  scatter_S50000x3_S262144x1_S262144x3_1_0_0_1_wf : ScatterDims.WF S50000x3 S262144x1 S262144x3 [1] [0] [0] 1
  dot_S50000x384_S384x128_S50000x128_1_0_0_1_n_n_wf : DotDims.WF S50000x384 S384x128 S50000x128 [1] [0] [0] [1] [] []
  dot_S50000x128_S128x128_S50000x128_1_0_0_1_n_n_wf : DotDims.WF S50000x128 S128x128 S50000x128 [1] [0] [0] [1] [] []

variable [Facts₀]

def gather_S50000x3_S262144x1_S262144x3_1_0_n_n_0_1_13 : GatherDims S50000x3 S262144x1 S262144x3 where
  offsetDims := [1]
  collapsedSliceDims := [0]
  operandBatchingDims := []
  startIndicesBatchingDims := []
  startIndexMap := [0]
  indexVectorDim := 1
  sliceSizes := ![1, 3]
  wf := gather_S50000x3_S262144x1_S262144x3_1_0_n_n_0_1_13_wf
def gather_S50000x128_S262144x1_S262144x128_1_0_n_n_0_1_1128 : GatherDims S50000x128 S262144x1 S262144x128 where
  offsetDims := [1]
  collapsedSliceDims := [0]
  operandBatchingDims := []
  startIndicesBatchingDims := []
  startIndexMap := [0]
  indexVectorDim := 1
  sliceSizes := ![1, 128]
  wf := gather_S50000x128_S262144x1_S262144x128_1_0_n_n_0_1_1128_wf
def dot_S262144x257_S257x128_S262144x128_1_0_0_1_n_n : DotDims S262144x257 S257x128 S262144x128 where
  lhsContracting := [1]
  rhsContracting := [0]
  lhsNonContracting := [0]
  rhsNonContracting := [1]
  lhsBatch := []
  rhsBatch := []
  wf := dot_S262144x257_S257x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def scatter_S50000x128_S262144x1_S262144x128_1_0_0_1 : ScatterDims S50000x128 S262144x1 S262144x128 where
  updateWindowDims := [1]
  insertedWindowDims := [0]
  scatterDimsToOperandDims := [0]
  indexVectorDim := 1
  wf := scatter_S50000x128_S262144x1_S262144x128_1_0_0_1_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf
def scatter_S50000x3_S262144x1_S262144x3_1_0_0_1 : ScatterDims S50000x3 S262144x1 S262144x3 where
  updateWindowDims := [1]
  insertedWindowDims := [0]
  scatterDimsToOperandDims := [0]
  indexVectorDim := 1
  wf := scatter_S50000x3_S262144x1_S262144x3_1_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Frames.lean ====
/-
  The four conjuncts of the claim that say nothing about values.

  Each of the three programs runs to the end from any memory and leaves its argument arrays as it found them: for the
  two programs with kernels this is their frame statement; the host-only program's run ends with its two results at
  their composed terms and the arguments unchanged, and the frame statement keeps the arguments' half. The exact
  program is the word-level program's own text read at the exact instance (no operation was rewritten), so there is
  nothing to preserve.
-/
import proofs.«178050_j6622839570871_2_alg».proof.Defs
import proofs.«178050_j6622839570871_2_alg».proof.Proof.Gen.Kernel
import proofs.«178050_j6622839570871_2_alg».proof.Proof.Gen.Kernel.Frame
import proofs.«178050_j6622839570871_2_alg».proof.Proof.Gen.KernelIdeal
import proofs.«178050_j6622839570871_2_alg».proof.Proof.Gen.KernelIdeal.Frame
import proofs.«178050_j6622839570871_2_alg».proof.Proof.Gen.ReferenceIdeal
import proofs.«178050_j6622839570871_2_alg».proof.Proof.Gen.ReferenceIdeal.Run
import proofs.«178050_j6622839570871_2_alg».proof.Proof.Gen.Pre_finite_inputs

noncomputable section

namespace Cert.Proof.Frames

open Idealize.ShloMosaic Idealize.SL.Sem

/-- The word-level program runs and leaves its arguments unchanged. -/
theorem frame_kernel : Cert.frame_Kernel := fun m ρ _ => Cert.Kernel.Gen.frame m ρ

/-- The exact program runs and leaves its arguments unchanged. -/
theorem frame_kernelIdeal : Cert.frame_KernelIdeal := fun m ρ _ => Cert.KernelIdeal.Gen.frame m ρ

/-- The host-only program runs and leaves its arguments unchanged: its run's statement without the two results. -/
theorem frame_reference : Cert.frame_ReferenceIdeal := fun m ρ _ =>
  (θ_run Cert.ReferenceIdeal.defs _ _).mono (fun _ h c => (h c).2.2) (Cert.ReferenceIdeal.Value.run (F := Ideal) m ρ)

/-- No operation was rewritten between the word-level program and the exact one. -/
theorem preserves : Cert.preserves_Kernel_KernelIdeal := trivial

end Cert.Proof.Frames

end
-- ==== Proof.KRun.lean ====
/-
  The idealized kernel program's run, with every buffer named.

  The program is six segments in a row: a stretch of host operations (casts, index wraps, row gathers, the three
  pieces of each first-layer weight matrix), the two edge kernels tiled over blocks of 2048 edges, a stretch of host
  operations (the four segment sums and the two coordinate scales), the cell kernel tiled over blocks of 2000 cells,
  and the final coordinate sum. The contents of the buffers at each boundary are a fold from the launch memory:
  a host stretch applies its operations in order, a kernel leaves its arrays at what its write-backs fold to and
  every other buffer as it was. This module states that every weakly fair execution terminates, and that at the end
  EVERY buffer that outlives the kernels holds the fold's last valuation; what the two results and the arguments
  hold then follows by reading that valuation at one buffer.
-/
import proofs.«178050_j6622839570871_2_alg».proof.Proof.Gen.KernelIdeal.Frame

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every buffer that is not scoped to a
    kernel ends at the last valuation of the fold through the six segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    -- the program is the segments' run
    (fun c Q => by rw [main_run m ρ c])
    -- the three kernels' pipelines are distinct
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch's ghost state is the pipelines' initial cells; nothing else is owned per device
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    -- each segment ends where the next begins; after the last one the thread holds the buffers at the last valuation
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    -- at launch the thread holds every unscoped buffer at the launch memory
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    -- holding the buffers at a valuation, against the final state, says the state's memory is that valuation there
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- A buffer of the program that no kernel scopes is among those the run names. -/
theorem named (b : Ref sig .tc) (h : ¬ (Proc.devRef .tc b : DevRef τ sig).isScoped) :
    Proc.devRef .tc b ∈ Pipeline.ucRefs τ sig := mem_uc b h

end Cert.KernelIdeal.Whole

end
-- ==== Proof.KHost.lean ====
/-
  What each kernel of the program finds in the buffers it reads, as terms of the launch memory.

  Before the edge kernels the host gathers, for every edge, the feature row and the coordinate row of its cell and of
  its neighbour (an index below zero is first wrapped by the table's length, as array indexing does), and cuts each
  first-layer weight matrix into its top 128 rows, its middle 128 rows and its last row. Between the edge kernels and
  the cell kernel it sums the edges' messages and gated differences into their cells (a scatter that adds) and
  scales the coordinate sums. No host operation and no kernel writes an argument, so an argument's buffer holds the
  launch contents at every boundary.
-/
import proofs.«178050_j6622839570871_2_alg».proof.Proof.Gen.KernelIdeal.Frame
import Idealize.ShloMosaic.Lib.StableHlo.Run
import Idealize.ShloMosaic.PureOps.Ideal

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen

/-! ## The host's operations, named -/

/-- An index vector with its negative entries wrapped by the table's 50000 rows, as a column of start indices. -/
def wrapCol (idx : (⟨S262144, .i32⟩ : BufTy).Contents (Elt Ideal)) : (⟨S262144x1, .i32⟩ : BufTy).Contents (Elt Ideal) :=
  broadcastInDim S262144x1 ![0] bcast_S262144_S262144x1_0
    (select (cmpi .slt idx (broadcastInDim S262144 ![] bcast_S_S262144 (constantI S_ 32 0#32)))
      (addi idx (broadcastInDim S262144 ![] bcast_S_S262144 (constantI S_ 32 50000#32))) idx)

/-- The rows of a 50000 x 128 table at the edges' indices. -/
def takeRows128 (tbl : FVec Ideal S50000x128 .bf16) (idx : (⟨S262144, .i32⟩ : BufTy).Contents (Elt Ideal)) :
    FVec Ideal S262144x128 .bf16 :=
  Host.gather gather_S50000x128_S262144x1_S262144x128_1_0_n_n_0_1_1128 tbl (wrapCol idx)

/-- The rows of a 50000 x 3 table at the edges' indices. -/
def takeRows3 (tbl : FVec Ideal S50000x3 .f32) (idx : (⟨S262144, .i32⟩ : BufTy).Contents (Elt Ideal)) :
    FVec Ideal S262144x3 .f32 :=
  Host.gather gather_S50000x3_S262144x1_S262144x3_1_0_n_n_0_1_13 tbl (wrapCol idx)

/-- The edges' 128-wide rows summed into their cells. -/
def segSum128 (idx : (⟨S262144, .i32⟩ : BufTy).Contents (Elt Ideal)) (u : FVec Ideal S262144x128 .f32) :
    FVec Ideal S50000x128 .f32 :=
  Host.scatterAdd (F := Ideal) scatter_S50000x128_S262144x1_S262144x128_1_0_0_1
    (broadcastInDim S50000x128 ![] bcast_S_S50000x128 (constant (F := Ideal) S_ .f32 0x00000000#32))
    (broadcastInDim S262144x1 ![0] bcast_S262144_S262144x1_0 idx) u

/-- The edges' 3-wide rows summed into their cells. -/
def segSum3 (idx : (⟨S262144, .i32⟩ : BufTy).Contents (Elt Ideal)) (u : FVec Ideal S262144x3 .f32) :
    FVec Ideal S50000x3 .f32 :=
  Host.scatterAdd (F := Ideal) scatter_S50000x3_S262144x1_S262144x3_1_0_0_1
    (broadcastInDim S50000x3 ![] bcast_S_S50000x3 (constant (F := Ideal) S_ .f32 0x00000000#32))
    (broadcastInDim S262144x1 ![0] bcast_S262144_S262144x1_0 idx) u

variable (m : (ℓ : Loc nD τ sig) → Buf (Elt Ideal) ℓ) (ρ : Dev nD → PrngReg)

/-! ## Arguments keep their launch contents -/
theorem W1_main_arg11 (c : Dev nD) : W1 m ρ c (Proc.devRef .tc main_arg11) = m ((c : Thread nD τ).loc main_arg11) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg12 (c : Dev nD) : W1 m ρ c (Proc.devRef .tc main_arg12) = m ((c : Thread nD τ).loc main_arg12) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg13 (c : Dev nD) : W1 m ρ c (Proc.devRef .tc main_arg13) = m ((c : Thread nD τ).loc main_arg13) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg22 (c : Dev nD) : W1 m ρ c (Proc.devRef .tc main_arg22) = m ((c : Thread nD τ).loc main_arg22) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg23 (c : Dev nD) : W1 m ρ c (Proc.devRef .tc main_arg23) = m ((c : Thread nD τ).loc main_arg23) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg24 (c : Dev nD) : W1 m ρ c (Proc.devRef .tc main_arg24) = m ((c : Thread nD τ).loc main_arg24) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg25 (c : Dev nD) : W1 m ρ c (Proc.devRef .tc main_arg25) = m ((c : Thread nD τ).loc main_arg25) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg15 (c : Dev nD) : W1 m ρ c (Proc.devRef .tc main_arg15) = m ((c : Thread nD τ).loc main_arg15) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg16 (c : Dev nD) : W1 m ρ c (Proc.devRef .tc main_arg16) = m ((c : Thread nD τ).loc main_arg16) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg17 (c : Dev nD) : W1 m ρ c (Proc.devRef .tc main_arg17) = m ((c : Thread nD τ).loc main_arg17) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg26 (c : Dev nD) : W1 m ρ c (Proc.devRef .tc main_arg26) = m ((c : Thread nD τ).loc main_arg26) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg27 (c : Dev nD) : W1 m ρ c (Proc.devRef .tc main_arg27) = m ((c : Thread nD τ).loc main_arg27) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg28 (c : Dev nD) : W1 m ρ c (Proc.devRef .tc main_arg28) = m ((c : Thread nD τ).loc main_arg28) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg29 (c : Dev nD) : W1 m ρ c (Proc.devRef .tc main_arg29) = m ((c : Thread nD τ).loc main_arg29) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg6 (c : Dev nD) : W1 m ρ c (Proc.devRef .tc main_arg6) = m ((c : Thread nD τ).loc main_arg6) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg8 (c : Dev nD) : W1 m ρ c (Proc.devRef .tc main_arg8) = m ((c : Thread nD τ).loc main_arg8) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg30 (c : Dev nD) : W1 m ρ c (Proc.devRef .tc main_arg30) = m ((c : Thread nD τ).loc main_arg30) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg0 (c : Dev nD) : W1 m ρ c (Proc.devRef .tc main_arg0) = m ((c : Thread nD τ).loc main_arg0) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg18 (c : Dev nD) : W1 m ρ c (Proc.devRef .tc main_arg18) = m ((c : Thread nD τ).loc main_arg18) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg19 (c : Dev nD) : W1 m ρ c (Proc.devRef .tc main_arg19) = m ((c : Thread nD τ).loc main_arg19) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg20 (c : Dev nD) : W1 m ρ c (Proc.devRef .tc main_arg20) = m ((c : Thread nD τ).loc main_arg20) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg21 (c : Dev nD) : W1 m ρ c (Proc.devRef .tc main_arg21) = m ((c : Thread nD τ).loc main_arg21) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W1_main_arg3 (c : Dev nD) : W1 m ρ c (Proc.devRef .tc main_arg3) = m ((c : Thread nD τ).loc main_arg3) :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
theorem W2_main_arg15 (c : Dev nD) : W2 m ρ c (Proc.devRef .tc main_arg15) = m ((c : Thread nD τ).loc main_arg15) :=
  (W2_of_ne m ρ c main_arg15 (by decide)).trans (W1_main_arg15 m ρ c)
theorem W2_main_arg16 (c : Dev nD) : W2 m ρ c (Proc.devRef .tc main_arg16) = m ((c : Thread nD τ).loc main_arg16) :=
  (W2_of_ne m ρ c main_arg16 (by decide)).trans (W1_main_arg16 m ρ c)
theorem W2_main_arg17 (c : Dev nD) : W2 m ρ c (Proc.devRef .tc main_arg17) = m ((c : Thread nD τ).loc main_arg17) :=
  (W2_of_ne m ρ c main_arg17 (by decide)).trans (W1_main_arg17 m ρ c)
theorem W2_main_arg26 (c : Dev nD) : W2 m ρ c (Proc.devRef .tc main_arg26) = m ((c : Thread nD τ).loc main_arg26) :=
  (W2_of_ne m ρ c main_arg26 (by decide)).trans (W1_main_arg26 m ρ c)
theorem W2_main_arg27 (c : Dev nD) : W2 m ρ c (Proc.devRef .tc main_arg27) = m ((c : Thread nD τ).loc main_arg27) :=
  (W2_of_ne m ρ c main_arg27 (by decide)).trans (W1_main_arg27 m ρ c)
theorem W2_main_arg28 (c : Dev nD) : W2 m ρ c (Proc.devRef .tc main_arg28) = m ((c : Thread nD τ).loc main_arg28) :=
  (W2_of_ne m ρ c main_arg28 (by decide)).trans (W1_main_arg28 m ρ c)
theorem W2_main_arg29 (c : Dev nD) : W2 m ρ c (Proc.devRef .tc main_arg29) = m ((c : Thread nD τ).loc main_arg29) :=
  (W2_of_ne m ρ c main_arg29 (by decide)).trans (W1_main_arg29 m ρ c)
theorem W2_main_arg6 (c : Dev nD) : W2 m ρ c (Proc.devRef .tc main_arg6) = m ((c : Thread nD τ).loc main_arg6) :=
  (W2_of_ne m ρ c main_arg6 (by decide)).trans (W1_main_arg6 m ρ c)
theorem W2_main_arg8 (c : Dev nD) : W2 m ρ c (Proc.devRef .tc main_arg8) = m ((c : Thread nD τ).loc main_arg8) :=
  (W2_of_ne m ρ c main_arg8 (by decide)).trans (W1_main_arg8 m ρ c)
theorem W2_main_arg30 (c : Dev nD) : W2 m ρ c (Proc.devRef .tc main_arg30) = m ((c : Thread nD τ).loc main_arg30) :=
  (W2_of_ne m ρ c main_arg30 (by decide)).trans (W1_main_arg30 m ρ c)
theorem W2_main_arg0 (c : Dev nD) : W2 m ρ c (Proc.devRef .tc main_arg0) = m ((c : Thread nD τ).loc main_arg0) :=
  (W2_of_ne m ρ c main_arg0 (by decide)).trans (W1_main_arg0 m ρ c)
theorem W2_main_arg18 (c : Dev nD) : W2 m ρ c (Proc.devRef .tc main_arg18) = m ((c : Thread nD τ).loc main_arg18) :=
  (W2_of_ne m ρ c main_arg18 (by decide)).trans (W1_main_arg18 m ρ c)
theorem W2_main_arg19 (c : Dev nD) : W2 m ρ c (Proc.devRef .tc main_arg19) = m ((c : Thread nD τ).loc main_arg19) :=
  (W2_of_ne m ρ c main_arg19 (by decide)).trans (W1_main_arg19 m ρ c)
theorem W2_main_arg20 (c : Dev nD) : W2 m ρ c (Proc.devRef .tc main_arg20) = m ((c : Thread nD τ).loc main_arg20) :=
  (W2_of_ne m ρ c main_arg20 (by decide)).trans (W1_main_arg20 m ρ c)
theorem W2_main_arg21 (c : Dev nD) : W2 m ρ c (Proc.devRef .tc main_arg21) = m ((c : Thread nD τ).loc main_arg21) :=
  (W2_of_ne m ρ c main_arg21 (by decide)).trans (W1_main_arg21 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg6 (c : Dev nD) : W3 m ρ c (Proc.devRef .tc main_arg6) = m ((c : Thread nD τ).loc main_arg6) :=
  (W3_of_ne m ρ c main_arg6 (by decide)).trans (W2_main_arg6 m ρ c)
theorem W3_main_arg8 (c : Dev nD) : W3 m ρ c (Proc.devRef .tc main_arg8) = m ((c : Thread nD τ).loc main_arg8) :=
  (W3_of_ne m ρ c main_arg8 (by decide)).trans (W2_main_arg8 m ρ c)
theorem W3_main_arg30 (c : Dev nD) : W3 m ρ c (Proc.devRef .tc main_arg30) = m ((c : Thread nD τ).loc main_arg30) :=
  (W3_of_ne m ρ c main_arg30 (by decide)).trans (W2_main_arg30 m ρ c)
theorem W3_main_arg0 (c : Dev nD) : W3 m ρ c (Proc.devRef .tc main_arg0) = m ((c : Thread nD τ).loc main_arg0) :=
  (W3_of_ne m ρ c main_arg0 (by decide)).trans (W2_main_arg0 m ρ c)
theorem W3_main_arg18 (c : Dev nD) : W3 m ρ c (Proc.devRef .tc main_arg18) = m ((c : Thread nD τ).loc main_arg18) :=
  (W3_of_ne m ρ c main_arg18 (by decide)).trans (W2_main_arg18 m ρ c)
theorem W3_main_arg19 (c : Dev nD) : W3 m ρ c (Proc.devRef .tc main_arg19) = m ((c : Thread nD τ).loc main_arg19) :=
  (W3_of_ne m ρ c main_arg19 (by decide)).trans (W2_main_arg19 m ρ c)
theorem W3_main_arg20 (c : Dev nD) : W3 m ρ c (Proc.devRef .tc main_arg20) = m ((c : Thread nD τ).loc main_arg20) :=
  (W3_of_ne m ρ c main_arg20 (by decide)).trans (W2_main_arg20 m ρ c)
theorem W3_main_arg21 (c : Dev nD) : W3 m ρ c (Proc.devRef .tc main_arg21) = m ((c : Thread nD τ).loc main_arg21) :=
  (W3_of_ne m ρ c main_arg21 (by decide)).trans (W2_main_arg21 m ρ c)
theorem W3_main_arg3 (c : Dev nD) : W3 m ρ c (Proc.devRef .tc main_arg3) = m ((c : Thread nD τ).loc main_arg3) :=
  (W3_of_ne m ρ c main_arg3 (by decide)).trans (W2_main_arg3 m ρ c)
theorem W4_main_arg0 (c : Dev nD) : W4 m ρ c (Proc.devRef .tc main_arg0) = m ((c : Thread nD τ).loc main_arg0) :=
  (StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans (W3_main_arg0 m ρ c)
theorem W4_main_arg18 (c : Dev nD) : W4 m ρ c (Proc.devRef .tc main_arg18) = m ((c : Thread nD τ).loc main_arg18) :=
  (StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans (W3_main_arg18 m ρ c)
theorem W4_main_arg19 (c : Dev nD) : W4 m ρ c (Proc.devRef .tc main_arg19) = m ((c : Thread nD τ).loc main_arg19) :=
  (StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans (W3_main_arg19 m ρ c)
theorem W4_main_arg20 (c : Dev nD) : W4 m ρ c (Proc.devRef .tc main_arg20) = m ((c : Thread nD τ).loc main_arg20) :=
  (StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans (W3_main_arg20 m ρ c)
theorem W4_main_arg21 (c : Dev nD) : W4 m ρ c (Proc.devRef .tc main_arg21) = m ((c : Thread nD τ).loc main_arg21) :=
  (StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans (W3_main_arg21 m ρ c)
theorem W4_main_arg3 (c : Dev nD) : W4 m ρ c (Proc.devRef .tc main_arg3) = m ((c : Thread nD τ).loc main_arg3) :=
  (StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans (W3_main_arg3 m ρ c)
theorem W5_main_arg3 (c : Dev nD) : W5 m ρ c (Proc.devRef .tc main_arg3) = m ((c : Thread nD τ).loc main_arg3) :=
  (W5_of_ne m ρ c main_arg3 (by decide)).trans (W4_main_arg3 m ρ c)

/-! ## What the first stretch of host operations computes -/
theorem W1_main_v9 (c : Dev nD) : W1 m ρ c (Proc.devRef .tc main_v9) = takeRows128 (truncf .bf16 (m ((c : Thread nD τ).loc main_arg0)) bitsLt_bf16_f32) (m ((c : Thread nD τ).loc main_arg6)) := by
  show StableHlo.after hostOps0 (W0 m ρ c) (Proc.devRef .tc main_v9) = _
  after_results_simp <;> rfl
theorem W1_main_v16 (c : Dev nD) : W1 m ρ c (Proc.devRef .tc main_v16) = takeRows128 (truncf .bf16 (m ((c : Thread nD τ).loc main_arg1)) bitsLt_bf16_f32) (m ((c : Thread nD τ).loc main_arg7)) := by
  show StableHlo.after hostOps0 (W0 m ρ c) (Proc.devRef .tc main_v16) = _
  after_results_simp <;> rfl
theorem W1_main_v23 (c : Dev nD) : W1 m ρ c (Proc.devRef .tc main_v23) = takeRows3 (m ((c : Thread nD τ).loc main_arg3)) (m ((c : Thread nD τ).loc main_arg6)) := by
  show StableHlo.after hostOps0 (W0 m ρ c) (Proc.devRef .tc main_v23) = _
  after_results_simp <;> rfl
theorem W1_main_v30 (c : Dev nD) : W1 m ρ c (Proc.devRef .tc main_v30) = takeRows3 (m ((c : Thread nD τ).loc main_arg4)) (m ((c : Thread nD τ).loc main_arg7)) := by
  show StableHlo.after hostOps0 (W0 m ρ c) (Proc.devRef .tc main_v30) = _
  after_results_simp <;> rfl
theorem W1_main_v37 (c : Dev nD) : W1 m ρ c (Proc.devRef .tc main_v37) = takeRows128 (truncf .bf16 (m ((c : Thread nD τ).loc main_arg0)) bitsLt_bf16_f32) (m ((c : Thread nD τ).loc main_arg8)) := by
  show StableHlo.after hostOps0 (W0 m ρ c) (Proc.devRef .tc main_v37) = _
  after_results_simp <;> rfl
theorem W1_main_v44 (c : Dev nD) : W1 m ρ c (Proc.devRef .tc main_v44) = takeRows128 (truncf .bf16 (m ((c : Thread nD τ).loc main_arg2)) bitsLt_bf16_f32) (m ((c : Thread nD τ).loc main_arg9)) := by
  show StableHlo.after hostOps0 (W0 m ρ c) (Proc.devRef .tc main_v44) = _
  after_results_simp <;> rfl
theorem W1_main_v51 (c : Dev nD) : W1 m ρ c (Proc.devRef .tc main_v51) = takeRows3 (m ((c : Thread nD τ).loc main_arg3)) (m ((c : Thread nD τ).loc main_arg8)) := by
  show StableHlo.after hostOps0 (W0 m ρ c) (Proc.devRef .tc main_v51) = _
  after_results_simp <;> rfl
theorem W1_main_v58 (c : Dev nD) : W1 m ρ c (Proc.devRef .tc main_v58) = takeRows3 (m ((c : Thread nD τ).loc main_arg5)) (m ((c : Thread nD τ).loc main_arg9)) := by
  show StableHlo.after hostOps0 (W0 m ρ c) (Proc.devRef .tc main_v58) = _
  after_results_simp <;> rfl
theorem W1_main_v59 (c : Dev nD) : W1 m ρ c (Proc.devRef .tc main_v59) = extractStridedSlice S128x128 ![0, 0] (m ((c : Thread nD τ).loc main_arg10)) slices_S257x128_S128x128_0_0 := by
  show StableHlo.after hostOps0 (W0 m ρ c) (Proc.devRef .tc main_v59) = _
  after_results_simp <;> rfl
theorem W1_main_v60 (c : Dev nD) : W1 m ρ c (Proc.devRef .tc main_v60) = extractStridedSlice S128x128 ![128, 0] (m ((c : Thread nD τ).loc main_arg10)) slices_S257x128_S128x128_128_0 := by
  show StableHlo.after hostOps0 (W0 m ρ c) (Proc.devRef .tc main_v60) = _
  after_results_simp <;> rfl
theorem W1_main_v61 (c : Dev nD) : W1 m ρ c (Proc.devRef .tc main_v61) = extractStridedSlice S1x128 ![256, 0] (m ((c : Thread nD τ).loc main_arg10)) slices_S257x128_S1x128_256_0 := by
  show StableHlo.after hostOps0 (W0 m ρ c) (Proc.devRef .tc main_v61) = _
  after_results_simp <;> rfl
theorem W1_main_v62 (c : Dev nD) : W1 m ρ c (Proc.devRef .tc main_v62) = extractStridedSlice S128x128 ![0, 0] (m ((c : Thread nD τ).loc main_arg14)) slices_S257x128_S128x128_0_0 := by
  show StableHlo.after hostOps0 (W0 m ρ c) (Proc.devRef .tc main_v62) = _
  after_results_simp <;> rfl
theorem W1_main_v63 (c : Dev nD) : W1 m ρ c (Proc.devRef .tc main_v63) = extractStridedSlice S128x128 ![128, 0] (m ((c : Thread nD τ).loc main_arg14)) slices_S257x128_S128x128_128_0 := by
  show StableHlo.after hostOps0 (W0 m ρ c) (Proc.devRef .tc main_v63) = _
  after_results_simp <;> rfl
theorem W1_main_v64 (c : Dev nD) : W1 m ρ c (Proc.devRef .tc main_v64) = extractStridedSlice S1x128 ![256, 0] (m ((c : Thread nD τ).loc main_arg14)) slices_S257x128_S1x128_256_0 := by
  show StableHlo.after hostOps0 (W0 m ρ c) (Proc.devRef .tc main_v64) = _
  after_results_simp <;> rfl

/-! ## The same buffers when the second edge kernel is entered: the first edge kernel writes none of them -/
theorem W2_main_v37 (c : Dev nD) : W2 m ρ c (Proc.devRef .tc main_v37) = takeRows128 (truncf .bf16 (m ((c : Thread nD τ).loc main_arg0)) bitsLt_bf16_f32) (m ((c : Thread nD τ).loc main_arg8)) :=
  (W2_of_ne m ρ c main_v37 (by decide)).trans (W1_main_v37 m ρ c)
theorem W2_main_v44 (c : Dev nD) : W2 m ρ c (Proc.devRef .tc main_v44) = takeRows128 (truncf .bf16 (m ((c : Thread nD τ).loc main_arg2)) bitsLt_bf16_f32) (m ((c : Thread nD τ).loc main_arg9)) :=
  (W2_of_ne m ρ c main_v44 (by decide)).trans (W1_main_v44 m ρ c)
theorem W2_main_v51 (c : Dev nD) : W2 m ρ c (Proc.devRef .tc main_v51) = takeRows3 (m ((c : Thread nD τ).loc main_arg3)) (m ((c : Thread nD τ).loc main_arg8)) :=
  (W2_of_ne m ρ c main_v51 (by decide)).trans (W1_main_v51 m ρ c)
theorem W2_main_v58 (c : Dev nD) : W2 m ρ c (Proc.devRef .tc main_v58) = takeRows3 (m ((c : Thread nD τ).loc main_arg5)) (m ((c : Thread nD τ).loc main_arg9)) :=
  (W2_of_ne m ρ c main_v58 (by decide)).trans (W1_main_v58 m ρ c)
theorem W2_main_v62 (c : Dev nD) : W2 m ρ c (Proc.devRef .tc main_v62) = extractStridedSlice S128x128 ![0, 0] (m ((c : Thread nD τ).loc main_arg14)) slices_S257x128_S128x128_0_0 :=
  (W2_of_ne m ρ c main_v62 (by decide)).trans (W1_main_v62 m ρ c)
theorem W2_main_v63 (c : Dev nD) : W2 m ρ c (Proc.devRef .tc main_v63) = extractStridedSlice S128x128 ![128, 0] (m ((c : Thread nD τ).loc main_arg14)) slices_S257x128_S128x128_128_0 :=
  (W2_of_ne m ρ c main_v63 (by decide)).trans (W1_main_v63 m ρ c)
theorem W2_main_v64 (c : Dev nD) : W2 m ρ c (Proc.devRef .tc main_v64) = extractStridedSlice S1x128 ![256, 0] (m ((c : Thread nD τ).loc main_arg14)) slices_S257x128_S1x128_256_0 :=
  (W2_of_ne m ρ c main_v64 (by decide)).trans (W1_main_v64 m ρ c)

end Cert.KernelIdeal.Whole

end
-- ==== Proof.Spec.lean ====
/-
  One step of message passing between the cells of a complex and their upper and lower neighbours, as
  functions of rows of extended reals.

  An edge joins a cell i to a neighbour j. From the two feature rows h_i, h_j (128 entries each) and the two
  coordinate rows x_i, x_j (3 entries each) the edge's message is a two-layer perceptron of the concatenation
  [h_i, h_j, |x_i - x_j|^2] (257 entries): with the first layer's 257 x 128 weights cut into its top 128 rows Wa,
  its middle 128 rows Wb and its last row Wc, the hidden row is

      relu (h_i . Wa + h_j . Wb + |x_i - x_j|^2 * Wc + b1),

  and the message is hidden . W2 + b2. The edge's coordinate gate is the logistic function of a second
  two-layer perceptron (128 -> 128 -> 1) of the message, and the gated difference is (x_i - x_j) * gate.
  A cell's update is its own row plus a two-layer perceptron of the concatenation [h, m_up, m_down] (384 entries).

  Every function here reads ONE row of each row-indexed operand, so a block of rows of the operands gives the same
  block of rows of the result (the `_rows` lemmas): this is what lets the rows be tiled over a grid.
  Sums are sums in the commutative monoid of extended reals; nothing is assumed finite.
-/
import Idealize.ShloMosaic.PureOps.Ideal
import Idealize.ShloMosaic.Lib.ValueIdx

noncomputable section

namespace Boundary

open Idealize.ShloMosaic Idealize.ShloMosaic.ValueIdx

/-- An a x b matrix and a vector of a entries, of extended reals, indexed as arrays are. -/
abbrev Mat (a b : Nat) : Type := (⟨2, ![a, b]⟩ : Shape).Idx → EReal
abbrev Vct (a : Nat) : Type := (⟨1, ![a]⟩ : Shape).Idx → EReal

/-- Row r of a matrix. -/
def row {a b : Nat} (x : Mat a b) (r : Fin a) : Fin b → EReal := fun k => x (ix2 r k)

/-- Positions k, 128 + k and 256 among 257. -/
def lo (k : Fin 128) : Fin 257 := ⟨k.val, by omega⟩
def mid (k : Fin 128) : Fin 257 := ⟨128 + k.val, by omega⟩
def last : Fin 257 := ⟨256, by omega⟩

/-- The top 128 rows, the middle 128 rows and the last row of a 257 x 128 matrix. -/
def topRows (W : Mat 257 128) : Mat 128 128 := fun i => W (ix2 (lo (i 0)) (i 1))
def midRows (W : Mat 257 128) : Mat 128 128 := fun i => W (ix2 (mid (i 0)) (i 1))
def lastRow (W : Mat 257 128) : Mat 1 128 := fun i => W (ix2 last (i 1))

/-- The squared distance of two coordinate rows. -/
def dist2 (xi xj : Fin 3 → EReal) : EReal := ∑ k : Fin 3, (xi k - xj k) * (xi k - xj k)

/-- The hidden row of an edge's message perceptron, at column c. -/
def hidden (hi hj : Fin 128 → EReal) (d : EReal) (Wa Wb : Mat 128 128) (Wc : Mat 1 128) (b1 : Vct 128)
    (c : Fin 128) : EReal :=
  max ((((∑ k : Fin 128, hi k * Wa (ix2 k c)) + ∑ k : Fin 128, hj k * Wb (ix2 k c))
    + d * Wc (ix2 (0 : Fin 1) c)) + b1 (ix1 c)) 0

/-- An edge's message, at column c. -/
def message (hi hj : Fin 128 → EReal) (xi xj : Fin 3 → EReal) (Wa Wb : Mat 128 128) (Wc : Mat 1 128) (b1 : Vct 128)
    (W2 : Mat 128 128) (b2 : Vct 128) (c : Fin 128) : EReal :=
  (∑ k : Fin 128, hidden hi hj (dist2 xi xj) Wa Wb Wc b1 k * W2 (ix2 k c)) + b2 (ix1 c)

/-- An edge's coordinate gate, from its message row. -/
def gate (mr : Fin 128 → EReal) (V1 : Mat 128 128) (c1 : Vct 128) (V2 : Mat 128 1) (c2 : Vct 1) : EReal :=
  Ideal.logistic ((∑ k : Fin 128, max ((∑ l : Fin 128, mr l * V1 (ix2 l k)) + c1 (ix1 k)) 0 * V2 (ix2 k (0 : Fin 1)))
    + c2 (ix1 (0 : Fin 1)))

/-- Three rows of 128 laid end to end. -/
def cat3 (a b c : Fin 128 → EReal) (l : Fin 384) : EReal :=
  if h : l.val < 128 then a ⟨l.val, h⟩
  else if h2 : l.val < 256 then b ⟨l.val - 128, by omega⟩ else c ⟨l.val - 256, by omega⟩

/-- A cell's updated row, at column c. -/
def cellRow (h mu md : Fin 128 → EReal) (W1 : Mat 384 128) (b1 : Vct 128) (W2 : Mat 128 128) (b2 : Vct 128)
    (c : Fin 128) : EReal :=
  h c + ((∑ k : Fin 128, max ((∑ l : Fin 384, cat3 h mu md l * W1 (ix2 l k)) + b1 (ix1 k)) 0 * W2 (ix2 k c))
    + b2 (ix1 c))

/-! ## The same, for arrays of n rows -/

/-- The messages of n edges. -/
def messages {n : Nat} (hi hj : Mat n 128) (xi xj : Mat n 3) (Wa Wb : Mat 128 128) (Wc : Mat 1 128) (b1 : Vct 128)
    (W2 : Mat 128 128) (b2 : Vct 128) : Mat n 128 :=
  fun i => message (row hi (i 0)) (row hj (i 0)) (row xi (i 0)) (row xj (i 0)) Wa Wb Wc b1 W2 b2 (i 1)

/-- The gated coordinate differences of n edges, from their messages. -/
def gatedDiffs {n : Nat} (mi : Mat n 128) (xi xj : Mat n 3) (V1 : Mat 128 128) (c1 : Vct 128) (V2 : Mat 128 1)
    (c2 : Vct 1) : Mat n 3 :=
  fun i => (xi i - xj i) * gate (row mi (i 0)) V1 c1 V2 c2

/-- The updates of n cells. -/
def cells {n : Nat} (h mu md : Mat n 128) (W1 : Mat 384 128) (b1 : Vct 128) (W2 : Mat 128 128) (b2 : Vct 128) :
    Mat n 128 :=
  fun i => cellRow (row h (i 0)) (row mu (i 0)) (row md (i 0)) W1 b1 W2 b2 (i 1)

/-! ## A block of rows computes the same rows -/

theorem messages_rows {n nb : Nat} (HI HJ : Mat n 128) (XI XJ : Mat n 3) (hi hj : Mat nb 128) (xi xj : Mat nb 3)
    (Wa Wb : Mat 128 128) (Wc : Mat 1 128) (b1 : Vct 128) (W2 : Mat 128 128) (b2 : Vct 128)
    (j : (⟨2, ![nb, 128]⟩ : Shape).Idx) (i : (⟨2, ![n, 128]⟩ : Shape).Idx)
    (e1 : row hi (j 0) = row HI (i 0)) (e2 : row hj (j 0) = row HJ (i 0))
    (e3 : row xi (j 0) = row XI (i 0)) (e4 : row xj (j 0) = row XJ (i 0)) (ec : j 1 = i 1) :
    messages hi hj xi xj Wa Wb Wc b1 W2 b2 j = messages HI HJ XI XJ Wa Wb Wc b1 W2 b2 i := by
  unfold messages; rw [e1, e2, e3, e4, ec]

theorem gatedDiffs_rows {n nb : Nat} (MI : Mat n 128) (XI XJ : Mat n 3) (mi : Mat nb 128) (xi xj : Mat nb 3)
    (V1 : Mat 128 128) (c1 : Vct 128) (V2 : Mat 128 1) (c2 : Vct 1)
    (j : (⟨2, ![nb, 3]⟩ : Shape).Idx) (i : (⟨2, ![n, 3]⟩ : Shape).Idx)
    (e1 : row mi (j 0) = row MI (i 0)) (e2 : xi j = XI i) (e3 : xj j = XJ i) :
    gatedDiffs mi xi xj V1 c1 V2 c2 j = gatedDiffs MI XI XJ V1 c1 V2 c2 i := by
  unfold gatedDiffs; rw [e1, e2, e3]

theorem cells_rows {n nb : Nat} (H MU MD : Mat n 128) (h mu md : Mat nb 128)
    (W1 : Mat 384 128) (b1 : Vct 128) (W2 : Mat 128 128) (b2 : Vct 128)
    (j : (⟨2, ![nb, 128]⟩ : Shape).Idx) (i : (⟨2, ![n, 128]⟩ : Shape).Idx)
    (e1 : row h (j 0) = row H (i 0)) (e2 : row mu (j 0) = row MU (i 0)) (e3 : row md (j 0) = row MD (i 0))
    (ec : j 1 = i 1) :
    cells h mu md W1 b1 W2 b2 j = cells H MU MD W1 b1 W2 b2 i := by
  unfold cells; rw [e1, e2, e3, ec]

end Boundary

end
-- ==== Proof.KTerms.lean ====
/-
  The two results of the idealized kernel program as functions of its arguments: the cells' update of (features,
  upper messages summed into cells, lower messages summed into cells), and the coordinates plus the two scaled sums of
  gated differences. Messages and gated differences are the specification's functions of the gathered rows and of the
  top, middle and last rows of the first-layer weights.
-/
import proofs.«178050_j6622839570871_2_alg».proof.Proof.KHost
import proofs.«178050_j6622839570871_2_alg».proof.Proof.Spec

set_option maxRecDepth 16384

noncomputable section

namespace Cert.KernelIdeal.Whole

open Idealize.ShloMosaic Idealize.ShloMosaic.TcCoe Idealize.SL.Sem
open Cert.KernelIdeal Cert.KernelIdeal.Gen

variable (m : (ℓ : Loc nD τ sig) → Buf (Elt Ideal) ℓ)

/-- The upper edges' messages. -/
def upperMessages (c : Dev nD) : Boundary.Mat 262144 128 :=
  Boundary.messages (takeRows128 (m ((c : Thread nD τ).loc main_arg0)) (m ((c : Thread nD τ).loc main_arg6))) (takeRows128 (m ((c : Thread nD τ).loc main_arg1)) (m ((c : Thread nD τ).loc main_arg7))) (takeRows3 (m ((c : Thread nD τ).loc main_arg3)) (m ((c : Thread nD τ).loc main_arg6))) (takeRows3 (m ((c : Thread nD τ).loc main_arg4)) (m ((c : Thread nD τ).loc main_arg7)))
    (Boundary.topRows (m ((c : Thread nD τ).loc main_arg10))) (Boundary.midRows (m ((c : Thread nD τ).loc main_arg10))) (Boundary.lastRow (m ((c : Thread nD τ).loc main_arg10))) (m ((c : Thread nD τ).loc main_arg11)) (m ((c : Thread nD τ).loc main_arg12)) (m ((c : Thread nD τ).loc main_arg13))
/-- The upper edges' gated coordinate differences. -/
def upperGated (c : Dev nD) : Boundary.Mat 262144 3 :=
  Boundary.gatedDiffs (upperMessages m c) (takeRows3 (m ((c : Thread nD τ).loc main_arg3)) (m ((c : Thread nD τ).loc main_arg6))) (takeRows3 (m ((c : Thread nD τ).loc main_arg4)) (m ((c : Thread nD τ).loc main_arg7))) (m ((c : Thread nD τ).loc main_arg22)) (m ((c : Thread nD τ).loc main_arg23)) (m ((c : Thread nD τ).loc main_arg24)) (m ((c : Thread nD τ).loc main_arg25))
/-- The lower edges' messages. -/
def lowerMessages (c : Dev nD) : Boundary.Mat 262144 128 :=
  Boundary.messages (takeRows128 (m ((c : Thread nD τ).loc main_arg0)) (m ((c : Thread nD τ).loc main_arg8))) (takeRows128 (m ((c : Thread nD τ).loc main_arg2)) (m ((c : Thread nD τ).loc main_arg9))) (takeRows3 (m ((c : Thread nD τ).loc main_arg3)) (m ((c : Thread nD τ).loc main_arg8))) (takeRows3 (m ((c : Thread nD τ).loc main_arg5)) (m ((c : Thread nD τ).loc main_arg9)))
    (Boundary.topRows (m ((c : Thread nD τ).loc main_arg14))) (Boundary.midRows (m ((c : Thread nD τ).loc main_arg14))) (Boundary.lastRow (m ((c : Thread nD τ).loc main_arg14))) (m ((c : Thread nD τ).loc main_arg15)) (m ((c : Thread nD τ).loc main_arg16)) (m ((c : Thread nD τ).loc main_arg17))
/-- The lower edges' gated coordinate differences. -/
def lowerGated (c : Dev nD) : Boundary.Mat 262144 3 :=
  Boundary.gatedDiffs (lowerMessages m c) (takeRows3 (m ((c : Thread nD τ).loc main_arg3)) (m ((c : Thread nD τ).loc main_arg8))) (takeRows3 (m ((c : Thread nD τ).loc main_arg5)) (m ((c : Thread nD τ).loc main_arg9))) (m ((c : Thread nD τ).loc main_arg26)) (m ((c : Thread nD τ).loc main_arg27)) (m ((c : Thread nD τ).loc main_arg28)) (m ((c : Thread nD τ).loc main_arg29))

/-- The cells' updated features. -/
def featuresOut (c : Dev nD) : FVec Ideal S50000x128 .f32 :=
  Boundary.cells (m ((c : Thread nD τ).loc main_arg0)) (segSum128 (m ((c : Thread nD τ).loc main_arg6)) (upperMessages m c)) (segSum128 (m ((c : Thread nD τ).loc main_arg8)) (lowerMessages m c)) (m ((c : Thread nD τ).loc main_arg18)) (m ((c : Thread nD τ).loc main_arg19)) (m ((c : Thread nD τ).loc main_arg20)) (m ((c : Thread nD τ).loc main_arg21))

/-- The cells' updated coordinates. -/
def coordsOut (c : Dev nD) : FVec Ideal S50000x3 .f32 :=
  addf (addf (m ((c : Thread nD τ).loc main_arg3)) (mulf (broadcastInDim S50000x3 ![] bcast_S_S50000x3 (shapeCast S_ (extractStridedSlice S1 ![0] (m ((c : Thread nD τ).loc main_arg30)) slices_S2_S1_0) shapeCasts_S1_S_)) (segSum3 (m ((c : Thread nD τ).loc main_arg6)) (upperGated m c))))
    (mulf (broadcastInDim S50000x3 ![] bcast_S_S50000x3 (shapeCast S_ (extractStridedSlice S1 ![1] (m ((c : Thread nD τ).loc main_arg30)) slices_S2_S1_1) shapeCasts_S1_S_)) (segSum3 (m ((c : Thread nD τ).loc main_arg8)) (lowerGated m c)))

end Cert.KernelIdeal.Whole

end
-- ==== Proof.KSlices.lean ====
/-
  The three pieces of a 257 x 128 weight matrix, and a change of float format, on the extended reals.

  The first layer of the edge perceptron has 257 rows of weights: the first 128 multiply h_i, the next 128 multiply
  h_j and the last one multiplies the squared distance. A program that cuts the matrix with three unit-stride slices
  at row offsets 0, 128 and 256 gets the specification's top rows, middle rows and last row: the slice at offset o
  reads, at (r, c), the matrix at (o + r, c).

  At the exact instance a value has no format: narrowing an array to the shorter format is the identity.
-/
import Idealize.ShloMosaic.PureOps.Ideal.Laws
import Idealize.ShloMosaic.Lib.ValueIdx
import Idealize.ShloMosaic.Lib.Pipeline.Value
import proofs.«178050_j6622839570871_2_alg».proof.Proof.Spec

noncomputable section

namespace Cert.KernelIdeal.Blocks

open Idealize.ShloMosaic Idealize.ShloMosaic.ValueIdx Boundary

/-- The slice of the first 128 rows is the specification's top rows. -/
theorem slice_top_eq (W : FVec Ideal ⟨2, ![257, 128]⟩ .f32)
    (h : (⟨2, ![257, 128]⟩ : Shape).Slices ![0, 0] ⟨2, ![128, 128]⟩) :
    extractStridedSlice ⟨2, ![128, 128]⟩ ![0, 0] W h = topRows W := by
  funext i
  refine extractStridedSlice_apply ![0, 0] W h i (ix2 (lo (i 0)) (i 1)) fun a => ?_
  match a with
  | ⟨0, _⟩ => exact (Nat.zero_add _).symm
  | ⟨1, _⟩ => exact (Nat.zero_add _).symm

/-- The slice of the next 128 rows is the specification's middle rows. -/
theorem slice_mid_eq (W : FVec Ideal ⟨2, ![257, 128]⟩ .f32)
    (h : (⟨2, ![257, 128]⟩ : Shape).Slices ![128, 0] ⟨2, ![128, 128]⟩) :
    extractStridedSlice ⟨2, ![128, 128]⟩ ![128, 0] W h = midRows W := by
  funext i
  refine extractStridedSlice_apply ![128, 0] W h i (ix2 (mid (i 0)) (i 1)) fun a => ?_
  match a with
  | ⟨0, _⟩ => rfl
  | ⟨1, _⟩ => exact (Nat.zero_add _).symm

/-- The slice of the last row is the specification's last row. -/
theorem slice_last_eq (W : FVec Ideal ⟨2, ![257, 128]⟩ .f32)
    (h : (⟨2, ![257, 128]⟩ : Shape).Slices ![256, 0] ⟨2, ![1, 128]⟩) :
    extractStridedSlice ⟨2, ![1, 128]⟩ ![256, 0] W h = lastRow W := by
  funext i
  have h0 : (i 0).val < 1 := (i 0).isLt
  refine extractStridedSlice_apply ![256, 0] W h i (ix2 last (i 1)) fun a => ?_
  match a with
  | ⟨0, _⟩ => show (256 : Nat) = 256 + (i 0).val; omega
  | ⟨1, _⟩ => exact (Nat.zero_add _).symm

/-- Narrowing an array of extended reals to the shorter format is the identity. -/
theorem truncf_bf16_eq {s : Shape} (x : FVec Ideal s .f32) (h : FTy.bf16.bits < FTy.f32.bits) :
    (truncf .bf16 x h : s.Idx → EReal) = x := rfl

end Cert.KernelIdeal.Blocks

end
-- ==== Proof.SpecBlocks.lean ====
/-
  A block of rows of the operands gives the same rows of the result, stated for operands that are only KNOWN EQUAL
  to the whole arrays' rows and to the weights (a tile of a grid reads its rows out of the arrays at an offset and
  reads each weight array whole): the form in which a tiled computation is compared with the whole one.
-/
import proofs.«178050_j6622839570871_2_alg».proof.Proof.Spec

noncomputable section

namespace Boundary

open Idealize.ShloMosaic Idealize.ShloMosaic.ValueIdx

/-- Messages of a block of edges are the messages of the whole edge list at the block's rows. -/
theorem messages_blocks {n nb : Nat} (HI HJ : Mat n 128) (XI XJ : Mat n 3)
    (WA WB : Mat 128 128) (WC : Mat 1 128) (B1 : Vct 128) (WW : Mat 128 128) (B2 : Vct 128)
    (hi hj : Mat nb 128) (xi xj : Mat nb 3)
    (wa wb : Mat 128 128) (wc : Mat 1 128) (b1 : Vct 128) (ww : Mat 128 128) (b2 : Vct 128)
    (j : (⟨2, ![nb, 128]⟩ : Shape).Idx) (i : (⟨2, ![n, 128]⟩ : Shape).Idx)
    (e1 : row hi (j 0) = row HI (i 0)) (e2 : row hj (j 0) = row HJ (i 0))
    (e3 : row xi (j 0) = row XI (i 0)) (e4 : row xj (j 0) = row XJ (i 0)) (ec : j 1 = i 1)
    (ea : wa = WA) (eb : wb = WB) (ew : wc = WC) (eb1 : b1 = B1) (eww : ww = WW) (eb2 : b2 = B2) :
    messages hi hj xi xj wa wb wc b1 ww b2 j = messages HI HJ XI XJ WA WB WC B1 WW B2 i := by
  subst ea eb ew eb1 eww eb2
  exact messages_rows HI HJ XI XJ hi hj xi xj _ _ _ _ _ _ j i e1 e2 e3 e4 ec

/-- Gated differences of a block of edges, computed from the block's own messages, are those of the whole edge list
    computed from the whole list's messages. -/
theorem gated_blocks {n nb : Nat} (HI HJ : Mat n 128) (XI XJ : Mat n 3)
    (WA WB : Mat 128 128) (WC : Mat 1 128) (B1 : Vct 128) (WW : Mat 128 128) (B2 : Vct 128)
    (U1 : Mat 128 128) (C1 : Vct 128) (U2 : Mat 128 1) (C2 : Vct 1)
    (hi hj : Mat nb 128) (xi xj : Mat nb 3)
    (wa wb : Mat 128 128) (wc : Mat 1 128) (b1 : Vct 128) (ww : Mat 128 128) (b2 : Vct 128)
    (u1 : Mat 128 128) (c1 : Vct 128) (u2 : Mat 128 1) (c2 : Vct 1)
    (j : (⟨2, ![nb, 3]⟩ : Shape).Idx) (i : (⟨2, ![n, 3]⟩ : Shape).Idx)
    (e1 : row hi (j 0) = row HI (i 0)) (e2 : row hj (j 0) = row HJ (i 0))
    (e3 : row xi (j 0) = row XI (i 0)) (e4 : row xj (j 0) = row XJ (i 0)) (ec : (j 1).val = (i 1).val)
    (ea : wa = WA) (eb : wb = WB) (ew : wc = WC) (eb1 : b1 = B1) (eww : ww = WW) (eb2 : b2 = B2)
    (eu1 : u1 = U1) (ec1 : c1 = C1) (eu2 : u2 = U2) (ec2 : c2 = C2) :
    gatedDiffs (messages hi hj xi xj wa wb wc b1 ww b2) xi xj u1 c1 u2 c2 j
      = gatedDiffs (messages HI HJ XI XJ WA WB WC B1 WW B2) XI XJ U1 C1 U2 C2 i := by
  subst ea eb ew eb1 eww eb2 eu1 ec1 eu2 ec2
  have hj1 : j 1 = i 1 := Fin.ext ec
  have hxi : xi j = XI i := by
    have := congrFun e3 (j 1)
    have hj' : j = ix2 (j 0) (j 1) := eq_ix2 j
    have hi' : i = ix2 (i 0) (i 1) := eq_ix2 i
    rw [hj', hi', ← hj1]; exact this
  have hxj : xj j = XJ i := by
    have := congrFun e4 (j 1)
    have hj' : j = ix2 (j 0) (j 1) := eq_ix2 j
    have hi' : i = ix2 (i 0) (i 1) := eq_ix2 i
    rw [hj', hi', ← hj1]; exact this
  refine gatedDiffs_rows _ XI XJ _ xi xj _ _ _ _ j i ?_ hxi hxj
  funext k
  exact messages_rows HI HJ XI XJ hi hj xi xj _ _ _ _ _ _ (ix2 (j 0) k) (ix2 (i 0) k) e1 e2 e3 e4 rfl

/-- Updates of a block of cells are the updates of the whole cell list at the block's rows. -/
theorem cells_blocks {n nb : Nat} (H MU MD : Mat n 128) (W1 : Mat 384 128) (B1 : Vct 128) (W2 : Mat 128 128) (B2 : Vct 128)
    (h mu md : Mat nb 128) (w1 : Mat 384 128) (b1 : Vct 128) (w2 : Mat 128 128) (b2 : Vct 128)
    (j : (⟨2, ![nb, 128]⟩ : Shape).Idx) (i : (⟨2, ![n, 128]⟩ : Shape).Idx)
    (e1 : row h (j 0) = row H (i 0)) (e2 : row mu (j 0) = row MU (i 0)) (e3 : row md (j 0) = row MD (i 0))
    (ec : j 1 = i 1) (ew1 : w1 = W1) (eb1 : b1 = B1) (ew2 : w2 = W2) (eb2 : b2 = B2) :
    cells h mu md w1 b1 w2 b2 j = cells H MU MD W1 B1 W2 B2 i := by
  subst ew1 eb1 ew2 eb2
  exact cells_rows H MU MD h mu md _ _ _ _ j i e1 e2 e3 ec

end Boundary

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.KBlocksLayers.lean ====
/-
  Rows of a perceptron layer, read at an entry, on the extended reals.

  The programs build each layer of a perceptron from a few array operations; read at the entry (p, q) of an array of
  n rows, each is a function of row p of its row-indexed operand only:

  * a bias of N entries, cast to a row [1, N] and broadcast along the n rows, is the bias at q;
  * the product of an [n, K] array with a [K, N] weight matrix (the operands cast to the shorter format, the sum taken
    into the zero accumulator) plus the bias is (sum over k of x (p, k) * w (k, q)) + b q;
  * the squared length of a row of 3 differences, kept as a column and broadcast along the columns, is the sum of the
    three squares of row p;
  * the zero word is the number zero, so a maximum with the zero splat is the positive part.

  All statements are generic in the number of rows n. Sums are sums in a commutative monoid; nothing is finite.
-/
import Idealize.ShloMosaic.PureOps.Ideal.Laws
import Idealize.ShloMosaic.Lib.ValueIdx
import Idealize.ShloMosaic.Lib.ValueLayout
import Idealize.ShloMosaic.Lib.Pipeline.Value
import proofs.«178050_j6622839570871_2_alg».proof.Proof.LibPlainDot
import proofs.«178050_j6622839570871_2_alg».proof.Proof.LibKeepdims
import proofs.«178050_j6622839570871_2_alg».proof.Proof.Spec

noncomputable section

namespace Boundary.Layers

open Idealize.ShloMosaic Idealize.ShloMosaic.ValueIdx

/-- The zero word of the wide format is the number zero. -/
theorem zero_word : Scalar.ofBits (F := Ideal) .f32 0x00000000#32 = (0 : EReal) := Ideal.ofBits_zero_f32

/-- A vector of N entries cast to a row and broadcast along n rows reads, at (p, q), its entry q. -/
theorem biasRow_apply {α : Type} {n N : Nat} (b : (⟨1, ![N]⟩ : Shape).Idx → α)
    (hs : (⟨1, ![N]⟩ : Shape).ShapeCasts ⟨2, ![1, N]⟩) (hb : (⟨2, ![1, N]⟩ : Shape).Broadcasts ⟨2, ![n, N]⟩)
    (p : Fin n) (q : Fin N) :
    broadcastTo ⟨2, ![n, N]⟩ (shapeCast ⟨2, ![1, N]⟩ b hs) hb (ix2 p q) = b (ix1 q) :=
  (broadcastTo_1b_ab_apply _ hb p q).trans (shapeCast_a_1a_apply b hs 0 q)

/-- A row [1, N] cast to itself twice and broadcast along n rows reads, at (p, q), its entry (0, q). -/
theorem rowRow_apply {α : Type} {n N : Nat} (b : (⟨2, ![1, N]⟩ : Shape).Idx → α)
    (hs hs' : (⟨2, ![1, N]⟩ : Shape).ShapeCasts ⟨2, ![1, N]⟩) (hb : (⟨2, ![1, N]⟩ : Shape).Broadcasts ⟨2, ![n, N]⟩)
    (p : Fin n) (q : Fin N) :
    broadcastTo ⟨2, ![n, N]⟩ (shapeCast ⟨2, ![1, N]⟩ (shapeCast ⟨2, ![1, N]⟩ b hs) hs') hb (ix2 p q)
      = b (ix2 (0 : Fin 1) q) := by
  rw [shapeCast_self, shapeCast_self]
  exact broadcastTo_1b_ab_apply b hb p q

/-- The product of an array with a weight matrix, the weights cast to the shorter format, into the zero accumulator:
    at (p, q) the sum over k of x (p, k) * w (k, q). -/
theorem product_apply {n K N : Nat} {φ₁ : FTy} (x : FVec Ideal ⟨2, ![n, K]⟩ φ₁) (w : FVec Ideal ⟨2, ![K, N]⟩ .f32)
    (hlt : FTy.bf16.bits < FTy.f32.bits) (p : Fin n) (q : Fin N) :
    matmul (DotDims.plain n K N) none x (truncf .bf16 w hlt) (constant ⟨2, ![n, N]⟩ .f32 0x00000000#32) (ix2 p q)
      = ∑ k : Fin K, (x (ix2 p k) : EReal) * w (ix2 k q) :=
  PlainDot.matmul_zero_apply n K N none x (truncf .bf16 w hlt) (ix2 p q)

/-- The same, plus a bias cast to a row and broadcast along the rows. -/
theorem affine_apply {n K N : Nat} {φ₁ : FTy} (x : FVec Ideal ⟨2, ![n, K]⟩ φ₁) (w : FVec Ideal ⟨2, ![K, N]⟩ .f32)
    (b : FVec Ideal ⟨1, ![N]⟩ .f32) (hlt : FTy.bf16.bits < FTy.f32.bits)
    (hs : (⟨1, ![N]⟩ : Shape).ShapeCasts ⟨2, ![1, N]⟩) (hb : (⟨2, ![1, N]⟩ : Shape).Broadcasts ⟨2, ![n, N]⟩)
    (p : Fin n) (q : Fin N) :
    addf (matmul (DotDims.plain n K N) none x (truncf .bf16 w hlt) (constant ⟨2, ![n, N]⟩ .f32 0x00000000#32))
        (broadcastTo ⟨2, ![n, N]⟩ (shapeCast ⟨2, ![1, N]⟩ b hs) hb) (ix2 p q)
      = (∑ k : Fin K, (x (ix2 p k) : EReal) * w (ix2 k q)) + b (ix1 q) :=
  congrArg₂ (· + ·) (product_apply x w hlt p q) (biasRow_apply b hs hb p q)

/-- The affine layer followed by the maximum with the zero splat: the positive part. -/
theorem reluAffine_apply {n K N : Nat} {φ₁ : FTy} (x : FVec Ideal ⟨2, ![n, K]⟩ φ₁) (w : FVec Ideal ⟨2, ![K, N]⟩ .f32)
    (b : FVec Ideal ⟨1, ![N]⟩ .f32) (hlt : FTy.bf16.bits < FTy.f32.bits)
    (hs : (⟨1, ![N]⟩ : Shape).ShapeCasts ⟨2, ![1, N]⟩) (hb : (⟨2, ![1, N]⟩ : Shape).Broadcasts ⟨2, ![n, N]⟩)
    (p : Fin n) (q : Fin N) :
    maximumf (addf (matmul (DotDims.plain n K N) none x (truncf .bf16 w hlt) (constant ⟨2, ![n, N]⟩ .f32 0x00000000#32))
        (broadcastTo ⟨2, ![n, N]⟩ (shapeCast ⟨2, ![1, N]⟩ b hs) hb))
        (broadcast ⟨2, ![n, N]⟩ (Scalar.ofBits (F := Ideal) .f32 0x00000000#32)) (ix2 p q)
      = max ((∑ k : Fin K, (x (ix2 p k) : EReal) * w (ix2 k q)) + b (ix1 q)) 0 :=
  congrArg₂ max (affine_apply x w b hlt hs hb p q) zero_word

/-- The squared length of each row of an [n, 3] array, kept as a column and broadcast along M columns: at (p, q) the
    sum of the three squares of row p. -/
theorem rowSquares_apply {n M : Nat} (d : FVec Ideal ⟨2, ![n, 3]⟩ .f32)
    (h : (⟨2, ![n, 3]⟩ : Shape).Reduces [1] ⟨1, ![n]⟩) (hc : (⟨1, ![n]⟩ : Shape).ShapeCasts ⟨2, ![n, 1]⟩)
    (hc' : (⟨2, ![n, 1]⟩ : Shape).ShapeCasts ⟨2, ![n, 1]⟩) (hb : (⟨2, ![n, 1]⟩ : Shape).Broadcasts ⟨2, ![n, M]⟩)
    (p : Fin n) (q : Fin M) :
    broadcastTo ⟨2, ![n, M]⟩ (shapeCast ⟨2, ![n, 1]⟩ (shapeCast ⟨2, ![n, 1]⟩
        (multiReduction (F := Ideal) .add [1] ⟨1, ![n]⟩ (mulf d d) 0x00000000#32 h (.inl rfl) rfl) hc) hc') hb (ix2 p q)
      = ∑ k : Fin 3, (d (ix2 p k) : EReal) * d (ix2 p k) := by
  rw [shapeCast_self]
  refine (Keepdims.broadcastTo_a1_ab_apply _ hb p q).trans ?_
  exact Keepdims.rowSumKeep_apply (mulf d d) 0x00000000#32 h (.inl rfl) rfl hc p 0

end Boundary.Layers

end
-- ==== Proof.KBlocksEdge.lean ====
/-
  The edge kernel's body, block by block, is the specification's message and gated difference of each row.

  A block holds 2048 edges: their rows h_i, h_j (128 entries, in the shorter format), x_i, x_j (3 entries), and the
  whole weights. The body computes, for every row p of the block,

    hidden (p, c) = max (h_i(p,.) . Wa(., c) + h_j(p,.) . Wb(., c) + |x_i(p,.) - x_j(p,.)|^2 * Wc(0, c) + b1 c, 0),
    message (p, c) = hidden(p,.) . W2(., c) + b2 c,
    gate p = logistic (max (message(p,.) . V1 + c1, 0) . V2(., 0) + c2 0),   out (p, a) = (x_i - x_j)(p, a) * gate p,

  with every product a matrix product into the zero accumulator (a plain sum of products on the extended reals), every
  change of format the identity, the squared distance a kept-axis row sum, and each bias a vector broadcast along the
  rows. Read at an entry (p, c) these are the specification's row-wise functions of row p of each operand.
-/
import proofs.«178050_j6622839570871_2_alg».proof.Proof.Gen.KernelIdeal.Frame
import proofs.«178050_j6622839570871_2_alg».proof.Proof.KBlocksLayers

noncomputable section

namespace Cert.KernelIdeal.Blocks

open Idealize.ShloMosaic Idealize.ShloMosaic.ValueIdx Cert.KernelIdeal Cert.KernelIdeal.Gen Boundary

/-- The offsets of a whole-block rectangle of rank 2, and of rank 1, are zero. -/
theorem off2 : (![0, 0] : Fin 2 → Nat) = fun _ => 0 := funext fun a => by fin_cases a <;> rfl
theorem off1 : (![0] : Fin 1 → Nat) = fun _ => 0 := funext fun a => by fin_cases a <;> rfl

/-- The coordinate difference of a block, entry by entry. -/
theorem diff_apply (v4 v6 : FVec Ideal S2048x3 .f32) (i : S2048x3.Idx) :
    k0_pay3 (F := Ideal) v4 v6 i = (v4 i : EReal) - v6 i := by
  unfold k0_pay3
  show (shapeCast S2048x3 v4 _ i : EReal) - shapeCast S2048x3 v6 _ i = _
  rw [shapeCast_self, shapeCast_self]

/-- The hidden layer of a block at (p, q) is the specification's hidden row of edge p at column q. -/
theorem hidden_apply (v0 v2 : FVec Ideal S2048x128 .bf16) (v4 v6 : FVec Ideal S2048x3 .f32)
    (v12 v15 : FVec Ideal S128x128 .f32) (v18 : FVec Ideal S1x128 .f32) (v29 : FVec Ideal S128 .f32)
    (p : Fin 2048) (q : Fin 128) :
    k0_pay4 (F := Ideal) v0 v2 v4 v6 v12 v15 v18 v29 (ix2 p q)
      = Boundary.hidden (row v0 p) (row v2 p) (dist2 (row v4 p) (row v6 p)) v12 v15 v18 v29 q := by
  have e1 : matmul (F := Ideal) dot_S2048x128_S128x128_S2048x128_1_0_0_1_n_n none (shapeCast S2048x128 v0 shapeCasts_S2048x128_S2048x128)
      (truncf .bf16 (shapeCast S128x128 v12 shapeCasts_S128x128_S128x128) bitsLt_bf16_f32)
      (constant S2048x128 .f32 0x00000000#32) (ix2 p q) = ∑ k : Fin 128, row v0 p k * v12 (ix2 k q) := by
    rw [shapeCast_self, shapeCast_self]
    exact Layers.product_apply (n := 2048) (K := 128) (N := 128) v0 v12 bitsLt_bf16_f32 p q
  have e2 : matmul (F := Ideal) dot_S2048x128_S128x128_S2048x128_1_0_0_1_n_n none (shapeCast S2048x128 v2 shapeCasts_S2048x128_S2048x128)
      (truncf .bf16 (shapeCast S128x128 v15 shapeCasts_S128x128_S128x128) bitsLt_bf16_f32)
      (constant S2048x128 .f32 0x00000000#32) (ix2 p q) = ∑ k : Fin 128, row v2 p k * v15 (ix2 k q) := by
    rw [shapeCast_self, shapeCast_self]
    exact Layers.product_apply (n := 2048) (K := 128) (N := 128) v2 v15 bitsLt_bf16_f32 p q
  have e3 := (Layers.rowSquares_apply (n := 2048) (M := 128) (k0_pay3 (F := Ideal) v4 v6) reduces_S2048x3_S2048
      shapeCasts_S2048_S2048x1 shapeCasts_S2048x1_S2048x1 broadcasts_S2048x1_S2048x128 p q).trans
    (Finset.sum_congr rfl fun k _ => by rw [diff_apply]; rfl : _ = dist2 (row v4 p) (row v6 p))
  have e4 := Layers.rowRow_apply (n := 2048) (N := 128) v18 shapeCasts_S1x128_S1x128 shapeCasts_S1x128_S1x128
    broadcasts_S1x128_S2048x128 p q
  have e5 := Layers.biasRow_apply (n := 2048) (N := 128) v29 shapeCasts_S128_S1x128 broadcasts_S1x128_S2048x128 p q
  unfold k0_pay4 Boundary.hidden
  exact congrArg₂ max (congrArg₂ (· + ·) (congrArg₂ (· + ·) (congrArg₂ (· + ·) e1 e2) (congrArg₂ (· * ·) e3 e4)) e5)
    Layers.zero_word

/-- The message of a block at (p, q), from any hidden layer: the product with the second weights plus the bias. -/
theorem second_apply (v35 : FVec Ideal S2048x128 .bf16) (v36 : FVec Ideal S128x128 .f32) (v39 : FVec Ideal S128 .f32)
    (p : Fin 2048) (q : Fin 128) :
    k0_pay1 (F := Ideal) v35 (k0_pay5 v36) v39 (ix2 p q)
      = (∑ k : Fin 128, (v35 (ix2 p k) : EReal) * v36 (ix2 k q)) + v39 (ix1 q) := by
  unfold k0_pay1 k0_pay5
  exact Layers.affine_apply (n := 2048) (K := 128) (N := 128) v35 v36 v39 bitsLt_bf16_f32 shapeCasts_S128_S1x128
    broadcasts_S1x128_S2048x128 p q

/-- The message of a block at (p, q) is the specification's message of edge p at column q. -/
theorem message_apply (x0 x1 : FVec Ideal S2048x128 .bf16) (x2 x3 : FVec Ideal S2048x3 .f32)
    (x4 x5 : FVec Ideal S128x128 .f32) (x6 : FVec Ideal S1x128 .f32) (x7 : FVec Ideal S128 .f32)
    (x8 : FVec Ideal S128x128 .f32) (x9 : FVec Ideal S128 .f32) (p : Fin 2048) (q : Fin 128) :
    k0_pay1 (F := Ideal) (k0_pay4 x0 x1 x2 x3 x4 x5 x6 x7) (k0_pay5 x8) x9 (ix2 p q)
      = messages x0 x1 x2 x3 x4 x5 x6 x7 x8 x9 (ix2 p q) :=
  (second_apply _ x8 x9 p q).trans
    (congrArg (· + x9 (ix1 q)) (Finset.sum_congr rfl fun k _ =>
      congrArg (· * x8 (ix2 k q)) (hidden_apply x0 x1 x2 x3 x4 x5 x6 x7 p k)))

/-- The gated difference of a block at (p, a), from any difference, hidden layer and weights: the difference times
    the gate of the block's message row p. -/
theorem gated_apply (v8 : FVec Ideal S2048x3 .f32) (v35 : FVec Ideal S2048x128 .bf16) (v36 : FVec Ideal S128x128 .f32)
    (v39 : FVec Ideal S128 .f32) (v44 : FVec Ideal S128x128 .f32) (v48 : FVec Ideal S128 .f32) (v55 : FVec Ideal S128x1 .f32)
    (v58 : FVec Ideal S1 .f32) (p : Fin 2048) (a : Fin 3) :
    k0_pay2 (F := Ideal) v8 v35 (k0_pay5 v36) v39 v44 v48 v55 v58 (ix2 p a)
      = (v8 (ix2 p a) : EReal) * gate (fun l => k0_pay1 (F := Ideal) v35 (k0_pay5 v36) v39 (ix2 p l)) v44 v48 v55 v58 := by
  unfold k0_pay2 gate
  refine congrArg ((v8 (ix2 p a) : EReal) * ·) ?_
  refine (Keepdims.broadcastTo_a1_ab_apply _ broadcasts_S2048x1_S2048x3 p a).trans ?_
  refine congrArg Ideal.logistic ?_
  refine congrArg₂ (· + ·) ?_ (Layers.biasRow_apply (n := 2048) (N := 1) v58 shapeCasts_S1_S1x1 broadcasts_S1x1_S2048x1 p 0)
  refine (Layers.product_apply (n := 2048) (K := 128) (N := 1) _ v55 bitsLt_bf16_f32 p 0).trans ?_
  refine Finset.sum_congr rfl fun k _ => congrArg (· * v55 (ix2 k (0 : Fin 1))) ?_
  exact Layers.reluAffine_apply (n := 2048) (K := 128) (N := 128) _ v44 v48 bitsLt_bf16_f32 shapeCasts_S128_S1x128
    broadcasts_S1x128_S2048x128 p k

/-- What the first edge kernel's body leaves in its message block: the messages of the block's edges. -/
theorem out0_14_eq (x0 x1 : Vec Ideal S2048x128 .bf16) (x2 x3 : Vec Ideal S2048x3 .f32)
    (x4 x5 : Vec Ideal S128x128 .f32) (x6 : Vec Ideal S1x128 .f32) (x7 : Vec Ideal S128 .f32)
    (x8 : Vec Ideal S128x128 .f32) (x9 : Vec Ideal S128 .f32) (x10 : Vec Ideal S128x128 .f32) (x11 : Vec Ideal S128 .f32)
    (x12 : Vec Ideal S128x1 .f32) (x13 : Vec Ideal S1 .f32) :
    Cert.KernelIdeal.Gen.out0_14 (F := Ideal) x0 x1 x2 x3 x4 x5 x6 x7 x8 x9 x10 x11 x12 x13 = messages x0 x1 x2 x3 x4 x5 x6 x7 x8 x9 := by
  unfold Cert.KernelIdeal.Gen.out0_14
  rw [View.canon_unit_zero off2]
  simp only [View.ld_unit_zero (S := S2048x128) off2, View.ld_unit_zero (S := S2048x3) off2,
    View.ld_unit_zero (S := S128x128) off2, View.ld_unit_zero (S := S1x128) off2, View.ld_unit_zero (S := S128) off1,
    View.ld_unit_zero (S := S128x1) off2, View.ld_unit_zero (S := S1) off1]
  funext j
  obtain ⟨p, q, rfl⟩ : ∃ (p : Fin 2048) (q : Fin 128), j = ix2 p q := ⟨j 0, j 1, eq_ix2 j⟩
  exact message_apply x0 x1 x2 x3 x4 x5 x6 x7 x8 x9 p q

/-- What the first edge kernel's body leaves in its coordinate block: the gated differences of the block's edges,
    from their messages. -/
theorem out0_15_eq (x0 x1 : Vec Ideal S2048x128 .bf16) (x2 x3 : Vec Ideal S2048x3 .f32)
    (x4 x5 : Vec Ideal S128x128 .f32) (x6 : Vec Ideal S1x128 .f32) (x7 : Vec Ideal S128 .f32)
    (x8 : Vec Ideal S128x128 .f32) (x9 : Vec Ideal S128 .f32) (x10 : Vec Ideal S128x128 .f32) (x11 : Vec Ideal S128 .f32)
    (x12 : Vec Ideal S128x1 .f32) (x13 : Vec Ideal S1 .f32) :
    Cert.KernelIdeal.Gen.out0_15 (F := Ideal) x0 x1 x2 x3 x4 x5 x6 x7 x8 x9 x10 x11 x12 x13
      = gatedDiffs (messages x0 x1 x2 x3 x4 x5 x6 x7 x8 x9) x2 x3 x10 x11 x12 x13 := by
  unfold Cert.KernelIdeal.Gen.out0_15
  rw [View.canon_unit_zero off2]
  simp only [View.ld_unit_zero (S := S2048x128) off2, View.ld_unit_zero (S := S2048x3) off2,
    View.ld_unit_zero (S := S128x128) off2, View.ld_unit_zero (S := S1x128) off2, View.ld_unit_zero (S := S128) off1,
    View.ld_unit_zero (S := S128x1) off2, View.ld_unit_zero (S := S1) off1]
  funext j
  obtain ⟨p, a, rfl⟩ : ∃ (p : Fin 2048) (a : Fin 3), j = ix2 p a := ⟨j 0, j 1, eq_ix2 j⟩
  refine (gated_apply _ _ x8 x9 x10 x11 x12 x13 p a).trans ?_
  rw [diff_apply]
  show _ = ((x2 (ix2 p a) : EReal) - x3 (ix2 p a))
    * gate (row (messages x0 x1 x2 x3 x4 x5 x6 x7 x8 x9) p) x10 x11 x12 x13
  exact congrArg (fun m => ((x2 (ix2 p a) : EReal) - x3 (ix2 p a)) * gate m x10 x11 x12 x13)
    (funext fun l => message_apply x0 x1 x2 x3 x4 x5 x6 x7 x8 x9 p l)

/-- The second edge kernel's body is the first one's text: its blocks are the same functions of its operands. -/
theorem out1_14_eq_out0_14 (x0 x1 : Vec Ideal S2048x128 .bf16) (x2 x3 : Vec Ideal S2048x3 .f32)
    (x4 x5 : Vec Ideal S128x128 .f32) (x6 : Vec Ideal S1x128 .f32) (x7 : Vec Ideal S128 .f32)
    (x8 : Vec Ideal S128x128 .f32) (x9 : Vec Ideal S128 .f32) (x10 : Vec Ideal S128x128 .f32) (x11 : Vec Ideal S128 .f32)
    (x12 : Vec Ideal S128x1 .f32) (x13 : Vec Ideal S1 .f32) :
    Cert.KernelIdeal.Gen.out1_14 (F := Ideal) x0 x1 x2 x3 x4 x5 x6 x7 x8 x9 x10 x11 x12 x13 = Cert.KernelIdeal.Gen.out0_14 (F := Ideal) x0 x1 x2 x3 x4 x5 x6 x7 x8 x9 x10 x11 x12 x13 := rfl

theorem out1_15_eq_out0_15 (x0 x1 : Vec Ideal S2048x128 .bf16) (x2 x3 : Vec Ideal S2048x3 .f32)
    (x4 x5 : Vec Ideal S128x128 .f32) (x6 : Vec Ideal S1x128 .f32) (x7 : Vec Ideal S128 .f32)
    (x8 : Vec Ideal S128x128 .f32) (x9 : Vec Ideal S128 .f32) (x10 : Vec Ideal S128x128 .f32) (x11 : Vec Ideal S128 .f32)
    (x12 : Vec Ideal S128x1 .f32) (x13 : Vec Ideal S1 .f32) :
    Cert.KernelIdeal.Gen.out1_15 (F := Ideal) x0 x1 x2 x3 x4 x5 x6 x7 x8 x9 x10 x11 x12 x13 = Cert.KernelIdeal.Gen.out0_15 (F := Ideal) x0 x1 x2 x3 x4 x5 x6 x7 x8 x9 x10 x11 x12 x13 := rfl

/-- What the second edge kernel's body leaves in its message block. -/
theorem out1_14_eq (x0 x1 : Vec Ideal S2048x128 .bf16) (x2 x3 : Vec Ideal S2048x3 .f32)
    (x4 x5 : Vec Ideal S128x128 .f32) (x6 : Vec Ideal S1x128 .f32) (x7 : Vec Ideal S128 .f32)
    (x8 : Vec Ideal S128x128 .f32) (x9 : Vec Ideal S128 .f32) (x10 : Vec Ideal S128x128 .f32) (x11 : Vec Ideal S128 .f32)
    (x12 : Vec Ideal S128x1 .f32) (x13 : Vec Ideal S1 .f32) :
    Cert.KernelIdeal.Gen.out1_14 (F := Ideal) x0 x1 x2 x3 x4 x5 x6 x7 x8 x9 x10 x11 x12 x13 = messages x0 x1 x2 x3 x4 x5 x6 x7 x8 x9 :=
  (out1_14_eq_out0_14 x0 x1 x2 x3 x4 x5 x6 x7 x8 x9 x10 x11 x12 x13).trans (out0_14_eq x0 x1 x2 x3 x4 x5 x6 x7 x8 x9 x10 x11 x12 x13)

/-- What the second edge kernel's body leaves in its coordinate block. -/
theorem out1_15_eq (x0 x1 : Vec Ideal S2048x128 .bf16) (x2 x3 : Vec Ideal S2048x3 .f32)
    (x4 x5 : Vec Ideal S128x128 .f32) (x6 : Vec Ideal S1x128 .f32) (x7 : Vec Ideal S128 .f32)
    (x8 : Vec Ideal S128x128 .f32) (x9 : Vec Ideal S128 .f32) (x10 : Vec Ideal S128x128 .f32) (x11 : Vec Ideal S128 .f32)
    (x12 : Vec Ideal S128x1 .f32) (x13 : Vec Ideal S1 .f32) :
    Cert.KernelIdeal.Gen.out1_15 (F := Ideal) x0 x1 x2 x3 x4 x5 x6 x7 x8 x9 x10 x11 x12 x13
      = gatedDiffs (messages x0 x1 x2 x3 x4 x5 x6 x7 x8 x9) x2 x3 x10 x11 x12 x13 :=
  (out1_15_eq_out0_15 x0 x1 x2 x3 x4 x5 x6 x7 x8 x9 x10 x11 x12 x13).trans (out0_15_eq x0 x1 x2 x3 x4 x5 x6 x7 x8 x9 x10 x11 x12 x13)

end Cert.KernelIdeal.Blocks

end
-- ==== Proof.KTilesUpper.lean ====
/-
  The first edge kernel (the upper neighbours' edges), from blocks of 2048 edges to the whole edge list.

  The grid has 128 points; point t reads rows 2048 t … 2048 t + 2047 of each row-indexed operand and each weight
  array whole, and writes back rows 2048 t … 2048 t + 2047 of each result. Since every row of a result depends on the same row
  of the row-indexed operands only, what point t writes back is its block of ONE array-level function of the whole
  operands; the blocks tile the 262144 rows, so after the last point each result array is that function.
-/
import proofs.«178050_j6622839570871_2_alg».proof.Proof.Gen.KernelIdeal.Frame
import proofs.«178050_j6622839570871_2_alg».proof.Proof.SpecBlocks
import proofs.«178050_j6622839570871_2_alg».proof.Proof.KBlocksEdge
import Idealize.ShloMosaic.Lib.Pipeline.Value

set_option maxRecDepth 16384

noncomputable section

namespace Cert.KernelIdeal.UpperEdges

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The index maps, decided over the grid: a row-indexed window's block index is (t, 0), a weight window's is zero. -/
theorem idx0 : ∀ t : Fin cfg0.N,
    win0_14.index t (0 : Fin 2) = t.val
  ∧ win0_14.index t (1 : Fin 2) = 0
  ∧ win0_15.index t (0 : Fin 2) = t.val
  ∧ win0_15.index t (1 : Fin 2) = 0
  ∧ win0_0.index t (0 : Fin 2) = t.val
  ∧ win0_0.index t (1 : Fin 2) = 0
  ∧ win0_1.index t (0 : Fin 2) = t.val
  ∧ win0_1.index t (1 : Fin 2) = 0
  ∧ win0_2.index t (0 : Fin 2) = t.val
  ∧ win0_2.index t (1 : Fin 2) = 0
  ∧ win0_3.index t (0 : Fin 2) = t.val
  ∧ win0_3.index t (1 : Fin 2) = 0
  ∧ win0_4.index t (0 : Fin 2) = 0
  ∧ win0_4.index t (1 : Fin 2) = 0
  ∧ win0_5.index t (0 : Fin 2) = 0
  ∧ win0_5.index t (1 : Fin 2) = 0
  ∧ win0_6.index t (0 : Fin 2) = 0
  ∧ win0_6.index t (1 : Fin 2) = 0
  ∧ win0_7.index t (0 : Fin 1) = 0
  ∧ win0_8.index t (0 : Fin 2) = 0
  ∧ win0_8.index t (1 : Fin 2) = 0
  ∧ win0_9.index t (0 : Fin 1) = 0
  ∧ win0_10.index t (0 : Fin 2) = 0
  ∧ win0_10.index t (1 : Fin 2) = 0
  ∧ win0_11.index t (0 : Fin 1) = 0
  ∧ win0_12.index t (0 : Fin 2) = 0
  ∧ win0_12.index t (1 : Fin 2) = 0
  ∧ win0_13.index t (0 : Fin 1) = 0 :=
  (by decide +kernel : ∀ t : Fin grid0.N, _)

/-! ## The operands' blocks at a point -/

/-- Row p of window 0's block at point t is row 2048 t + p of its array. -/
theorem rowblk_0 (c : Dev nD) (t : Fin cfg0.N) (p : Fin 2048) (r : Fin 262144) (hr : r.val = t.val * 2048 + p.val) :
    Boundary.row (a := 2048) (b := 128) (iblk0 V c 0 t) p = Boundary.row (a := 262144) (b := 128) (V c main_v9) r := by
  obtain ⟨e0, e1, e2, e3, e4, e5, e6, e7, e8, e9, e10, e11, e12, e13, e14, e15, e16, e17, e18, e19, e20, e21, e22, e23, e24, e25, e26, e27⟩ := idx0 t
  funext q
  show V c main_v9 (((cfg0.win 0).blk t).view.emb (ix2 p q)) = V c main_v9 (ix2 r q)
  congr 1
  funext a; apply Fin.ext
  match a with
  | ⟨0, _⟩ => show win0_0.index t (0 : Fin 2) * 2048 + 1 * p.val = r.val; omega
  | ⟨1, _⟩ => show win0_0.index t (1 : Fin 2) * 128 + 1 * q.val = q.val; omega

/-- Row p of window 1's block at point t is row 2048 t + p of its array. -/
theorem rowblk_1 (c : Dev nD) (t : Fin cfg0.N) (p : Fin 2048) (r : Fin 262144) (hr : r.val = t.val * 2048 + p.val) :
    Boundary.row (a := 2048) (b := 128) (iblk0 V c 1 t) p = Boundary.row (a := 262144) (b := 128) (V c main_v16) r := by
  obtain ⟨e0, e1, e2, e3, e4, e5, e6, e7, e8, e9, e10, e11, e12, e13, e14, e15, e16, e17, e18, e19, e20, e21, e22, e23, e24, e25, e26, e27⟩ := idx0 t
  funext q
  show V c main_v16 (((cfg0.win 1).blk t).view.emb (ix2 p q)) = V c main_v16 (ix2 r q)
  congr 1
  funext a; apply Fin.ext
  match a with
  | ⟨0, _⟩ => show win0_1.index t (0 : Fin 2) * 2048 + 1 * p.val = r.val; omega
  | ⟨1, _⟩ => show win0_1.index t (1 : Fin 2) * 128 + 1 * q.val = q.val; omega

/-- Row p of window 2's block at point t is row 2048 t + p of its array. -/
theorem rowblk_2 (c : Dev nD) (t : Fin cfg0.N) (p : Fin 2048) (r : Fin 262144) (hr : r.val = t.val * 2048 + p.val) :
    Boundary.row (a := 2048) (b := 3) (iblk0 V c 2 t) p = Boundary.row (a := 262144) (b := 3) (V c main_v23) r := by
  obtain ⟨e0, e1, e2, e3, e4, e5, e6, e7, e8, e9, e10, e11, e12, e13, e14, e15, e16, e17, e18, e19, e20, e21, e22, e23, e24, e25, e26, e27⟩ := idx0 t
  funext q
  show V c main_v23 (((cfg0.win 2).blk t).view.emb (ix2 p q)) = V c main_v23 (ix2 r q)
  congr 1
  funext a; apply Fin.ext
  match a with
  | ⟨0, _⟩ => show win0_2.index t (0 : Fin 2) * 2048 + 1 * p.val = r.val; omega
  | ⟨1, _⟩ => show win0_2.index t (1 : Fin 2) * 3 + 1 * q.val = q.val; omega

/-- Row p of window 3's block at point t is row 2048 t + p of its array. -/
theorem rowblk_3 (c : Dev nD) (t : Fin cfg0.N) (p : Fin 2048) (r : Fin 262144) (hr : r.val = t.val * 2048 + p.val) :
    Boundary.row (a := 2048) (b := 3) (iblk0 V c 3 t) p = Boundary.row (a := 262144) (b := 3) (V c main_v30) r := by
  obtain ⟨e0, e1, e2, e3, e4, e5, e6, e7, e8, e9, e10, e11, e12, e13, e14, e15, e16, e17, e18, e19, e20, e21, e22, e23, e24, e25, e26, e27⟩ := idx0 t
  funext q
  show V c main_v30 (((cfg0.win 3).blk t).view.emb (ix2 p q)) = V c main_v30 (ix2 r q)
  congr 1
  funext a; apply Fin.ext
  match a with
  | ⟨0, _⟩ => show win0_3.index t (0 : Fin 2) * 2048 + 1 * p.val = r.val; omega
  | ⟨1, _⟩ => show win0_3.index t (1 : Fin 2) * 3 + 1 * q.val = q.val; omega

/-- Window 4's block at any point is its whole array. -/
theorem wtblk_4 (c : Dev nD) (t : Fin cfg0.N) : (iblk0 V c 4 t : S128x128.Idx → EReal) = V c main_v59 := by
  obtain ⟨e0, e1, e2, e3, e4, e5, e6, e7, e8, e9, e10, e11, e12, e13, e14, e15, e16, e17, e18, e19, e20, e21, e22, e23, e24, e25, e26, e27⟩ := idx0 t
  funext y
  show V c main_v59 (((cfg0.win 4).blk t).view.emb y) = V c main_v59 y
  congr 1
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5's block at any point is its whole array. -/
theorem wtblk_5 (c : Dev nD) (t : Fin cfg0.N) : (iblk0 V c 5 t : S128x128.Idx → EReal) = V c main_v60 := by
  obtain ⟨e0, e1, e2, e3, e4, e5, e6, e7, e8, e9, e10, e11, e12, e13, e14, e15, e16, e17, e18, e19, e20, e21, e22, e23, e24, e25, e26, e27⟩ := idx0 t
  funext y
  show V c main_v60 (((cfg0.win 5).blk t).view.emb y) = V c main_v60 y
  congr 1
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6's block at any point is its whole array. -/
theorem wtblk_6 (c : Dev nD) (t : Fin cfg0.N) : (iblk0 V c 6 t : S1x128.Idx → EReal) = V c main_v61 := by
  obtain ⟨e0, e1, e2, e3, e4, e5, e6, e7, e8, e9, e10, e11, e12, e13, e14, e15, e16, e17, e18, e19, e20, e21, e22, e23, e24, e25, e26, e27⟩ := idx0 t
  funext y
  show V c main_v61 (((cfg0.win 6).blk t).view.emb y) = V c main_v61 y
  congr 1
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7's block at any point is its whole array. -/
theorem wtblk_7 (c : Dev nD) (t : Fin cfg0.N) : (iblk0 V c 7 t : S128.Idx → EReal) = V c main_arg11 := by
  obtain ⟨e0, e1, e2, e3, e4, e5, e6, e7, e8, e9, e10, e11, e12, e13, e14, e15, e16, e17, e18, e19, e20, e21, e22, e23, e24, e25, e26, e27⟩ := idx0 t
  funext y
  show V c main_arg11 (((cfg0.win 7).blk t).view.emb y) = V c main_arg11 y
  congr 1
  funext a; apply Fin.ext
  match a with
  | ⟨0, _⟩ => show win0_7.index t (0 : Fin 1) * 128 + 1 * (y 0).val = (y 0).val; omega

/-- Window 8's block at any point is its whole array. -/
theorem wtblk_8 (c : Dev nD) (t : Fin cfg0.N) : (iblk0 V c 8 t : S128x128.Idx → EReal) = V c main_arg12 := by
  obtain ⟨e0, e1, e2, e3, e4, e5, e6, e7, e8, e9, e10, e11, e12, e13, e14, e15, e16, e17, e18, e19, e20, e21, e22, e23, e24, e25, e26, e27⟩ := idx0 t
  funext y
  show V c main_arg12 (((cfg0.win 8).blk t).view.emb y) = V c main_arg12 y
  congr 1
  funext a; apply Fin.ext
  match a with
  | ⟨0, _⟩ => show win0_8.index t (0 : Fin 2) * 128 + 1 * (y 0).val = (y 0).val; omega
  | ⟨1, _⟩ => show win0_8.index t (1 : Fin 2) * 128 + 1 * (y 1).val = (y 1).val; omega

/-- Window 9's block at any point is its whole array. -/
theorem wtblk_9 (c : Dev nD) (t : Fin cfg0.N) : (iblk0 V c 9 t : S128.Idx → EReal) = V c main_arg13 := by
  obtain ⟨e0, e1, e2, e3, e4, e5, e6, e7, e8, e9, e10, e11, e12, e13, e14, e15, e16, e17, e18, e19, e20, e21, e22, e23, e24, e25, e26, e27⟩ := idx0 t
  funext y
  show V c main_arg13 (((cfg0.win 9).blk t).view.emb y) = V c main_arg13 y
  congr 1
  funext a; apply Fin.ext
  match a with
  | ⟨0, _⟩ => show win0_9.index t (0 : Fin 1) * 128 + 1 * (y 0).val = (y 0).val; omega

/-- Window 10's block at any point is its whole array. -/
theorem wtblk_10 (c : Dev nD) (t : Fin cfg0.N) : (iblk0 V c 10 t : S128x128.Idx → EReal) = V c main_arg22 := by
  obtain ⟨e0, e1, e2, e3, e4, e5, e6, e7, e8, e9, e10, e11, e12, e13, e14, e15, e16, e17, e18, e19, e20, e21, e22, e23, e24, e25, e26, e27⟩ := idx0 t
  funext y
  show V c main_arg22 (((cfg0.win 10).blk t).view.emb y) = V c main_arg22 y
  congr 1
  funext a; apply Fin.ext
  match a with
  | ⟨0, _⟩ => show win0_10.index t (0 : Fin 2) * 128 + 1 * (y 0).val = (y 0).val; omega
  | ⟨1, _⟩ => show win0_10.index t (1 : Fin 2) * 128 + 1 * (y 1).val = (y 1).val; omega

/-- Window 11's block at any point is its whole array. -/
theorem wtblk_11 (c : Dev nD) (t : Fin cfg0.N) : (iblk0 V c 11 t : S128.Idx → EReal) = V c main_arg23 := by
  obtain ⟨e0, e1, e2, e3, e4, e5, e6, e7, e8, e9, e10, e11, e12, e13, e14, e15, e16, e17, e18, e19, e20, e21, e22, e23, e24, e25, e26, e27⟩ := idx0 t
  funext y
  show V c main_arg23 (((cfg0.win 11).blk t).view.emb y) = V c main_arg23 y
  congr 1
  funext a; apply Fin.ext
  match a with
  | ⟨0, _⟩ => show win0_11.index t (0 : Fin 1) * 128 + 1 * (y 0).val = (y 0).val; omega

/-- Window 12's block at any point is its whole array. -/
theorem wtblk_12 (c : Dev nD) (t : Fin cfg0.N) : (iblk0 V c 12 t : S128x1.Idx → EReal) = V c main_arg24 := by
  obtain ⟨e0, e1, e2, e3, e4, e5, e6, e7, e8, e9, e10, e11, e12, e13, e14, e15, e16, e17, e18, e19, e20, e21, e22, e23, e24, e25, e26, e27⟩ := idx0 t
  funext y
  show V c main_arg24 (((cfg0.win 12).blk t).view.emb y) = V c main_arg24 y
  congr 1
  funext a; apply Fin.ext
  match a with
  | ⟨0, _⟩ => show win0_12.index t (0 : Fin 2) * 128 + 1 * (y 0).val = (y 0).val; omega
  | ⟨1, _⟩ => show win0_12.index t (1 : Fin 2) * 1 + 1 * (y 1).val = (y 1).val; omega

/-- Window 13's block at any point is its whole array. -/
theorem wtblk_13 (c : Dev nD) (t : Fin cfg0.N) : (iblk0 V c 13 t : S1.Idx → EReal) = V c main_arg25 := by
  obtain ⟨e0, e1, e2, e3, e4, e5, e6, e7, e8, e9, e10, e11, e12, e13, e14, e15, e16, e17, e18, e19, e20, e21, e22, e23, e24, e25, e26, e27⟩ := idx0 t
  funext y
  show V c main_arg25 (((cfg0.win 13).blk t).view.emb y) = V c main_arg25 y
  congr 1
  funext a; apply Fin.ext
  match a with
  | ⟨0, _⟩ => show win0_13.index t (0 : Fin 1) * 1 + 1 * (y 0).val = (y 0).val; omega

/-! ## Output window 14 -/

/-- Where entry j of point t's block of window 14 lands in the array: row 2048 t + (row of j), the same column. -/
theorem emb14_row (t : Fin cfg0.N) (j : S2048x128.Idx) :
    ((((cfg0.win 14).blk t).view.emb j) 0).val = t.val * 2048 + (j 0).val := by
  obtain ⟨e0, e1, e2, e3, e4, e5, e6, e7, e8, e9, e10, e11, e12, e13, e14, e15, e16, e17, e18, e19, e20, e21, e22, e23, e24, e25, e26, e27⟩ := idx0 t
  show win0_14.index t (0 : Fin 2) * 2048 + 1 * (j 0).val = _; omega
theorem emb14_col (t : Fin cfg0.N) (j : S2048x128.Idx) :
    ((((cfg0.win 14).blk t).view.emb j) 1).val = (j 1).val := by
  obtain ⟨e0, e1, e2, e3, e4, e5, e6, e7, e8, e9, e10, e11, e12, e13, e14, e15, e16, e17, e18, e19, e20, e21, e22, e23, e24, e25, e26, e27⟩ := idx0 t
  show win0_14.index t (1 : Fin 2) * 128 + 1 * (j 1).val = _; omega

/-- An index of the array is in point t's block iff each coordinate is in the block's range on its axis. -/
theorem mem_blk14 (t : Fin cfg0.N) (i : S262144x128.Idx) :
    i ∈ ((cfg0.win 14).blk t).view.set ↔ ∀ a : Fin 2, win0_14.index t a * S2048x128.size a ≤ (i a).val ∧ (i a).val < win0_14.index t a * S2048x128.size a + S2048x128.size a := by
  show i ∈ ((View.whole main_v65_0).slice (win0_14.rect t)).set ↔ _
  rw [View.set_slice_whole, Rect.mem_set_unit]
  exact Iff.rfl

/-- The blocks tile the array: row r is in the block of point r / 2048. -/
theorem cover14 (i : S262144x128.Idx) :
    ∃ t : Fin cfg0.N, (cfg0.win 14).flush t = true ∧ i ∈ ((cfg0.win 14).blk t).view.set := by
  have hi0 : (i 0).val < 262144 := (i 0).isLt
  have hi1 : (i 1).val < 128 := (i 1).isLt
  have hN : cfg0.N = 128 := N_0
  have ht : (i 0).val / 2048 < cfg0.N := by omega
  refine ⟨⟨(i 0).val / 2048, ht⟩, flush0_14 _, ?_⟩
  rw [mem_blk14]
  obtain ⟨e0, e1, e2, e3, e4, e5, e6, e7, e8, e9, e10, e11, e12, e13, e14, e15, e16, e17, e18, e19, e20, e21, e22, e23, e24, e25, e26, e27⟩ := idx0 ⟨(i 0).val / 2048, ht⟩
  intro a
  match a with
  | ⟨0, _⟩ =>
    show win0_14.index ⟨(i 0).val / 2048, ht⟩ (0 : Fin 2) * 2048 ≤ (i 0).val ∧ (i 0).val < win0_14.index ⟨(i 0).val / 2048, ht⟩ (0 : Fin 2) * 2048 + 2048
    have hv : (⟨(i 0).val / 2048, ht⟩ : Fin cfg0.N).val = (i 0).val / 2048 := rfl
    omega
  | ⟨1, _⟩ =>
    show win0_14.index ⟨(i 0).val / 2048, ht⟩ (1 : Fin 2) * 128 ≤ (i 1).val ∧ (i 1).val < win0_14.index ⟨(i 0).val / 2048, ht⟩ (1 : Fin 2) * 128 + 128
    omega

/-! ## Output window 15 -/

/-- Where entry j of point t's block of window 15 lands in the array: row 2048 t + (row of j), the same column. -/
theorem emb15_row (t : Fin cfg0.N) (j : S2048x3.Idx) :
    ((((cfg0.win 15).blk t).view.emb j) 0).val = t.val * 2048 + (j 0).val := by
  obtain ⟨e0, e1, e2, e3, e4, e5, e6, e7, e8, e9, e10, e11, e12, e13, e14, e15, e16, e17, e18, e19, e20, e21, e22, e23, e24, e25, e26, e27⟩ := idx0 t
  show win0_15.index t (0 : Fin 2) * 2048 + 1 * (j 0).val = _; omega
theorem emb15_col (t : Fin cfg0.N) (j : S2048x3.Idx) :
    ((((cfg0.win 15).blk t).view.emb j) 1).val = (j 1).val := by
  obtain ⟨e0, e1, e2, e3, e4, e5, e6, e7, e8, e9, e10, e11, e12, e13, e14, e15, e16, e17, e18, e19, e20, e21, e22, e23, e24, e25, e26, e27⟩ := idx0 t
  show win0_15.index t (1 : Fin 2) * 3 + 1 * (j 1).val = _; omega

/-- An index of the array is in point t's block iff each coordinate is in the block's range on its axis. -/
theorem mem_blk15 (t : Fin cfg0.N) (i : S262144x3.Idx) :
    i ∈ ((cfg0.win 15).blk t).view.set ↔ ∀ a : Fin 2, win0_15.index t a * S2048x3.size a ≤ (i a).val ∧ (i a).val < win0_15.index t a * S2048x3.size a + S2048x3.size a := by
  show i ∈ ((View.whole main_v65_1).slice (win0_15.rect t)).set ↔ _
  rw [View.set_slice_whole, Rect.mem_set_unit]
  exact Iff.rfl

/-- The blocks tile the array: row r is in the block of point r / 2048. -/
theorem cover15 (i : S262144x3.Idx) :
    ∃ t : Fin cfg0.N, (cfg0.win 15).flush t = true ∧ i ∈ ((cfg0.win 15).blk t).view.set := by
  have hi0 : (i 0).val < 262144 := (i 0).isLt
  have hi1 : (i 1).val < 3 := (i 1).isLt
  have hN : cfg0.N = 128 := N_0
  have ht : (i 0).val / 2048 < cfg0.N := by omega
  refine ⟨⟨(i 0).val / 2048, ht⟩, flush0_15 _, ?_⟩
  rw [mem_blk15]
  obtain ⟨e0, e1, e2, e3, e4, e5, e6, e7, e8, e9, e10, e11, e12, e13, e14, e15, e16, e17, e18, e19, e20, e21, e22, e23, e24, e25, e26, e27⟩ := idx0 ⟨(i 0).val / 2048, ht⟩
  intro a
  match a with
  | ⟨0, _⟩ =>
    show win0_15.index ⟨(i 0).val / 2048, ht⟩ (0 : Fin 2) * 2048 ≤ (i 0).val ∧ (i 0).val < win0_15.index ⟨(i 0).val / 2048, ht⟩ (0 : Fin 2) * 2048 + 2048
    have hv : (⟨(i 0).val / 2048, ht⟩ : Fin cfg0.N).val = (i 0).val / 2048 := rfl
    omega
  | ⟨1, _⟩ =>
    show win0_15.index ⟨(i 0).val / 2048, ht⟩ (1 : Fin 2) * 3 ≤ (i 1).val ∧ (i 1).val < win0_15.index ⟨(i 0).val / 2048, ht⟩ (1 : Fin 2) * 3 + 3
    omega

/-! ## What each point writes back, and the arrays after the last point -/

/-- Point t writes back, through output window 14, its block of the messages of the whole edge list. -/
theorem flushed14 (c : Dev nD) (t : Fin cfg0.N) :
    (dat0 V c).flushed 14 t = ((cfg0.win 14).blk t).view.read (Elt Ideal) (Boundary.messages (V c main_v9) (V c main_v16) (V c main_v23) (V c main_v30) (V c main_v59) (V c main_v60) (V c main_v61) (V c main_arg11) (V c main_arg12) (V c main_arg13)) := by
  show (cfg0.win 14).cut (grid0.coords t) ((dat0 V c).after 14 t) = _
  rw [after0_14, Cert.KernelIdeal.Blocks.out0_14_eq]
  funext j
  show Boundary.messages (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) j = Boundary.messages (V c main_v9) (V c main_v16) (V c main_v23) (V c main_v30) (V c main_v59) (V c main_v60) (V c main_v61) (V c main_arg11) (V c main_arg12) (V c main_arg13) (((cfg0.win 14).blk t).view.emb j)
  exact Boundary.messages_blocks (V c main_v9) (V c main_v16) (V c main_v23) (V c main_v30) (V c main_v59) (V c main_v60) (V c main_v61) (V c main_arg11) (V c main_arg12) (V c main_arg13) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) j (((cfg0.win 14).blk t).view.emb j)
    (rowblk_0 V c t (j 0) _ (emb14_row t j)) (rowblk_1 V c t (j 0) _ (emb14_row t j))
    (rowblk_2 V c t (j 0) _ (emb14_row t j)) (rowblk_3 V c t (j 0) _ (emb14_row t j))
    (Fin.ext (emb14_col t j).symm)
    (wtblk_4 V c t) (wtblk_5 V c t) (wtblk_6 V c t) (wtblk_7 V c t) (wtblk_8 V c t) (wtblk_9 V c t)

/-- After the last point the messages array holds the messages of the whole edge list. -/
theorem final14 (c : Dev nD) : (dat0 V c).arrAt 14 cfg0.N = Boundary.messages (V c main_v9) (V c main_v16) (V c main_v23) (V c main_v30) (V c main_v59) (V c main_v60) (V c main_v61) (V c main_arg11) (V c main_arg12) (V c main_arg13) :=
  (dat0 V c).arrAt_eq_of_cover 14 _ (fun t _ => flushed14 V c t) cover14

/-- Point t writes back, through output window 15, its block of the gated differences of the whole edge list. -/
theorem flushed15 (c : Dev nD) (t : Fin cfg0.N) :
    (dat0 V c).flushed 15 t = ((cfg0.win 15).blk t).view.read (Elt Ideal)
      (Boundary.gatedDiffs (Boundary.messages (V c main_v9) (V c main_v16) (V c main_v23) (V c main_v30) (V c main_v59) (V c main_v60) (V c main_v61) (V c main_arg11) (V c main_arg12) (V c main_arg13)) (V c main_v23) (V c main_v30) (V c main_arg22) (V c main_arg23) (V c main_arg24) (V c main_arg25)) := by
  show (cfg0.win 15).cut (grid0.coords t) ((dat0 V c).after 15 t) = _
  rw [after0_15, Cert.KernelIdeal.Blocks.out0_15_eq]
  funext j
  show Boundary.gatedDiffs (Boundary.messages (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) (iblk0 V c 2 t) (iblk0 V c 3 t) (iblk0 V c 10 t) (iblk0 V c 11 t) (iblk0 V c 12 t) (iblk0 V c 13 t) j
    = Boundary.gatedDiffs (Boundary.messages (V c main_v9) (V c main_v16) (V c main_v23) (V c main_v30) (V c main_v59) (V c main_v60) (V c main_v61) (V c main_arg11) (V c main_arg12) (V c main_arg13)) (V c main_v23) (V c main_v30) (V c main_arg22) (V c main_arg23) (V c main_arg24) (V c main_arg25) (((cfg0.win 15).blk t).view.emb j)
  exact Boundary.gated_blocks (V c main_v9) (V c main_v16) (V c main_v23) (V c main_v30) (V c main_v59) (V c main_v60) (V c main_v61) (V c main_arg11) (V c main_arg12) (V c main_arg13) (V c main_arg22) (V c main_arg23) (V c main_arg24) (V c main_arg25) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) j (((cfg0.win 15).blk t).view.emb j)
    (rowblk_0 V c t (j 0) _ (emb15_row t j)) (rowblk_1 V c t (j 0) _ (emb15_row t j))
    (rowblk_2 V c t (j 0) _ (emb15_row t j)) (rowblk_3 V c t (j 0) _ (emb15_row t j))
    (emb15_col t j).symm
    (wtblk_4 V c t) (wtblk_5 V c t) (wtblk_6 V c t) (wtblk_7 V c t) (wtblk_8 V c t) (wtblk_9 V c t)
    (wtblk_10 V c t) (wtblk_11 V c t) (wtblk_12 V c t) (wtblk_13 V c t)

/-- After the last point the gated-differences array holds the gated differences of the whole edge list. -/
theorem final15 (c : Dev nD) : (dat0 V c).arrAt 15 cfg0.N
    = Boundary.gatedDiffs (Boundary.messages (V c main_v9) (V c main_v16) (V c main_v23) (V c main_v30) (V c main_v59) (V c main_v60) (V c main_v61) (V c main_arg11) (V c main_arg12) (V c main_arg13)) (V c main_v23) (V c main_v30) (V c main_arg22) (V c main_arg23) (V c main_arg24) (V c main_arg25) :=
  (dat0 V c).arrAt_eq_of_cover 15 _ (fun t _ => flushed15 V c t) cover15

end Cert.KernelIdeal.UpperEdges

end
-- ==== Proof.KTilesLower.lean ====
/-
  The second edge kernel (the lower neighbours' edges), from blocks of 2048 edges to the whole edge list.

  The grid has 128 points; point t reads rows 2048 t … 2048 t + 2047 of each row-indexed operand and each weight
  array whole, and writes back rows 2048 t … 2048 t + 2047 of each result. Since every row of a result depends on the same row
  of the row-indexed operands only, what point t writes back is its block of ONE array-level function of the whole
  operands; the blocks tile the 262144 rows, so after the last point each result array is that function.
-/
import proofs.«178050_j6622839570871_2_alg».proof.Proof.Gen.KernelIdeal.Frame
import proofs.«178050_j6622839570871_2_alg».proof.Proof.SpecBlocks
import proofs.«178050_j6622839570871_2_alg».proof.Proof.KBlocksEdge
import Idealize.ShloMosaic.Lib.Pipeline.Value

set_option maxRecDepth 16384

noncomputable section

namespace Cert.KernelIdeal.LowerEdges

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The index maps, decided over the grid: a row-indexed window's block index is (t, 0), a weight window's is zero. -/
theorem idx1 : ∀ t : Fin cfg1.N,
    win1_14.index t (0 : Fin 2) = t.val
  ∧ win1_14.index t (1 : Fin 2) = 0
  ∧ win1_15.index t (0 : Fin 2) = t.val
  ∧ win1_15.index t (1 : Fin 2) = 0
  ∧ win1_0.index t (0 : Fin 2) = t.val
  ∧ win1_0.index t (1 : Fin 2) = 0
  ∧ win1_1.index t (0 : Fin 2) = t.val
  ∧ win1_1.index t (1 : Fin 2) = 0
  ∧ win1_2.index t (0 : Fin 2) = t.val
  ∧ win1_2.index t (1 : Fin 2) = 0
  ∧ win1_3.index t (0 : Fin 2) = t.val
  ∧ win1_3.index t (1 : Fin 2) = 0
  ∧ win1_4.index t (0 : Fin 2) = 0
  ∧ win1_4.index t (1 : Fin 2) = 0
  ∧ win1_5.index t (0 : Fin 2) = 0
  ∧ win1_5.index t (1 : Fin 2) = 0
  ∧ win1_6.index t (0 : Fin 2) = 0
  ∧ win1_6.index t (1 : Fin 2) = 0
  ∧ win1_7.index t (0 : Fin 1) = 0
  ∧ win1_8.index t (0 : Fin 2) = 0
  ∧ win1_8.index t (1 : Fin 2) = 0
  ∧ win1_9.index t (0 : Fin 1) = 0
  ∧ win1_10.index t (0 : Fin 2) = 0
  ∧ win1_10.index t (1 : Fin 2) = 0
  ∧ win1_11.index t (0 : Fin 1) = 0
  ∧ win1_12.index t (0 : Fin 2) = 0
  ∧ win1_12.index t (1 : Fin 2) = 0
  ∧ win1_13.index t (0 : Fin 1) = 0 :=
  (by decide +kernel : ∀ t : Fin grid1.N, _)

/-! ## The operands' blocks at a point -/

/-- Row p of window 0's block at point t is row 2048 t + p of its array. -/
theorem rowblk_0 (c : Dev nD) (t : Fin cfg1.N) (p : Fin 2048) (r : Fin 262144) (hr : r.val = t.val * 2048 + p.val) :
    Boundary.row (a := 2048) (b := 128) (iblk1 V c 0 t) p = Boundary.row (a := 262144) (b := 128) (V c main_v37) r := by
  obtain ⟨e0, e1, e2, e3, e4, e5, e6, e7, e8, e9, e10, e11, e12, e13, e14, e15, e16, e17, e18, e19, e20, e21, e22, e23, e24, e25, e26, e27⟩ := idx1 t
  funext q
  show V c main_v37 (((cfg1.win 0).blk t).view.emb (ix2 p q)) = V c main_v37 (ix2 r q)
  congr 1
  funext a; apply Fin.ext
  match a with
  | ⟨0, _⟩ => show win1_0.index t (0 : Fin 2) * 2048 + 1 * p.val = r.val; omega
  | ⟨1, _⟩ => show win1_0.index t (1 : Fin 2) * 128 + 1 * q.val = q.val; omega

/-- Row p of window 1's block at point t is row 2048 t + p of its array. -/
theorem rowblk_1 (c : Dev nD) (t : Fin cfg1.N) (p : Fin 2048) (r : Fin 262144) (hr : r.val = t.val * 2048 + p.val) :
    Boundary.row (a := 2048) (b := 128) (iblk1 V c 1 t) p = Boundary.row (a := 262144) (b := 128) (V c main_v44) r := by
  obtain ⟨e0, e1, e2, e3, e4, e5, e6, e7, e8, e9, e10, e11, e12, e13, e14, e15, e16, e17, e18, e19, e20, e21, e22, e23, e24, e25, e26, e27⟩ := idx1 t
  funext q
  show V c main_v44 (((cfg1.win 1).blk t).view.emb (ix2 p q)) = V c main_v44 (ix2 r q)
  congr 1
  funext a; apply Fin.ext
  match a with
  | ⟨0, _⟩ => show win1_1.index t (0 : Fin 2) * 2048 + 1 * p.val = r.val; omega
  | ⟨1, _⟩ => show win1_1.index t (1 : Fin 2) * 128 + 1 * q.val = q.val; omega

/-- Row p of window 2's block at point t is row 2048 t + p of its array. -/
theorem rowblk_2 (c : Dev nD) (t : Fin cfg1.N) (p : Fin 2048) (r : Fin 262144) (hr : r.val = t.val * 2048 + p.val) :
    Boundary.row (a := 2048) (b := 3) (iblk1 V c 2 t) p = Boundary.row (a := 262144) (b := 3) (V c main_v51) r := by
  obtain ⟨e0, e1, e2, e3, e4, e5, e6, e7, e8, e9, e10, e11, e12, e13, e14, e15, e16, e17, e18, e19, e20, e21, e22, e23, e24, e25, e26, e27⟩ := idx1 t
  funext q
  show V c main_v51 (((cfg1.win 2).blk t).view.emb (ix2 p q)) = V c main_v51 (ix2 r q)
  congr 1
  funext a; apply Fin.ext
  match a with
  | ⟨0, _⟩ => show win1_2.index t (0 : Fin 2) * 2048 + 1 * p.val = r.val; omega
  | ⟨1, _⟩ => show win1_2.index t (1 : Fin 2) * 3 + 1 * q.val = q.val; omega

/-- Row p of window 3's block at point t is row 2048 t + p of its array. -/
theorem rowblk_3 (c : Dev nD) (t : Fin cfg1.N) (p : Fin 2048) (r : Fin 262144) (hr : r.val = t.val * 2048 + p.val) :
    Boundary.row (a := 2048) (b := 3) (iblk1 V c 3 t) p = Boundary.row (a := 262144) (b := 3) (V c main_v58) r := by
  obtain ⟨e0, e1, e2, e3, e4, e5, e6, e7, e8, e9, e10, e11, e12, e13, e14, e15, e16, e17, e18, e19, e20, e21, e22, e23, e24, e25, e26, e27⟩ := idx1 t
  funext q
  show V c main_v58 (((cfg1.win 3).blk t).view.emb (ix2 p q)) = V c main_v58 (ix2 r q)
  congr 1
  funext a; apply Fin.ext
  match a with
  | ⟨0, _⟩ => show win1_3.index t (0 : Fin 2) * 2048 + 1 * p.val = r.val; omega
  | ⟨1, _⟩ => show win1_3.index t (1 : Fin 2) * 3 + 1 * q.val = q.val; omega

/-- Window 4's block at any point is its whole array. -/
theorem wtblk_4 (c : Dev nD) (t : Fin cfg1.N) : (iblk1 V c 4 t : S128x128.Idx → EReal) = V c main_v62 := by
  obtain ⟨e0, e1, e2, e3, e4, e5, e6, e7, e8, e9, e10, e11, e12, e13, e14, e15, e16, e17, e18, e19, e20, e21, e22, e23, e24, e25, e26, e27⟩ := idx1 t
  funext y
  show V c main_v62 (((cfg1.win 4).blk t).view.emb y) = V c main_v62 y
  congr 1
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Window 5's block at any point is its whole array. -/
theorem wtblk_5 (c : Dev nD) (t : Fin cfg1.N) : (iblk1 V c 5 t : S128x128.Idx → EReal) = V c main_v63 := by
  obtain ⟨e0, e1, e2, e3, e4, e5, e6, e7, e8, e9, e10, e11, e12, e13, e14, e15, e16, e17, e18, e19, e20, e21, e22, e23, e24, e25, e26, e27⟩ := idx1 t
  funext y
  show V c main_v63 (((cfg1.win 5).blk t).view.emb y) = V c main_v63 y
  congr 1
  funext a; apply Fin.ext
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- Window 6's block at any point is its whole array. -/
theorem wtblk_6 (c : Dev nD) (t : Fin cfg1.N) : (iblk1 V c 6 t : S1x128.Idx → EReal) = V c main_v64 := by
  obtain ⟨e0, e1, e2, e3, e4, e5, e6, e7, e8, e9, e10, e11, e12, e13, e14, e15, e16, e17, e18, e19, e20, e21, e22, e23, e24, e25, e26, e27⟩ := idx1 t
  funext y
  show V c main_v64 (((cfg1.win 6).blk t).view.emb y) = V c main_v64 y
  congr 1
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Window 7's block at any point is its whole array. -/
theorem wtblk_7 (c : Dev nD) (t : Fin cfg1.N) : (iblk1 V c 7 t : S128.Idx → EReal) = V c main_arg15 := by
  obtain ⟨e0, e1, e2, e3, e4, e5, e6, e7, e8, e9, e10, e11, e12, e13, e14, e15, e16, e17, e18, e19, e20, e21, e22, e23, e24, e25, e26, e27⟩ := idx1 t
  funext y
  show V c main_arg15 (((cfg1.win 7).blk t).view.emb y) = V c main_arg15 y
  congr 1
  funext a; apply Fin.ext
  match a with
  | ⟨0, _⟩ => show win1_7.index t (0 : Fin 1) * 128 + 1 * (y 0).val = (y 0).val; omega

/-- Window 8's block at any point is its whole array. -/
theorem wtblk_8 (c : Dev nD) (t : Fin cfg1.N) : (iblk1 V c 8 t : S128x128.Idx → EReal) = V c main_arg16 := by
  obtain ⟨e0, e1, e2, e3, e4, e5, e6, e7, e8, e9, e10, e11, e12, e13, e14, e15, e16, e17, e18, e19, e20, e21, e22, e23, e24, e25, e26, e27⟩ := idx1 t
  funext y
  show V c main_arg16 (((cfg1.win 8).blk t).view.emb y) = V c main_arg16 y
  congr 1
  funext a; apply Fin.ext
  match a with
  | ⟨0, _⟩ => show win1_8.index t (0 : Fin 2) * 128 + 1 * (y 0).val = (y 0).val; omega
  | ⟨1, _⟩ => show win1_8.index t (1 : Fin 2) * 128 + 1 * (y 1).val = (y 1).val; omega

/-- Window 9's block at any point is its whole array. -/
theorem wtblk_9 (c : Dev nD) (t : Fin cfg1.N) : (iblk1 V c 9 t : S128.Idx → EReal) = V c main_arg17 := by
  obtain ⟨e0, e1, e2, e3, e4, e5, e6, e7, e8, e9, e10, e11, e12, e13, e14, e15, e16, e17, e18, e19, e20, e21, e22, e23, e24, e25, e26, e27⟩ := idx1 t
  funext y
  show V c main_arg17 (((cfg1.win 9).blk t).view.emb y) = V c main_arg17 y
  congr 1
  funext a; apply Fin.ext
  match a with
  | ⟨0, _⟩ => show win1_9.index t (0 : Fin 1) * 128 + 1 * (y 0).val = (y 0).val; omega

/-- Window 10's block at any point is its whole array. -/
theorem wtblk_10 (c : Dev nD) (t : Fin cfg1.N) : (iblk1 V c 10 t : S128x128.Idx → EReal) = V c main_arg26 := by
  obtain ⟨e0, e1, e2, e3, e4, e5, e6, e7, e8, e9, e10, e11, e12, e13, e14, e15, e16, e17, e18, e19, e20, e21, e22, e23, e24, e25, e26, e27⟩ := idx1 t
  funext y
  show V c main_arg26 (((cfg1.win 10).blk t).view.emb y) = V c main_arg26 y
  congr 1
  funext a; apply Fin.ext
  match a with
  | ⟨0, _⟩ => show win1_10.index t (0 : Fin 2) * 128 + 1 * (y 0).val = (y 0).val; omega
  | ⟨1, _⟩ => show win1_10.index t (1 : Fin 2) * 128 + 1 * (y 1).val = (y 1).val; omega

/-- Window 11's block at any point is its whole array. -/
theorem wtblk_11 (c : Dev nD) (t : Fin cfg1.N) : (iblk1 V c 11 t : S128.Idx → EReal) = V c main_arg27 := by
  obtain ⟨e0, e1, e2, e3, e4, e5, e6, e7, e8, e9, e10, e11, e12, e13, e14, e15, e16, e17, e18, e19, e20, e21, e22, e23, e24, e25, e26, e27⟩ := idx1 t
  funext y
  show V c main_arg27 (((cfg1.win 11).blk t).view.emb y) = V c main_arg27 y
  congr 1
  funext a; apply Fin.ext
  match a with
  | ⟨0, _⟩ => show win1_11.index t (0 : Fin 1) * 128 + 1 * (y 0).val = (y 0).val; omega

/-- Window 12's block at any point is its whole array. -/
theorem wtblk_12 (c : Dev nD) (t : Fin cfg1.N) : (iblk1 V c 12 t : S128x1.Idx → EReal) = V c main_arg28 := by
  obtain ⟨e0, e1, e2, e3, e4, e5, e6, e7, e8, e9, e10, e11, e12, e13, e14, e15, e16, e17, e18, e19, e20, e21, e22, e23, e24, e25, e26, e27⟩ := idx1 t
  funext y
  show V c main_arg28 (((cfg1.win 12).blk t).view.emb y) = V c main_arg28 y
  congr 1
  funext a; apply Fin.ext
  match a with
  | ⟨0, _⟩ => show win1_12.index t (0 : Fin 2) * 128 + 1 * (y 0).val = (y 0).val; omega
  | ⟨1, _⟩ => show win1_12.index t (1 : Fin 2) * 1 + 1 * (y 1).val = (y 1).val; omega

/-- Window 13's block at any point is its whole array. -/
theorem wtblk_13 (c : Dev nD) (t : Fin cfg1.N) : (iblk1 V c 13 t : S1.Idx → EReal) = V c main_arg29 := by
  obtain ⟨e0, e1, e2, e3, e4, e5, e6, e7, e8, e9, e10, e11, e12, e13, e14, e15, e16, e17, e18, e19, e20, e21, e22, e23, e24, e25, e26, e27⟩ := idx1 t
  funext y
  show V c main_arg29 (((cfg1.win 13).blk t).view.emb y) = V c main_arg29 y
  congr 1
  funext a; apply Fin.ext
  match a with
  | ⟨0, _⟩ => show win1_13.index t (0 : Fin 1) * 1 + 1 * (y 0).val = (y 0).val; omega

/-! ## Output window 14 -/

/-- Where entry j of point t's block of window 14 lands in the array: row 2048 t + (row of j), the same column. -/
theorem emb14_row (t : Fin cfg1.N) (j : S2048x128.Idx) :
    ((((cfg1.win 14).blk t).view.emb j) 0).val = t.val * 2048 + (j 0).val := by
  obtain ⟨e0, e1, e2, e3, e4, e5, e6, e7, e8, e9, e10, e11, e12, e13, e14, e15, e16, e17, e18, e19, e20, e21, e22, e23, e24, e25, e26, e27⟩ := idx1 t
  show win1_14.index t (0 : Fin 2) * 2048 + 1 * (j 0).val = _; omega
theorem emb14_col (t : Fin cfg1.N) (j : S2048x128.Idx) :
    ((((cfg1.win 14).blk t).view.emb j) 1).val = (j 1).val := by
  obtain ⟨e0, e1, e2, e3, e4, e5, e6, e7, e8, e9, e10, e11, e12, e13, e14, e15, e16, e17, e18, e19, e20, e21, e22, e23, e24, e25, e26, e27⟩ := idx1 t
  show win1_14.index t (1 : Fin 2) * 128 + 1 * (j 1).val = _; omega

/-- An index of the array is in point t's block iff each coordinate is in the block's range on its axis. -/
theorem mem_blk14 (t : Fin cfg1.N) (i : S262144x128.Idx) :
    i ∈ ((cfg1.win 14).blk t).view.set ↔ ∀ a : Fin 2, win1_14.index t a * S2048x128.size a ≤ (i a).val ∧ (i a).val < win1_14.index t a * S2048x128.size a + S2048x128.size a := by
  show i ∈ ((View.whole main_v66_0).slice (win1_14.rect t)).set ↔ _
  rw [View.set_slice_whole, Rect.mem_set_unit]
  exact Iff.rfl

/-- The blocks tile the array: row r is in the block of point r / 2048. -/
theorem cover14 (i : S262144x128.Idx) :
    ∃ t : Fin cfg1.N, (cfg1.win 14).flush t = true ∧ i ∈ ((cfg1.win 14).blk t).view.set := by
  have hi0 : (i 0).val < 262144 := (i 0).isLt
  have hi1 : (i 1).val < 128 := (i 1).isLt
  have hN : cfg1.N = 128 := N_1
  have ht : (i 0).val / 2048 < cfg1.N := by omega
  refine ⟨⟨(i 0).val / 2048, ht⟩, flush1_14 _, ?_⟩
  rw [mem_blk14]
  obtain ⟨e0, e1, e2, e3, e4, e5, e6, e7, e8, e9, e10, e11, e12, e13, e14, e15, e16, e17, e18, e19, e20, e21, e22, e23, e24, e25, e26, e27⟩ := idx1 ⟨(i 0).val / 2048, ht⟩
  intro a
  match a with
  | ⟨0, _⟩ =>
    show win1_14.index ⟨(i 0).val / 2048, ht⟩ (0 : Fin 2) * 2048 ≤ (i 0).val ∧ (i 0).val < win1_14.index ⟨(i 0).val / 2048, ht⟩ (0 : Fin 2) * 2048 + 2048
    have hv : (⟨(i 0).val / 2048, ht⟩ : Fin cfg1.N).val = (i 0).val / 2048 := rfl
    omega
  | ⟨1, _⟩ =>
    show win1_14.index ⟨(i 0).val / 2048, ht⟩ (1 : Fin 2) * 128 ≤ (i 1).val ∧ (i 1).val < win1_14.index ⟨(i 0).val / 2048, ht⟩ (1 : Fin 2) * 128 + 128
    omega

/-! ## Output window 15 -/

/-- Where entry j of point t's block of window 15 lands in the array: row 2048 t + (row of j), the same column. -/
theorem emb15_row (t : Fin cfg1.N) (j : S2048x3.Idx) :
    ((((cfg1.win 15).blk t).view.emb j) 0).val = t.val * 2048 + (j 0).val := by
  obtain ⟨e0, e1, e2, e3, e4, e5, e6, e7, e8, e9, e10, e11, e12, e13, e14, e15, e16, e17, e18, e19, e20, e21, e22, e23, e24, e25, e26, e27⟩ := idx1 t
  show win1_15.index t (0 : Fin 2) * 2048 + 1 * (j 0).val = _; omega
theorem emb15_col (t : Fin cfg1.N) (j : S2048x3.Idx) :
    ((((cfg1.win 15).blk t).view.emb j) 1).val = (j 1).val := by
  obtain ⟨e0, e1, e2, e3, e4, e5, e6, e7, e8, e9, e10, e11, e12, e13, e14, e15, e16, e17, e18, e19, e20, e21, e22, e23, e24, e25, e26, e27⟩ := idx1 t
  show win1_15.index t (1 : Fin 2) * 3 + 1 * (j 1).val = _; omega

/-- An index of the array is in point t's block iff each coordinate is in the block's range on its axis. -/
theorem mem_blk15 (t : Fin cfg1.N) (i : S262144x3.Idx) :
    i ∈ ((cfg1.win 15).blk t).view.set ↔ ∀ a : Fin 2, win1_15.index t a * S2048x3.size a ≤ (i a).val ∧ (i a).val < win1_15.index t a * S2048x3.size a + S2048x3.size a := by
  show i ∈ ((View.whole main_v66_1).slice (win1_15.rect t)).set ↔ _
  rw [View.set_slice_whole, Rect.mem_set_unit]
  exact Iff.rfl

/-- The blocks tile the array: row r is in the block of point r / 2048. -/
theorem cover15 (i : S262144x3.Idx) :
    ∃ t : Fin cfg1.N, (cfg1.win 15).flush t = true ∧ i ∈ ((cfg1.win 15).blk t).view.set := by
  have hi0 : (i 0).val < 262144 := (i 0).isLt
  have hi1 : (i 1).val < 3 := (i 1).isLt
  have hN : cfg1.N = 128 := N_1
  have ht : (i 0).val / 2048 < cfg1.N := by omega
  refine ⟨⟨(i 0).val / 2048, ht⟩, flush1_15 _, ?_⟩
  rw [mem_blk15]
  obtain ⟨e0, e1, e2, e3, e4, e5, e6, e7, e8, e9, e10, e11, e12, e13, e14, e15, e16, e17, e18, e19, e20, e21, e22, e23, e24, e25, e26, e27⟩ := idx1 ⟨(i 0).val / 2048, ht⟩
  intro a
  match a with
  | ⟨0, _⟩ =>
    show win1_15.index ⟨(i 0).val / 2048, ht⟩ (0 : Fin 2) * 2048 ≤ (i 0).val ∧ (i 0).val < win1_15.index ⟨(i 0).val / 2048, ht⟩ (0 : Fin 2) * 2048 + 2048
    have hv : (⟨(i 0).val / 2048, ht⟩ : Fin cfg1.N).val = (i 0).val / 2048 := rfl
    omega
  | ⟨1, _⟩ =>
    show win1_15.index ⟨(i 0).val / 2048, ht⟩ (1 : Fin 2) * 3 ≤ (i 1).val ∧ (i 1).val < win1_15.index ⟨(i 0).val / 2048, ht⟩ (1 : Fin 2) * 3 + 3
    omega

/-! ## What each point writes back, and the arrays after the last point -/

/-- Point t writes back, through output window 14, its block of the messages of the whole edge list. -/
theorem flushed14 (c : Dev nD) (t : Fin cfg1.N) :
    (dat1 V c).flushed 14 t = ((cfg1.win 14).blk t).view.read (Elt Ideal) (Boundary.messages (V c main_v37) (V c main_v44) (V c main_v51) (V c main_v58) (V c main_v62) (V c main_v63) (V c main_v64) (V c main_arg15) (V c main_arg16) (V c main_arg17)) := by
  show (cfg1.win 14).cut (grid1.coords t) ((dat1 V c).after 14 t) = _
  rw [after1_14, Cert.KernelIdeal.Blocks.out1_14_eq]
  funext j
  show Boundary.messages (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) j = Boundary.messages (V c main_v37) (V c main_v44) (V c main_v51) (V c main_v58) (V c main_v62) (V c main_v63) (V c main_v64) (V c main_arg15) (V c main_arg16) (V c main_arg17) (((cfg1.win 14).blk t).view.emb j)
  exact Boundary.messages_blocks (V c main_v37) (V c main_v44) (V c main_v51) (V c main_v58) (V c main_v62) (V c main_v63) (V c main_v64) (V c main_arg15) (V c main_arg16) (V c main_arg17) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) j (((cfg1.win 14).blk t).view.emb j)
    (rowblk_0 V c t (j 0) _ (emb14_row t j)) (rowblk_1 V c t (j 0) _ (emb14_row t j))
    (rowblk_2 V c t (j 0) _ (emb14_row t j)) (rowblk_3 V c t (j 0) _ (emb14_row t j))
    (Fin.ext (emb14_col t j).symm)
    (wtblk_4 V c t) (wtblk_5 V c t) (wtblk_6 V c t) (wtblk_7 V c t) (wtblk_8 V c t) (wtblk_9 V c t)

/-- After the last point the messages array holds the messages of the whole edge list. -/
theorem final14 (c : Dev nD) : (dat1 V c).arrAt 14 cfg1.N = Boundary.messages (V c main_v37) (V c main_v44) (V c main_v51) (V c main_v58) (V c main_v62) (V c main_v63) (V c main_v64) (V c main_arg15) (V c main_arg16) (V c main_arg17) :=
  (dat1 V c).arrAt_eq_of_cover 14 _ (fun t _ => flushed14 V c t) cover14

/-- Point t writes back, through output window 15, its block of the gated differences of the whole edge list. -/
theorem flushed15 (c : Dev nD) (t : Fin cfg1.N) :
    (dat1 V c).flushed 15 t = ((cfg1.win 15).blk t).view.read (Elt Ideal)
      (Boundary.gatedDiffs (Boundary.messages (V c main_v37) (V c main_v44) (V c main_v51) (V c main_v58) (V c main_v62) (V c main_v63) (V c main_v64) (V c main_arg15) (V c main_arg16) (V c main_arg17)) (V c main_v51) (V c main_v58) (V c main_arg26) (V c main_arg27) (V c main_arg28) (V c main_arg29)) := by
  show (cfg1.win 15).cut (grid1.coords t) ((dat1 V c).after 15 t) = _
  rw [after1_15, Cert.KernelIdeal.Blocks.out1_15_eq]
  funext j
  show Boundary.gatedDiffs (Boundary.messages (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) (iblk1 V c 2 t) (iblk1 V c 3 t) (iblk1 V c 10 t) (iblk1 V c 11 t) (iblk1 V c 12 t) (iblk1 V c 13 t) j
    = Boundary.gatedDiffs (Boundary.messages (V c main_v37) (V c main_v44) (V c main_v51) (V c main_v58) (V c main_v62) (V c main_v63) (V c main_v64) (V c main_arg15) (V c main_arg16) (V c main_arg17)) (V c main_v51) (V c main_v58) (V c main_arg26) (V c main_arg27) (V c main_arg28) (V c main_arg29) (((cfg1.win 15).blk t).view.emb j)
  exact Boundary.gated_blocks (V c main_v37) (V c main_v44) (V c main_v51) (V c main_v58) (V c main_v62) (V c main_v63) (V c main_v64) (V c main_arg15) (V c main_arg16) (V c main_arg17) (V c main_arg26) (V c main_arg27) (V c main_arg28) (V c main_arg29) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) j (((cfg1.win 15).blk t).view.emb j)
    (rowblk_0 V c t (j 0) _ (emb15_row t j)) (rowblk_1 V c t (j 0) _ (emb15_row t j))
    (rowblk_2 V c t (j 0) _ (emb15_row t j)) (rowblk_3 V c t (j 0) _ (emb15_row t j))
    (emb15_col t j).symm
    (wtblk_4 V c t) (wtblk_5 V c t) (wtblk_6 V c t) (wtblk_7 V c t) (wtblk_8 V c t) (wtblk_9 V c t)
    (wtblk_10 V c t) (wtblk_11 V c t) (wtblk_12 V c t) (wtblk_13 V c t)

/-- After the last point the gated-differences array holds the gated differences of the whole edge list. -/
theorem final15 (c : Dev nD) : (dat1 V c).arrAt 15 cfg1.N
    = Boundary.gatedDiffs (Boundary.messages (V c main_v37) (V c main_v44) (V c main_v51) (V c main_v58) (V c main_v62) (V c main_v63) (V c main_v64) (V c main_arg15) (V c main_arg16) (V c main_arg17)) (V c main_v51) (V c main_v58) (V c main_arg26) (V c main_arg27) (V c main_arg28) (V c main_arg29) :=
  (dat1 V c).arrAt_eq_of_cover 15 _ (fun t _ => flushed15 V c t) cover15

end Cert.KernelIdeal.LowerEdges

end
-- ==== Proof.KBlocksCell.lean ====
/-
  The cell kernel's body, block by block, is the specification's updated row of each cell.

  A block holds 2000 cells: their rows h, m_up, m_down (128 entries each), and the whole weights. The body lays the
  three rows of each cell end to end (384 entries), and computes, for every row p of the block,

    out (p, c) = h (p, c) + (max ([h, m_up, m_down](p,.) . W1 + b1, 0) . W2(., c) + b2 c),

  each product a matrix product into the zero accumulator (a plain sum of products on the extended reals), each change
  of format the identity, each bias a vector broadcast along the rows. An entry (p, l) of the three arrays laid side by
  side along the columns is entry l - 128 t of row p of the t-th array, where 128 t <= l < 128 (t + 1).
-/
import proofs.«178050_j6622839570871_2_alg».proof.Proof.Gen.KernelIdeal.Frame
import proofs.«178050_j6622839570871_2_alg».proof.Proof.KBlocksLayers

noncomputable section

namespace Cert.KernelIdeal.Blocks

open Idealize.ShloMosaic Idealize.ShloMosaic.ValueIdx Cert.KernelIdeal Cert.KernelIdeal.Gen Boundary

/-- Three [n, 128] arrays laid side by side along the columns read, at (p, l), the three rows p laid end to end at l. -/
theorem cat3_apply {n : Nat} (a b c : (⟨2, ![n, 128]⟩ : Shape).Idx → EReal)
    (h : Shape.Concatenates [(⟨2, ![n, 128]⟩ : Shape), ⟨2, ![n, 128]⟩, ⟨2, ![n, 128]⟩] ⟨2, ![n, 384]⟩ 1)
    (p : Fin n) (l : Fin 384) :
    concatenate (⟨2, ![n, 384]⟩ : Shape) 1 [⟨⟨2, ![n, 128]⟩, a⟩, ⟨⟨2, ![n, 128]⟩, b⟩, ⟨⟨2, ![n, 128]⟩, c⟩] h (ix2 p l)
      = cat3 (row a p) (row b p) (row c p) l := by
  have hoff : ∀ (bx : Fin 2) (i : (⟨2, ![n, 128]⟩ : Shape).Idx), (i 0).val = p.val →
      bx.cast (rfl : (⟨2, ![n, 128]⟩ : Shape).rank = (⟨2, ![n, 384]⟩ : Shape).rank) ≠ (1 : Fin 2) →
      (i bx).val = ((ix2 p l : (⟨2, ![n, 384]⟩ : Shape).Idx) (bx.cast rfl)).val := by
    intro bx i hi hne
    match bx with
    | ⟨0, _⟩ => exact hi
    | ⟨1, _⟩ => exact absurd rfl hne
  unfold cat3
  by_cases h1 : l.val < 128
  · rw [dif_pos h1]
    exact concatenate_apply_piece (t := (⟨2, ![n, 384]⟩ : Shape)) (1 : Fin 2) [⟨⟨2, ![n, 128]⟩, a⟩, ⟨⟨2, ![n, 128]⟩, b⟩, ⟨⟨2, ![n, 128]⟩, c⟩] h (ix2 p l) 0 (by show 0 < 3; omega) ⟨2, ![n, 128]⟩ a rfl rfl 0 rfl
      (ix2 p ⟨l.val, h1⟩) (fun bx => hoff bx _ rfl) (Nat.zero_add _)
  · rw [dif_neg h1]
    by_cases h2 : l.val < 256
    · rw [dif_pos h2]
      exact concatenate_apply_piece (t := (⟨2, ![n, 384]⟩ : Shape)) (1 : Fin 2) [⟨⟨2, ![n, 128]⟩, a⟩, ⟨⟨2, ![n, 128]⟩, b⟩, ⟨⟨2, ![n, 128]⟩, c⟩] h (ix2 p l) 1 (by show 1 < 3; omega) ⟨2, ![n, 128]⟩ b rfl rfl 128 rfl
        (ix2 p ⟨l.val - 128, by omega⟩) (fun bx => hoff bx _ rfl) (by show 128 + (l.val - 128) = l.val; omega)
    · rw [dif_neg h2]
      exact concatenate_apply_piece (t := (⟨2, ![n, 384]⟩ : Shape)) (1 : Fin 2) [⟨⟨2, ![n, 128]⟩, a⟩, ⟨⟨2, ![n, 128]⟩, b⟩, ⟨⟨2, ![n, 128]⟩, c⟩] h (ix2 p l) 2 (by show 2 < 3; omega) ⟨2, ![n, 128]⟩ c rfl rfl 256 rfl
        (ix2 p ⟨l.val - 256, by have := l.isLt; omega⟩) (fun bx => hoff bx _ rfl)
        (by show 256 + (l.val - 256) = l.val; omega)

/-- The cell kernel's block at (p, q) is the specification's updated row of cell p at column q. -/
theorem cell_apply (v0 v1 v3 : FVec Ideal S2000x128 .f32) (v7 : FVec Ideal S384x128 .f32) (v10 : FVec Ideal S128 .f32)
    (v17 : FVec Ideal S128x128 .f32) (v20 : FVec Ideal S128 .f32) (p : Fin 2000) (q : Fin 128) :
    k2_pay1 (F := Ideal) v0 v1 v3 v7 v10 v17 v20 (ix2 p q) = cells v0 v1 v3 v7 v10 v17 v20 (ix2 p q) := by
  unfold k2_pay1
  show (v0 (ix2 p q) : EReal) + _ = cellRow (row v0 p) (row v1 p) (row v3 p) v7 v10 v17 v20 q
  unfold cellRow
  refine congrArg ((v0 (ix2 p q) : EReal) + ·) ?_
  refine (Layers.affine_apply (n := 2000) (K := 128) (N := 128) _ v17 v20 bitsLt_bf16_f32 shapeCasts_S128_S1x128
    broadcasts_S1x128_S2000x128 p q).trans ?_
  refine congrArg (· + (v20 (ix1 q) : EReal)) (Finset.sum_congr rfl fun k _ => congrArg (· * (v17 (ix2 k q) : EReal)) ?_)
  refine (Layers.reluAffine_apply (n := 2000) (K := 384) (N := 128) _ v7 v10 bitsLt_bf16_f32 shapeCasts_S128_S1x128
    broadcasts_S1x128_S2000x128 p k).trans ?_
  refine congrArg (fun s => max (s + (v10 (ix1 k) : EReal)) 0)
    (Finset.sum_congr rfl fun l _ => congrArg (· * (v7 (ix2 l k) : EReal)) ?_)
  rw [shapeCast_self, shapeCast_self]
  exact cat3_apply v0 v1 v3 concatenates_S2000x128_S2000x128_S2000x128_S2000x384_d1 p l

/-- What the cell kernel's body leaves in its output block is the specification's update of the block's cells. -/
theorem out2_7_eq (x0 x1 x2 : Vec Ideal S2000x128 .f32) (x3 : Vec Ideal S384x128 .f32) (x4 : Vec Ideal S128 .f32)
    (x5 : Vec Ideal S128x128 .f32) (x6 : Vec Ideal S128 .f32) :
    Cert.KernelIdeal.Gen.out2_7 (F := Ideal) x0 x1 x2 x3 x4 x5 x6 = cells x0 x1 x2 x3 x4 x5 x6 := by
  have hz2 : (![0, 0] : Fin 2 → Nat) = fun _ => 0 := funext fun a => by fin_cases a <;> rfl
  have hz1 : (![0] : Fin 1 → Nat) = fun _ => 0 := funext fun a => by fin_cases a <;> rfl
  unfold Cert.KernelIdeal.Gen.out2_7
  rw [View.canon_unit_zero hz2]
  simp only [View.ld_unit_zero (S := S2000x128) hz2, View.ld_unit_zero (S := S384x128) hz2,
    View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  exact cell_apply x0 x1 x2 x3 x4 x5 x6 p q

end Cert.KernelIdeal.Blocks

end
-- ==== Proof.KTilesCells.lean ====
/-
  The cell kernel, from blocks of 2000 cells to the whole cell list.

  The grid has 25 points; point t reads rows 2000 t … 2000 t + 1999 of each row-indexed operand and each weight
  array whole, and writes back rows 2000 t … 2000 t + 1999 of each result. Since every row of a result depends on the same row
  of the row-indexed operands only, what point t writes back is its block of ONE array-level function of the whole
  operands; the blocks tile the 50000 rows, so after the last point each result array is that function.
-/
import proofs.«178050_j6622839570871_2_alg».proof.Proof.Gen.KernelIdeal.Frame
import proofs.«178050_j6622839570871_2_alg».proof.Proof.SpecBlocks
import proofs.«178050_j6622839570871_2_alg».proof.Proof.KBlocksCell
import Idealize.ShloMosaic.Lib.Pipeline.Value

set_option maxRecDepth 16384

noncomputable section

namespace Cert.KernelIdeal.CellTiles

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The index maps, decided over the grid: a row-indexed window's block index is (t, 0), a weight window's is zero. -/
theorem idx2 : ∀ t : Fin cfg2.N,
    win2_7.index t (0 : Fin 2) = t.val
  ∧ win2_7.index t (1 : Fin 2) = 0
  ∧ win2_0.index t (0 : Fin 2) = t.val
  ∧ win2_0.index t (1 : Fin 2) = 0
  ∧ win2_1.index t (0 : Fin 2) = t.val
  ∧ win2_1.index t (1 : Fin 2) = 0
  ∧ win2_2.index t (0 : Fin 2) = t.val
  ∧ win2_2.index t (1 : Fin 2) = 0
  ∧ win2_3.index t (0 : Fin 2) = 0
  ∧ win2_3.index t (1 : Fin 2) = 0
  ∧ win2_4.index t (0 : Fin 1) = 0
  ∧ win2_5.index t (0 : Fin 2) = 0
  ∧ win2_5.index t (1 : Fin 2) = 0
  ∧ win2_6.index t (0 : Fin 1) = 0 :=
  (by decide +kernel : ∀ t : Fin grid2.N, _)

/-! ## The operands' blocks at a point -/

/-- Row p of window 0's block at point t is row 2000 t + p of its array. -/
theorem rowblk_0 (c : Dev nD) (t : Fin cfg2.N) (p : Fin 2000) (r : Fin 50000) (hr : r.val = t.val * 2000 + p.val) :
    Boundary.row (a := 2000) (b := 128) (iblk2 V c 0 t) p = Boundary.row (a := 50000) (b := 128) (V c main_arg0) r := by
  obtain ⟨e0, e1, e2, e3, e4, e5, e6, e7, e8, e9, e10, e11, e12, e13⟩ := idx2 t
  funext q
  show V c main_arg0 (((cfg2.win 0).blk t).view.emb (ix2 p q)) = V c main_arg0 (ix2 r q)
  congr 1
  funext a; apply Fin.ext
  match a with
  | ⟨0, _⟩ => show win2_0.index t (0 : Fin 2) * 2000 + 1 * p.val = r.val; omega
  | ⟨1, _⟩ => show win2_0.index t (1 : Fin 2) * 128 + 1 * q.val = q.val; omega

/-- Row p of window 1's block at point t is row 2000 t + p of its array. -/
theorem rowblk_1 (c : Dev nD) (t : Fin cfg2.N) (p : Fin 2000) (r : Fin 50000) (hr : r.val = t.val * 2000 + p.val) :
    Boundary.row (a := 2000) (b := 128) (iblk2 V c 1 t) p = Boundary.row (a := 50000) (b := 128) (V c main_v69) r := by
  obtain ⟨e0, e1, e2, e3, e4, e5, e6, e7, e8, e9, e10, e11, e12, e13⟩ := idx2 t
  funext q
  show V c main_v69 (((cfg2.win 1).blk t).view.emb (ix2 p q)) = V c main_v69 (ix2 r q)
  congr 1
  funext a; apply Fin.ext
  match a with
  | ⟨0, _⟩ => show win2_1.index t (0 : Fin 2) * 2000 + 1 * p.val = r.val; omega
  | ⟨1, _⟩ => show win2_1.index t (1 : Fin 2) * 128 + 1 * q.val = q.val; omega

/-- Row p of window 2's block at point t is row 2000 t + p of its array. -/
theorem rowblk_2 (c : Dev nD) (t : Fin cfg2.N) (p : Fin 2000) (r : Fin 50000) (hr : r.val = t.val * 2000 + p.val) :
    Boundary.row (a := 2000) (b := 128) (iblk2 V c 2 t) p = Boundary.row (a := 50000) (b := 128) (V c main_v79) r := by
  obtain ⟨e0, e1, e2, e3, e4, e5, e6, e7, e8, e9, e10, e11, e12, e13⟩ := idx2 t
  funext q
  show V c main_v79 (((cfg2.win 2).blk t).view.emb (ix2 p q)) = V c main_v79 (ix2 r q)
  congr 1
  funext a; apply Fin.ext
  match a with
  | ⟨0, _⟩ => show win2_2.index t (0 : Fin 2) * 2000 + 1 * p.val = r.val; omega
  | ⟨1, _⟩ => show win2_2.index t (1 : Fin 2) * 128 + 1 * q.val = q.val; omega

/-- Window 3's block at any point is its whole array. -/
theorem wtblk_3 (c : Dev nD) (t : Fin cfg2.N) : (iblk2 V c 3 t : S384x128.Idx → EReal) = V c main_arg18 := by
  obtain ⟨e0, e1, e2, e3, e4, e5, e6, e7, e8, e9, e10, e11, e12, e13⟩ := idx2 t
  funext y
  show V c main_arg18 (((cfg2.win 3).blk t).view.emb y) = V c main_arg18 y
  congr 1
  funext a; apply Fin.ext
  match a with
  | ⟨0, _⟩ => show win2_3.index t (0 : Fin 2) * 384 + 1 * (y 0).val = (y 0).val; omega
  | ⟨1, _⟩ => show win2_3.index t (1 : Fin 2) * 128 + 1 * (y 1).val = (y 1).val; omega

/-- Window 4's block at any point is its whole array. -/
theorem wtblk_4 (c : Dev nD) (t : Fin cfg2.N) : (iblk2 V c 4 t : S128.Idx → EReal) = V c main_arg19 := by
  obtain ⟨e0, e1, e2, e3, e4, e5, e6, e7, e8, e9, e10, e11, e12, e13⟩ := idx2 t
  funext y
  show V c main_arg19 (((cfg2.win 4).blk t).view.emb y) = V c main_arg19 y
  congr 1
  funext a; apply Fin.ext
  match a with
  | ⟨0, _⟩ => show win2_4.index t (0 : Fin 1) * 128 + 1 * (y 0).val = (y 0).val; omega

/-- Window 5's block at any point is its whole array. -/
theorem wtblk_5 (c : Dev nD) (t : Fin cfg2.N) : (iblk2 V c 5 t : S128x128.Idx → EReal) = V c main_arg20 := by
  obtain ⟨e0, e1, e2, e3, e4, e5, e6, e7, e8, e9, e10, e11, e12, e13⟩ := idx2 t
  funext y
  show V c main_arg20 (((cfg2.win 5).blk t).view.emb y) = V c main_arg20 y
  congr 1
  funext a; apply Fin.ext
  match a with
  | ⟨0, _⟩ => show win2_5.index t (0 : Fin 2) * 128 + 1 * (y 0).val = (y 0).val; omega
  | ⟨1, _⟩ => show win2_5.index t (1 : Fin 2) * 128 + 1 * (y 1).val = (y 1).val; omega

/-- Window 6's block at any point is its whole array. -/
theorem wtblk_6 (c : Dev nD) (t : Fin cfg2.N) : (iblk2 V c 6 t : S128.Idx → EReal) = V c main_arg21 := by
  obtain ⟨e0, e1, e2, e3, e4, e5, e6, e7, e8, e9, e10, e11, e12, e13⟩ := idx2 t
  funext y
  show V c main_arg21 (((cfg2.win 6).blk t).view.emb y) = V c main_arg21 y
  congr 1
  funext a; apply Fin.ext
  match a with
  | ⟨0, _⟩ => show win2_6.index t (0 : Fin 1) * 128 + 1 * (y 0).val = (y 0).val; omega

/-! ## Output window 7 -/

/-- Where entry j of point t's block of window 7 lands in the array: row 2000 t + (row of j), the same column. -/
theorem emb7_row (t : Fin cfg2.N) (j : S2000x128.Idx) :
    ((((cfg2.win 7).blk t).view.emb j) 0).val = t.val * 2000 + (j 0).val := by
  obtain ⟨e0, e1, e2, e3, e4, e5, e6, e7, e8, e9, e10, e11, e12, e13⟩ := idx2 t
  show win2_7.index t (0 : Fin 2) * 2000 + 1 * (j 0).val = _; omega
theorem emb7_col (t : Fin cfg2.N) (j : S2000x128.Idx) :
    ((((cfg2.win 7).blk t).view.emb j) 1).val = (j 1).val := by
  obtain ⟨e0, e1, e2, e3, e4, e5, e6, e7, e8, e9, e10, e11, e12, e13⟩ := idx2 t
  show win2_7.index t (1 : Fin 2) * 128 + 1 * (j 1).val = _; omega

/-- An index of the array is in point t's block iff each coordinate is in the block's range on its axis. -/
theorem mem_blk7 (t : Fin cfg2.N) (i : S50000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v87).slice (win2_7.rect t)).set ↔ _
  rw [View.set_slice_whole, Rect.mem_set_unit]
  exact Iff.rfl

/-- The blocks tile the array: row r is in the block of point r / 2000. -/
theorem cover7 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 25 := N_2
  have ht : (i 0).val / 2000 < cfg2.N := by omega
  refine ⟨⟨(i 0).val / 2000, ht⟩, flush2_7 _, ?_⟩
  rw [mem_blk7]
  obtain ⟨e0, e1, e2, e3, e4, e5, e6, e7, e8, e9, e10, e11, e12, e13⟩ := idx2 ⟨(i 0).val / 2000, ht⟩
  intro a
  match a with
  | ⟨0, _⟩ =>
    show win2_7.index ⟨(i 0).val / 2000, ht⟩ (0 : Fin 2) * 2000 ≤ (i 0).val ∧ (i 0).val < win2_7.index ⟨(i 0).val / 2000, ht⟩ (0 : Fin 2) * 2000 + 2000
    have hv : (⟨(i 0).val / 2000, ht⟩ : Fin cfg2.N).val = (i 0).val / 2000 := rfl
    omega
  | ⟨1, _⟩ =>
    show win2_7.index ⟨(i 0).val / 2000, ht⟩ (1 : Fin 2) * 128 ≤ (i 1).val ∧ (i 1).val < win2_7.index ⟨(i 0).val / 2000, ht⟩ (1 : Fin 2) * 128 + 128
    omega

/-! ## What each point writes back, and the array after the last point -/

/-- Point t writes back its block of the updates of the whole cell list. -/
theorem flushed7 (c : Dev nD) (t : Fin cfg2.N) :
    (dat2 V c).flushed 7 t = ((cfg2.win 7).blk t).view.read (Elt Ideal) (Boundary.cells (V c main_arg0) (V c main_v69) (V c main_v79) (V c main_arg18) (V c main_arg19) (V c main_arg20) (V c main_arg21)) := by
  show (cfg2.win 7).cut (grid2.coords t) ((dat2 V c).after 7 t) = _
  rw [after2_7, Cert.KernelIdeal.Blocks.out2_7_eq]
  funext j
  show Boundary.cells (iblk2 V c 0 t) (iblk2 V c 1 t) (iblk2 V c 2 t) (iblk2 V c 3 t) (iblk2 V c 4 t) (iblk2 V c 5 t) (iblk2 V c 6 t) j = Boundary.cells (V c main_arg0) (V c main_v69) (V c main_v79) (V c main_arg18) (V c main_arg19) (V c main_arg20) (V c main_arg21) (((cfg2.win 7).blk t).view.emb j)
  exact Boundary.cells_blocks (V c main_arg0) (V c main_v69) (V c main_v79) (V c main_arg18) (V c main_arg19) (V c main_arg20) (V c main_arg21) (iblk2 V c 0 t) (iblk2 V c 1 t) (iblk2 V c 2 t) (iblk2 V c 3 t) (iblk2 V c 4 t) (iblk2 V c 5 t) (iblk2 V c 6 t) j (((cfg2.win 7).blk t).view.emb j)
    (rowblk_0 V c t (j 0) _ (emb7_row t j)) (rowblk_1 V c t (j 0) _ (emb7_row t j)) (rowblk_2 V c t (j 0) _ (emb7_row t j))
    (Fin.ext (emb7_col t j).symm)
    (wtblk_3 V c t) (wtblk_4 V c t) (wtblk_5 V c t) (wtblk_6 V c t)

/-- After the last point the result array holds the updates of the whole cell list. -/
theorem final7 (c : Dev nD) : (dat2 V c).arrAt 7 cfg2.N = Boundary.cells (V c main_arg0) (V c main_v69) (V c main_v79) (V c main_arg18) (V c main_arg19) (V c main_arg20) (V c main_arg21) :=
  (dat2 V c).arrAt_eq_of_cover 7 _ (fun t _ => flushed7 V c t) cover7

end Cert.KernelIdeal.CellTiles

end
-- ==== Proof.KResult.lean ====
/-
  The idealized kernel program's run with its results read: at the end of every weakly fair execution the two result
  buffers hold the features' and the coordinates' functions of the arguments, and the arguments are unchanged.

  The fold of buffer contents is read backwards from the result buffers. The cell kernel's array is the cells' update
  of what it finds: the features (an argument), and the two segment sums the second host stretch computed from what
  the edge kernels left; the edge kernels' arrays are the specification's messages and gated differences of what THEY
  find: the rows the first host stretch gathered and the three pieces it cut from each first-layer weight matrix
  (a slice of rows [0,128), [128,256), {256} is the top, middle, last rows; a change of float format is the identity).
-/
import proofs.«178050_j6622839570871_2_alg».proof.Proof.KRun
import proofs.«178050_j6622839570871_2_alg».proof.Proof.KTerms
import proofs.«178050_j6622839570871_2_alg».proof.Proof.KSlices
import proofs.«178050_j6622839570871_2_alg».proof.Proof.KTilesUpper
import proofs.«178050_j6622839570871_2_alg».proof.Proof.KTilesLower
import proofs.«178050_j6622839570871_2_alg».proof.Proof.KTilesCells

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## What the edge kernels leave -/

theorem W3_upperMessages (c : Dev nD) : W3 m ρ c (Proc.devRef .tc main_v65_0) = upperMessages m c := by
  refine (W3_of_ne m ρ c main_v65_0 (by decide)).trans ((W2_arr m ρ c 14).trans ((UpperEdges.final14 (V1 m ρ) c).trans ?_))
  have h_main_v9 : (V1 m ρ c main_v9 : Boundary.Mat 262144 128) = takeRows128 (m ((c : Thread nD τ).loc main_arg0)) (m ((c : Thread nD τ).loc main_arg6)) := W1_main_v9 m ρ c
  have h_main_v16 : (V1 m ρ c main_v16 : Boundary.Mat 262144 128) = takeRows128 (m ((c : Thread nD τ).loc main_arg1)) (m ((c : Thread nD τ).loc main_arg7)) := W1_main_v16 m ρ c
  have h_main_v23 : (V1 m ρ c main_v23 : Boundary.Mat 262144 3) = takeRows3 (m ((c : Thread nD τ).loc main_arg3)) (m ((c : Thread nD τ).loc main_arg6)) := W1_main_v23 m ρ c
  have h_main_v30 : (V1 m ρ c main_v30 : Boundary.Mat 262144 3) = takeRows3 (m ((c : Thread nD τ).loc main_arg4)) (m ((c : Thread nD τ).loc main_arg7)) := W1_main_v30 m ρ c
  have h_main_v59 : (V1 m ρ c main_v59 : Boundary.Mat 128 128) = Boundary.topRows (m ((c : Thread nD τ).loc main_arg10)) := (W1_main_v59 m ρ c).trans (Cert.KernelIdeal.Blocks.slice_top_eq _ _)
  have h_main_v60 : (V1 m ρ c main_v60 : Boundary.Mat 128 128) = Boundary.midRows (m ((c : Thread nD τ).loc main_arg10)) := (W1_main_v60 m ρ c).trans (Cert.KernelIdeal.Blocks.slice_mid_eq _ _)
  have h_main_v61 : (V1 m ρ c main_v61 : Boundary.Mat 1 128) = Boundary.lastRow (m ((c : Thread nD τ).loc main_arg10)) := (W1_main_v61 m ρ c).trans (Cert.KernelIdeal.Blocks.slice_last_eq _ _)
  have h_main_arg11 : (V1 m ρ c main_arg11 : Boundary.Vct 128) = (m ((c : Thread nD τ).loc main_arg11)) := W1_main_arg11 m ρ c
  have h_main_arg12 : (V1 m ρ c main_arg12 : Boundary.Mat 128 128) = (m ((c : Thread nD τ).loc main_arg12)) := W1_main_arg12 m ρ c
  have h_main_arg13 : (V1 m ρ c main_arg13 : Boundary.Vct 128) = (m ((c : Thread nD τ).loc main_arg13)) := W1_main_arg13 m ρ c
  unfold upperMessages
  rw [h_main_v9, h_main_v16, h_main_v23, h_main_v30, h_main_v59, h_main_v60, h_main_v61, h_main_arg11, h_main_arg12, h_main_arg13]

theorem W3_upperGated (c : Dev nD) : W3 m ρ c (Proc.devRef .tc main_v65_1) = upperGated m c := by
  refine (W3_of_ne m ρ c main_v65_1 (by decide)).trans ((W2_arr m ρ c 15).trans ((UpperEdges.final15 (V1 m ρ) c).trans ?_))
  have h_main_v9 : (V1 m ρ c main_v9 : Boundary.Mat 262144 128) = takeRows128 (m ((c : Thread nD τ).loc main_arg0)) (m ((c : Thread nD τ).loc main_arg6)) := W1_main_v9 m ρ c
  have h_main_v16 : (V1 m ρ c main_v16 : Boundary.Mat 262144 128) = takeRows128 (m ((c : Thread nD τ).loc main_arg1)) (m ((c : Thread nD τ).loc main_arg7)) := W1_main_v16 m ρ c
  have h_main_v23 : (V1 m ρ c main_v23 : Boundary.Mat 262144 3) = takeRows3 (m ((c : Thread nD τ).loc main_arg3)) (m ((c : Thread nD τ).loc main_arg6)) := W1_main_v23 m ρ c
  have h_main_v30 : (V1 m ρ c main_v30 : Boundary.Mat 262144 3) = takeRows3 (m ((c : Thread nD τ).loc main_arg4)) (m ((c : Thread nD τ).loc main_arg7)) := W1_main_v30 m ρ c
  have h_main_v59 : (V1 m ρ c main_v59 : Boundary.Mat 128 128) = Boundary.topRows (m ((c : Thread nD τ).loc main_arg10)) := (W1_main_v59 m ρ c).trans (Cert.KernelIdeal.Blocks.slice_top_eq _ _)
  have h_main_v60 : (V1 m ρ c main_v60 : Boundary.Mat 128 128) = Boundary.midRows (m ((c : Thread nD τ).loc main_arg10)) := (W1_main_v60 m ρ c).trans (Cert.KernelIdeal.Blocks.slice_mid_eq _ _)
  have h_main_v61 : (V1 m ρ c main_v61 : Boundary.Mat 1 128) = Boundary.lastRow (m ((c : Thread nD τ).loc main_arg10)) := (W1_main_v61 m ρ c).trans (Cert.KernelIdeal.Blocks.slice_last_eq _ _)
  have h_main_arg11 : (V1 m ρ c main_arg11 : Boundary.Vct 128) = (m ((c : Thread nD τ).loc main_arg11)) := W1_main_arg11 m ρ c
  have h_main_arg12 : (V1 m ρ c main_arg12 : Boundary.Mat 128 128) = (m ((c : Thread nD τ).loc main_arg12)) := W1_main_arg12 m ρ c
  have h_main_arg13 : (V1 m ρ c main_arg13 : Boundary.Vct 128) = (m ((c : Thread nD τ).loc main_arg13)) := W1_main_arg13 m ρ c
  have h_main_arg22 : (V1 m ρ c main_arg22 : Boundary.Mat 128 128) = (m ((c : Thread nD τ).loc main_arg22)) := W1_main_arg22 m ρ c
  have h_main_arg23 : (V1 m ρ c main_arg23 : Boundary.Vct 128) = (m ((c : Thread nD τ).loc main_arg23)) := W1_main_arg23 m ρ c
  have h_main_arg24 : (V1 m ρ c main_arg24 : Boundary.Mat 128 1) = (m ((c : Thread nD τ).loc main_arg24)) := W1_main_arg24 m ρ c
  have h_main_arg25 : (V1 m ρ c main_arg25 : Boundary.Vct 1) = (m ((c : Thread nD τ).loc main_arg25)) := W1_main_arg25 m ρ c
  unfold upperGated upperMessages
  rw [h_main_v9, h_main_v16, h_main_v23, h_main_v30, h_main_v59, h_main_v60, h_main_v61, h_main_arg11, h_main_arg12, h_main_arg13, h_main_arg22, h_main_arg23, h_main_arg24, h_main_arg25]

theorem W3_lowerMessages (c : Dev nD) : W3 m ρ c (Proc.devRef .tc main_v66_0) = lowerMessages m c := by
  refine (W3_arr m ρ c 14).trans ((LowerEdges.final14 (V2 m ρ) c).trans ?_)
  have h_main_v37 : (V2 m ρ c main_v37 : Boundary.Mat 262144 128) = takeRows128 (m ((c : Thread nD τ).loc main_arg0)) (m ((c : Thread nD τ).loc main_arg8)) := W2_main_v37 m ρ c
  have h_main_v44 : (V2 m ρ c main_v44 : Boundary.Mat 262144 128) = takeRows128 (m ((c : Thread nD τ).loc main_arg2)) (m ((c : Thread nD τ).loc main_arg9)) := W2_main_v44 m ρ c
  have h_main_v51 : (V2 m ρ c main_v51 : Boundary.Mat 262144 3) = takeRows3 (m ((c : Thread nD τ).loc main_arg3)) (m ((c : Thread nD τ).loc main_arg8)) := W2_main_v51 m ρ c
  have h_main_v58 : (V2 m ρ c main_v58 : Boundary.Mat 262144 3) = takeRows3 (m ((c : Thread nD τ).loc main_arg5)) (m ((c : Thread nD τ).loc main_arg9)) := W2_main_v58 m ρ c
  have h_main_v62 : (V2 m ρ c main_v62 : Boundary.Mat 128 128) = Boundary.topRows (m ((c : Thread nD τ).loc main_arg14)) := (W2_main_v62 m ρ c).trans (Cert.KernelIdeal.Blocks.slice_top_eq _ _)
  have h_main_v63 : (V2 m ρ c main_v63 : Boundary.Mat 128 128) = Boundary.midRows (m ((c : Thread nD τ).loc main_arg14)) := (W2_main_v63 m ρ c).trans (Cert.KernelIdeal.Blocks.slice_mid_eq _ _)
  have h_main_v64 : (V2 m ρ c main_v64 : Boundary.Mat 1 128) = Boundary.lastRow (m ((c : Thread nD τ).loc main_arg14)) := (W2_main_v64 m ρ c).trans (Cert.KernelIdeal.Blocks.slice_last_eq _ _)
  have h_main_arg15 : (V2 m ρ c main_arg15 : Boundary.Vct 128) = (m ((c : Thread nD τ).loc main_arg15)) := W2_main_arg15 m ρ c
  have h_main_arg16 : (V2 m ρ c main_arg16 : Boundary.Mat 128 128) = (m ((c : Thread nD τ).loc main_arg16)) := W2_main_arg16 m ρ c
  have h_main_arg17 : (V2 m ρ c main_arg17 : Boundary.Vct 128) = (m ((c : Thread nD τ).loc main_arg17)) := W2_main_arg17 m ρ c
  unfold lowerMessages
  rw [h_main_v37, h_main_v44, h_main_v51, h_main_v58, h_main_v62, h_main_v63, h_main_v64, h_main_arg15, h_main_arg16, h_main_arg17]

theorem W3_lowerGated (c : Dev nD) : W3 m ρ c (Proc.devRef .tc main_v66_1) = lowerGated m c := by
  refine (W3_arr m ρ c 15).trans ((LowerEdges.final15 (V2 m ρ) c).trans ?_)
  have h_main_v37 : (V2 m ρ c main_v37 : Boundary.Mat 262144 128) = takeRows128 (m ((c : Thread nD τ).loc main_arg0)) (m ((c : Thread nD τ).loc main_arg8)) := W2_main_v37 m ρ c
  have h_main_v44 : (V2 m ρ c main_v44 : Boundary.Mat 262144 128) = takeRows128 (m ((c : Thread nD τ).loc main_arg2)) (m ((c : Thread nD τ).loc main_arg9)) := W2_main_v44 m ρ c
  have h_main_v51 : (V2 m ρ c main_v51 : Boundary.Mat 262144 3) = takeRows3 (m ((c : Thread nD τ).loc main_arg3)) (m ((c : Thread nD τ).loc main_arg8)) := W2_main_v51 m ρ c
  have h_main_v58 : (V2 m ρ c main_v58 : Boundary.Mat 262144 3) = takeRows3 (m ((c : Thread nD τ).loc main_arg5)) (m ((c : Thread nD τ).loc main_arg9)) := W2_main_v58 m ρ c
  have h_main_v62 : (V2 m ρ c main_v62 : Boundary.Mat 128 128) = Boundary.topRows (m ((c : Thread nD τ).loc main_arg14)) := (W2_main_v62 m ρ c).trans (Cert.KernelIdeal.Blocks.slice_top_eq _ _)
  have h_main_v63 : (V2 m ρ c main_v63 : Boundary.Mat 128 128) = Boundary.midRows (m ((c : Thread nD τ).loc main_arg14)) := (W2_main_v63 m ρ c).trans (Cert.KernelIdeal.Blocks.slice_mid_eq _ _)
  have h_main_v64 : (V2 m ρ c main_v64 : Boundary.Mat 1 128) = Boundary.lastRow (m ((c : Thread nD τ).loc main_arg14)) := (W2_main_v64 m ρ c).trans (Cert.KernelIdeal.Blocks.slice_last_eq _ _)
  have h_main_arg15 : (V2 m ρ c main_arg15 : Boundary.Vct 128) = (m ((c : Thread nD τ).loc main_arg15)) := W2_main_arg15 m ρ c
  have h_main_arg16 : (V2 m ρ c main_arg16 : Boundary.Mat 128 128) = (m ((c : Thread nD τ).loc main_arg16)) := W2_main_arg16 m ρ c
  have h_main_arg17 : (V2 m ρ c main_arg17 : Boundary.Vct 128) = (m ((c : Thread nD τ).loc main_arg17)) := W2_main_arg17 m ρ c
  have h_main_arg26 : (V2 m ρ c main_arg26 : Boundary.Mat 128 128) = (m ((c : Thread nD τ).loc main_arg26)) := W2_main_arg26 m ρ c
  have h_main_arg27 : (V2 m ρ c main_arg27 : Boundary.Vct 128) = (m ((c : Thread nD τ).loc main_arg27)) := W2_main_arg27 m ρ c
  have h_main_arg28 : (V2 m ρ c main_arg28 : Boundary.Mat 128 1) = (m ((c : Thread nD τ).loc main_arg28)) := W2_main_arg28 m ρ c
  have h_main_arg29 : (V2 m ρ c main_arg29 : Boundary.Vct 1) = (m ((c : Thread nD τ).loc main_arg29)) := W2_main_arg29 m ρ c
  unfold lowerGated lowerMessages
  rw [h_main_v37, h_main_v44, h_main_v51, h_main_v58, h_main_v62, h_main_v63, h_main_v64, h_main_arg15, h_main_arg16, h_main_arg17, h_main_arg26, h_main_arg27, h_main_arg28, h_main_arg29]

/-! ## What the second host stretch computes from them -/

theorem W4_main_v69 (c : Dev nD) : W4 m ρ c (Proc.devRef .tc main_v69) = segSum128 (m ((c : Thread nD τ).loc main_arg6)) (upperMessages m c) := by
  show StableHlo.after hostOps2 (W3 m ρ c) (Proc.devRef .tc main_v69) = _
  after_results
  rw [W3_main_arg6 m ρ c, W3_upperMessages m ρ c]
  rfl

theorem W4_main_v79 (c : Dev nD) : W4 m ρ c (Proc.devRef .tc main_v79) = segSum128 (m ((c : Thread nD τ).loc main_arg8)) (lowerMessages m c) := by
  show StableHlo.after hostOps2 (W3 m ρ c) (Proc.devRef .tc main_v79) = _
  after_results_simp
  rw [W3_main_arg8 m ρ c, W3_lowerMessages m ρ c]
  rfl

theorem W4_main_v76 (c : Dev nD) : W4 m ρ c (Proc.devRef .tc main_v76)
    = mulf (broadcastInDim S50000x3 ![] bcast_S_S50000x3 (shapeCast S_ (extractStridedSlice S1 ![0] (m ((c : Thread nD τ).loc main_arg30)) slices_S2_S1_0) shapeCasts_S1_S_)) (segSum3 (m ((c : Thread nD τ).loc main_arg6)) (upperGated m c)) := by
  show StableHlo.after hostOps2 (W3 m ρ c) (Proc.devRef .tc main_v76) = _
  after_results
  rw [W3_main_arg6 m ρ c, W3_main_arg30 m ρ c, W3_upperGated m ρ c]
  rfl

theorem W4_main_v86 (c : Dev nD) : W4 m ρ c (Proc.devRef .tc main_v86)
    = mulf (broadcastInDim S50000x3 ![] bcast_S_S50000x3 (shapeCast S_ (extractStridedSlice S1 ![1] (m ((c : Thread nD τ).loc main_arg30)) slices_S2_S1_1) shapeCasts_S1_S_)) (segSum3 (m ((c : Thread nD τ).loc main_arg8)) (lowerGated m c)) := by
  show StableHlo.after hostOps2 (W3 m ρ c) (Proc.devRef .tc main_v86) = _
  after_results_simp
  rw [W3_main_arg8 m ρ c, W3_main_arg30 m ρ c, W3_lowerGated m ρ c]
  rfl

/-! ## The two results -/

/-- The cell kernel's result array, after the last host stretch (which does not write it). -/
theorem featuresOut_eq (c : Dev nD) : W6 m ρ c (Proc.devRef .tc main_v87) = featuresOut m c := by
  have k3 : W6 m ρ c (Proc.devRef .tc main_v87) = W5 m ρ c (Proc.devRef .tc main_v87) :=
    StableHlo.after_of_forall_not_mem _ _ (List.forall_iff_forall_mem.mp (by
        simp only [hostOps3, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
  refine k3.trans ((W5_arr m ρ c 7).trans ((CellTiles.final7 (V4 m ρ) c).trans ?_))
  have h0 : (V4 m ρ c main_arg0 : Boundary.Mat 50000 128) = (m ((c : Thread nD τ).loc main_arg0)) := W4_main_arg0 m ρ c
  have h69 : (V4 m ρ c main_v69 : Boundary.Mat 50000 128) = segSum128 (m ((c : Thread nD τ).loc main_arg6)) (upperMessages m c) := W4_main_v69 m ρ c
  have h79 : (V4 m ρ c main_v79 : Boundary.Mat 50000 128) = segSum128 (m ((c : Thread nD τ).loc main_arg8)) (lowerMessages m c) := W4_main_v79 m ρ c
  have h18 : (V4 m ρ c main_arg18 : Boundary.Mat 384 128) = (m ((c : Thread nD τ).loc main_arg18)) := W4_main_arg18 m ρ c
  have h19 : (V4 m ρ c main_arg19 : Boundary.Vct 128) = (m ((c : Thread nD τ).loc main_arg19)) := W4_main_arg19 m ρ c
  have h20 : (V4 m ρ c main_arg20 : Boundary.Mat 128 128) = (m ((c : Thread nD τ).loc main_arg20)) := W4_main_arg20 m ρ c
  have h21 : (V4 m ρ c main_arg21 : Boundary.Vct 128) = (m ((c : Thread nD τ).loc main_arg21)) := W4_main_arg21 m ρ c
  unfold featuresOut
  rw [h0, h69, h79, h18, h19, h20, h21]

/-- The coordinate result: x plus the two scaled sums, by the last host stretch. -/
theorem coordsOut_eq (c : Dev nD) : W6 m ρ c (Proc.devRef .tc main_v89) = coordsOut m c := by
  show StableHlo.after hostOps3 (W5 m ρ c) (Proc.devRef .tc main_v89) = _
  after_results
  rw [W5_main_arg3 m ρ c, W5_of_ne m ρ c main_v76 (by decide), W5_of_ne m ρ c main_v86 (by decide),
    W4_main_v76 m ρ c, W4_main_v86 m ρ c]
  rfl

/-! ## The run -/

/-- Every weakly fair execution terminates; the results hold the two functions of the arguments; the arguments are
    unchanged. -/
theorem run_results : θ_run defs (onTc (τ := τ) (main (F := Ideal))) ⟨m, fun _ => 0, ρ⟩ (fun r => ∀ c : Dev nD,
      r.2.mem ((c.tc : Thread nD τ).loc main_v87) = featuresOut m c
    ∧ r.2.mem ((c.tc : Thread nD τ).loc main_v89) = coordsOut m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25)
    ∧ r.2.mem ((c.tc : Thread nD τ).loc main_arg26) = m ((c.tc : Thread nD τ).loc main_arg26)
    ∧ r.2.mem ((c.tc : Thread nD τ).loc main_arg27) = m ((c.tc : Thread nD τ).loc main_arg27)
    ∧ r.2.mem ((c.tc : Thread nD τ).loc main_arg28) = m ((c.tc : Thread nD τ).loc main_arg28)
    ∧ r.2.mem ((c.tc : Thread nD τ).loc main_arg29) = m ((c.tc : Thread nD τ).loc main_arg29)
    ∧ r.2.mem ((c.tc : Thread nD τ).loc main_arg30) = m ((c.tc : Thread nD τ).loc main_arg30)) :=
  (θ_run defs _ _).mono (fun r h c =>
    ⟨(h c _ (named main_v87 (by decide))).trans (featuresOut_eq m ρ c),
      (h c _ (named main_v89 (by decide))).trans (coordsOut_eq m ρ c),
      (h c _ (named main_arg0 (by decide))).trans (W6_main_arg0 m ρ c),
      (h c _ (named main_arg1 (by decide))).trans (W6_main_arg1 m ρ c),
      (h c _ (named main_arg2 (by decide))).trans (W6_main_arg2 m ρ c),
      (h c _ (named main_arg3 (by decide))).trans (W6_main_arg3 m ρ c),
      (h c _ (named main_arg4 (by decide))).trans (W6_main_arg4 m ρ c),
      (h c _ (named main_arg5 (by decide))).trans (W6_main_arg5 m ρ c),
      (h c _ (named main_arg6 (by decide))).trans (W6_main_arg6 m ρ c),
      (h c _ (named main_arg7 (by decide))).trans (W6_main_arg7 m ρ c),
      (h c _ (named main_arg8 (by decide))).trans (W6_main_arg8 m ρ c),
      (h c _ (named main_arg9 (by decide))).trans (W6_main_arg9 m ρ c),
      (h c _ (named main_arg10 (by decide))).trans (W6_main_arg10 m ρ c),
      (h c _ (named main_arg11 (by decide))).trans (W6_main_arg11 m ρ c),
      (h c _ (named main_arg12 (by decide))).trans (W6_main_arg12 m ρ c),
      (h c _ (named main_arg13 (by decide))).trans (W6_main_arg13 m ρ c),
      (h c _ (named main_arg14 (by decide))).trans (W6_main_arg14 m ρ c),
      (h c _ (named main_arg15 (by decide))).trans (W6_main_arg15 m ρ c),
      (h c _ (named main_arg16 (by decide))).trans (W6_main_arg16 m ρ c),
      (h c _ (named main_arg17 (by decide))).trans (W6_main_arg17 m ρ c),
      (h c _ (named main_arg18 (by decide))).trans (W6_main_arg18 m ρ c),
      (h c _ (named main_arg19 (by decide))).trans (W6_main_arg19 m ρ c),
      (h c _ (named main_arg20 (by decide))).trans (W6_main_arg20 m ρ c),
      (h c _ (named main_arg21 (by decide))).trans (W6_main_arg21 m ρ c),
      (h c _ (named main_arg22 (by decide))).trans (W6_main_arg22 m ρ c),
      (h c _ (named main_arg23 (by decide))).trans (W6_main_arg23 m ρ c),
      (h c _ (named main_arg24 (by decide))).trans (W6_main_arg24 m ρ c),
      (h c _ (named main_arg25 (by decide))).trans (W6_main_arg25 m ρ c),
      (h c _ (named main_arg26 (by decide))).trans (W6_main_arg26 m ρ c),
      (h c _ (named main_arg27 (by decide))).trans (W6_main_arg27 m ρ c),
      (h c _ (named main_arg28 (by decide))).trans (W6_main_arg28 m ρ c),
      (h c _ (named main_arg29 (by decide))).trans (W6_main_arg29 m ρ c),
      (h c _ (named main_arg30 (by decide))).trans (W6_main_arg30 m ρ c)⟩)
    (run_all m ρ)

end Cert.KernelIdeal.Whole

end
-- ==== Proof.RefSum257.lean ====
/-
  A sum over 257 positions is the sum over the first 128, the next 128 and the last one.

  Addition of extended reals is commutative and associative, so the sum over `Fin 257` may be cut at 256 and the
  sum over the first 256 positions cut again at 128; nothing is assumed finite.
-/
import proofs.«178050_j6622839570871_2_alg».proof.Proof.Spec

namespace RefLayers

open Boundary

/-- The sum over 257 positions, cut into the first 128, the next 128 and the last. -/
theorem sum257 {M : Type*} [AddCommMonoid M] (f : Fin 257 → M) :
    ∑ q : Fin 257, f q = ((∑ k : Fin 128, f (lo k)) + ∑ k : Fin 128, f (mid k)) + f last := by
  have h1 : ∑ q : Fin 257, f q = (∑ i : Fin 256, f i.castSucc) + f (Fin.last 256) := Fin.sum_univ_castSucc f
  have h2 : ∑ i : Fin (128 + 128), f (Fin.castSucc (n := 256) i)
      = (∑ k : Fin 128, f (Fin.castSucc (n := 256) (Fin.castAdd 128 k)))
        + ∑ k : Fin 128, f (Fin.castSucc (n := 256) (Fin.natAdd 128 k)) :=
    Fin.sum_univ_add fun i : Fin (128 + 128) => f (Fin.castSucc (n := 256) i)
  rw [h1]
  refine congrArg₂ (· + ·) (h2.trans (congrArg₂ (· + ·) ?_ ?_)) ?_
  · exact Finset.sum_congr rfl fun k _ => congrArg f (Fin.ext rfl)
  · exact Finset.sum_congr rfl fun k _ => congrArg f (Fin.ext rfl)
  · exact congrArg f (Fin.ext rfl)

end RefLayers
-- ==== Proof.RefPieces.lean ====
/-
  The layout operations of the dense layers, read at an entry given by its coordinates.

  * a bias vector broadcast [N] → [1, N] → [M, N] reads, at (r, c), the vector's entry c;
  * the splat of a scalar constant reads that constant everywhere (the zero of a relu, the one of a logistic);
  * the concatenation of [n, 128], [n, 128] and [n, 1] along the columns reads, at column k < 128, 128 + k and 256,
    the first piece at k, the second at k and the third at 0;
  * the concatenation of three [n, 128] pieces along the columns reads, at column l, the three rows laid end to end;
  * the row sums of the squares of an [n, 3] array, kept as an [n, 1] column, read at (r, 0) the sum over the three
    columns of the squared entries of row r (the initial value of the sum is zero);
  * an [n, 1] column broadcast to [n, 3] reads, at (r, t), the column's entry at row r.
  All on arbitrary values; nothing is assumed finite.
-/
import proofs.«178050_j6622839570871_2_alg».proof.Proof.Spec
import Idealize.ShloMosaic.PureOps.Ideal.Laws
import Idealize.ShloMosaic.Lib.Pipeline.Value

noncomputable section

namespace RefLayers

open Idealize.ShloMosaic Idealize.ShloMosaic.ValueIdx Boundary

variable {α : Type}

/-- A vector broadcast to a row and then along the rows reads, at (r, c), its entry c. -/
theorem bias2_apply {M N : Nat} (bc : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 bc) (ix2 r c) = bc (ix1 c) := by
  have hc : c.val = if N = 1 then 0 else c.val := by
    split
    · have := c.isLt; omega
    · rfl
  refine (broadcastInDim_apply ![0, 1] h2 _ (ix2 r c) (ix2 (0 : Fin 1) c) ?_).trans
    (broadcastInDim_apply ![1] h1 bc (ix2 (0 : Fin 1) c) (ix1 c) ?_)
  · intro a
    match a with
    | ⟨0, _⟩ => show (0 : Nat) = if (1 : Nat) = 1 then 0 else _; rw [if_pos rfl]
    | ⟨1, _⟩ => exact hc
  · intro a
    match a with
    | ⟨0, _⟩ => exact hc

/-- The splat of a scalar float constant reads the constant's value at every entry. -/
theorem splat_apply {t : Shape} (h : (⟨0, ![]⟩ : Shape).BroadcastsInDim t ![]) (b : BitVec 32) (j : t.Idx) :
    broadcastInDim t ![] h (constant (F := Ideal) ⟨0, ![]⟩ .f32 b) j = Ideal.ofBits .f32 b := rfl

/-- The word 0x3F800000 is the number one. -/
theorem ofBits_one_f32 : Ideal.ofBits .f32 0x3F800000#32 = 1 := by
  simp [Ideal.ofBits, Ideal.ieee, -EReal.coe_mul]; norm_num

/-- A column [n, 1] broadcast to [n, b] reads, at (r, t), the column at row r. -/
theorem colBcast_apply {n b : Nat} (g : (⟨2, ![n, 1]⟩ : Shape).Idx → α)
    (h : (⟨2, ![n, 1]⟩ : Shape).BroadcastsInDim ⟨2, ![n, b]⟩ ![0, 1]) (r : Fin n) (t : Fin b) :
    broadcastInDim ⟨2, ![n, b]⟩ ![0, 1] h g (ix2 r t) = g (ix2 r (0 : Fin 1)) := by
  refine broadcastInDim_apply ![0, 1] h g (ix2 r t) (ix2 r (0 : Fin 1)) fun a => ?_
  match a with
  | ⟨0, _⟩ =>
    show r.val = if n = 1 then 0 else r.val
    split
    · have := r.isLt; omega
    · rfl
  | ⟨1, _⟩ => show (0 : Nat) = if (1 : Nat) = 1 then 0 else _; rw [if_pos rfl]

/-- A vector [n] broadcast to a column [n, 1] reads, at (r, u), its entry r. -/
theorem vecToCol_apply {n : Nat} (v : (⟨1, ![n]⟩ : Shape).Idx → α)
    (h : (⟨1, ![n]⟩ : Shape).BroadcastsInDim ⟨2, ![n, 1]⟩ ![0]) (r : Fin n) (u : Fin 1) :
    broadcastInDim ⟨2, ![n, 1]⟩ ![0] h v (ix2 r u) = v (ix1 r) := by
  refine broadcastInDim_apply ![0] h v (ix2 r u) (ix1 r) fun a => ?_
  match a with
  | ⟨0, _⟩ =>
    show r.val = if n = 1 then 0 else r.val
    split
    · have := r.isLt; omega
    · rfl

/-- The row sums of the squares of an [n, 3] array, kept as a column: at (r, u) the sum over the three columns of the
    squared entries of row r. -/
theorem sqdist_apply {n : Nat} (d : FVec Ideal ⟨2, ![n, 3]⟩ .f32)
    (hb : (⟨1, ![n]⟩ : Shape).BroadcastsInDim ⟨2, ![n, 1]⟩ ![0])
    (hred : (⟨2, ![n, 3]⟩ : Shape).ReducesTo [1] ⟨1, ![n]⟩) (hS : 0 < (⟨0, ![]⟩ : Shape).numel)
    (r : Fin n) (u : Fin 1) :
    broadcastInDim ⟨2, ![n, 1]⟩ ![0] hb (Host.reduceAdd (mulf d d) (constant ⟨0, ![]⟩ .f32 0x00000000#32) hred hS) (ix2 r u)
      = ∑ t : Fin 3, d (ix2 r t) * d (ix2 r t) := by
  have hR : (⟨2, ![n, 3]⟩ : Shape).Reduces [1] ⟨1, ![n]⟩ := ⟨hred.1, Nat.one_pos, hred.2⟩
  refine (vecToCol_apply _ hb r u).trans ?_
  show Ideal.hostReduceAdd hred (mulf d d) (Ideal.ofBits .f32 0x00000000#32) (ix1 r) = _
  rw [Ideal.hostReduceAdd_single hred hR, Ideal.ofBits_zero_f32, zero_add]
  show ∑ t : Fin 3, mulf d d (hR.lift (ix1 r) t) = ∑ t : Fin 3, d (ix2 r t) * d (ix2 r t)
  refine Finset.sum_congr rfl fun t _ => ?_
  have e : hR.lift (ix1 r) t = ix2 r t := funext fun a => Fin.ext (by
    match a with
    | ⟨0, _⟩ => rfl
    | ⟨1, _⟩ => rfl)
  rw [e]; rfl

/-! ## The 257-column concatenation -/

section Cat257
variable {n : Nat} (u0 u1 : (⟨2, ![n, 128]⟩ : Shape).Idx → α) (u2 : (⟨2, ![n, 1]⟩ : Shape).Idx → α)
  (h : Shape.Concatenates [(⟨2, ![n, 128]⟩ : Shape), ⟨2, ![n, 128]⟩, ⟨2, ![n, 1]⟩] ⟨2, ![n, 257]⟩ 1) (r : Fin n)

/-- At a column k < 128 the concatenation reads the first piece at column k. -/
theorem cat257_lo (k : Fin 128) :
    concatenate ⟨2, ![n, 257]⟩ 1 [⟨⟨2, ![n, 128]⟩, u0⟩, ⟨⟨2, ![n, 128]⟩, u1⟩, ⟨⟨2, ![n, 1]⟩, u2⟩] h (ix2 r (lo k))
      = u0 (ix2 r k) :=
  concatenate_apply_piece (t := ⟨2, ![n, 257]⟩) 1 [⟨⟨2, ![n, 128]⟩, u0⟩, ⟨⟨2, ![n, 128]⟩, u1⟩, ⟨⟨2, ![n, 1]⟩, u2⟩] h (ix2 r (lo k)) 0 (Nat.zero_lt_succ _) ⟨2, ![n, 128]⟩ u0 rfl rfl 0 rfl (ix2 r k)
    (fun b hb => by
      match b with
      | ⟨0, _⟩ => rfl
      | ⟨1, _⟩ => exact absurd rfl hb)
    (Nat.zero_add _)

/-- At a column 128 + k the concatenation reads the second piece at column k. -/
theorem cat257_mid (k : Fin 128) :
    concatenate ⟨2, ![n, 257]⟩ 1 [⟨⟨2, ![n, 128]⟩, u0⟩, ⟨⟨2, ![n, 128]⟩, u1⟩, ⟨⟨2, ![n, 1]⟩, u2⟩] h (ix2 r (mid k))
      = u1 (ix2 r k) :=
  concatenate_apply_piece (t := ⟨2, ![n, 257]⟩) 1 [⟨⟨2, ![n, 128]⟩, u0⟩, ⟨⟨2, ![n, 128]⟩, u1⟩, ⟨⟨2, ![n, 1]⟩, u2⟩] h (ix2 r (mid k)) 1 (Nat.succ_lt_succ (Nat.zero_lt_succ _)) ⟨2, ![n, 128]⟩ u1 rfl rfl 128 rfl (ix2 r k)
    (fun b hb => by
      match b with
      | ⟨0, _⟩ => rfl
      | ⟨1, _⟩ => exact absurd rfl hb)
    rfl

/-- At the last column the concatenation reads the third piece. -/
theorem cat257_last :
    concatenate ⟨2, ![n, 257]⟩ 1 [⟨⟨2, ![n, 128]⟩, u0⟩, ⟨⟨2, ![n, 128]⟩, u1⟩, ⟨⟨2, ![n, 1]⟩, u2⟩] h (ix2 r last)
      = u2 (ix2 r (0 : Fin 1)) :=
  concatenate_apply_piece (t := ⟨2, ![n, 257]⟩) 1 [⟨⟨2, ![n, 128]⟩, u0⟩, ⟨⟨2, ![n, 128]⟩, u1⟩, ⟨⟨2, ![n, 1]⟩, u2⟩] h (ix2 r last) 2 (Nat.succ_lt_succ (Nat.succ_lt_succ (Nat.zero_lt_succ _))) ⟨2, ![n, 1]⟩ u2 rfl rfl 256 rfl (ix2 r (0 : Fin 1))
    (fun b hb => by
      match b with
      | ⟨0, _⟩ => rfl
      | ⟨1, _⟩ => exact absurd rfl hb)
    rfl

end Cat257

/-! ## The 384-column concatenation -/

/-- The concatenation of three [n, 128] pieces along the columns reads, at (r, l), the three rows r laid end to end. -/
theorem cat384_apply {n : Nat} (u0 u1 u2 : (⟨2, ![n, 128]⟩ : Shape).Idx → EReal)
    (h : Shape.Concatenates [(⟨2, ![n, 128]⟩ : Shape), ⟨2, ![n, 128]⟩, ⟨2, ![n, 128]⟩] ⟨2, ![n, 384]⟩ 1)
    (r : Fin n) (l : Fin 384) :
    concatenate ⟨2, ![n, 384]⟩ 1 [⟨⟨2, ![n, 128]⟩, u0⟩, ⟨⟨2, ![n, 128]⟩, u1⟩, ⟨⟨2, ![n, 128]⟩, u2⟩] h (ix2 r l)
      = cat3 (row u0 r) (row u1 r) (row u2 r) l := by
  have hoff : ∀ (i : (⟨2, ![n, 128]⟩ : Shape).Idx) (j : (⟨2, ![n, 384]⟩ : Shape).Idx), (i 0).val = (j 0).val →
      ∀ b : Fin 2, b.cast rfl ≠ (1 : Fin 2) → (i b).val = (j (b.cast rfl)).val := fun i j e b hb => by
    match b with
    | ⟨0, _⟩ => exact e
    | ⟨1, _⟩ => exact absurd rfl hb
  unfold cat3
  by_cases h1 : l.val < 128
  · rw [dif_pos h1]
    exact concatenate_apply_piece (t := ⟨2, ![n, 384]⟩) 1 [⟨⟨2, ![n, 128]⟩, u0⟩, ⟨⟨2, ![n, 128]⟩, u1⟩, ⟨⟨2, ![n, 128]⟩, u2⟩] h (ix2 r l) 0 (Nat.zero_lt_succ _) ⟨2, ![n, 128]⟩ u0 rfl rfl 0 rfl (ix2 r ⟨l.val, h1⟩)
      (hoff _ _ rfl) (Nat.zero_add _)
  · rw [dif_neg h1]
    by_cases h2 : l.val < 256
    · rw [dif_pos h2]
      exact concatenate_apply_piece (t := ⟨2, ![n, 384]⟩) 1 [⟨⟨2, ![n, 128]⟩, u0⟩, ⟨⟨2, ![n, 128]⟩, u1⟩, ⟨⟨2, ![n, 128]⟩, u2⟩] h (ix2 r l) 1 (Nat.succ_lt_succ (Nat.zero_lt_succ _)) ⟨2, ![n, 128]⟩ u1 rfl rfl 128 rfl
        (ix2 r ⟨l.val - 128, by omega⟩) (hoff _ _ rfl) (by show 128 + (l.val - 128) = l.val; omega)
    · rw [dif_neg h2]
      have := l.isLt
      exact concatenate_apply_piece (t := ⟨2, ![n, 384]⟩) 1 [⟨⟨2, ![n, 128]⟩, u0⟩, ⟨⟨2, ![n, 128]⟩, u1⟩, ⟨⟨2, ![n, 128]⟩, u2⟩] h (ix2 r l) 2 (Nat.succ_lt_succ (Nat.succ_lt_succ (Nat.zero_lt_succ _))) ⟨2, ![n, 128]⟩ u2 rfl rfl 256 rfl
        (ix2 r ⟨l.val - 256, by omega⟩) (hoff _ _ rfl) (by show 256 + (l.val - 256) = l.val; omega)

end RefLayers

end
-- ==== Proof.RefDense.lean ====
/-
  A host program's dense layer read at an entry.

  A dense layer is written as a plain matrix product, a bias vector broadcast along the rows and added, and (with a
  relu) a maximum with the splat of zero. At the entry (r, c) this is sum over k of x (r, k) * w (k, c) + b c, and
  its maximum with 0. The host's division, exponential and negation act entry by entry.
-/
import proofs.«178050_j6622839570871_2_alg».proof.Proof.RefPieces
import proofs.«178050_j6622839570871_2_alg».proof.Proof.LibPlainDot

noncomputable section

namespace RefLayers

open Idealize.ShloMosaic Idealize.ShloMosaic.ValueIdx Boundary

/-! ## Entrywise readings -/

/-- The host's plain matrix product at (r, c): the sum over k of x (r, k) * w (k, c). -/
theorem hostDot_apply (M K N : Nat) (x : FVec Ideal ⟨2, ![M, K]⟩ .f32) (w : FVec Ideal ⟨2, ![K, N]⟩ .f32)
    (r : Fin M) (c : Fin N) :
    Host.dotGeneral (DotDims.plain M K N) none x w (ix2 r c) = ∑ k : Fin K, x (ix2 r k) * w (ix2 k c) :=
  PlainDot.dotGeneral_apply M K N none .single x w (ix2 r c)

theorem hostDivf_apply {s : Shape} (a b : FVec Ideal s .f32) (i : s.Idx) : Host.divf a b i = Ideal.div (a i) (b i) := rfl
theorem hostExp_apply {s : Shape} (a : FVec Ideal s .f32) (i : s.Idx) : Host.exp a i = Ideal.exp (a i) := rfl
theorem hostNegf_apply {s : Shape} (a : FVec Ideal s .f32) (i : s.Idx) : Host.negf a i = -(a i) := rfl

/-! ## A dense layer with a relu -/

/-- A dense layer K → N with a relu, at (r, c): max (sum over k of x (r, k) * w (k, c) + b c) 0. -/
theorem denseRelu_apply {n K N : Nat} (x : FVec Ideal ⟨2, ![n, K]⟩ .f32) (w : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![n, N]⟩ ![0, 1])
    (h0 : (⟨0, ![]⟩ : Shape).BroadcastsInDim ⟨2, ![n, N]⟩ ![]) (r : Fin n) (c : Fin N) :
    maximumf (addf (Host.dotGeneral (DotDims.plain n K N) none x w)
        (broadcastInDim ⟨2, ![n, N]⟩ ![0, 1] h2 (broadcastInDim ⟨2, ![1, N]⟩ ![1] h1 b)))
      (broadcastInDim ⟨2, ![n, N]⟩ ![] h0 (constant ⟨0, ![]⟩ .f32 0x00000000#32)) (ix2 r c)
      = max ((∑ k : Fin K, x (ix2 r k) * w (ix2 k c)) + b (ix1 c)) 0 := by
  rw [maximumf_apply, addf_apply, bias2_apply, splat_apply, Ideal.ofBits_zero_f32, hostDot_apply]

/-- A dense layer K → N without a relu, at (r, c): sum over k of x (r, k) * w (k, c) + b c. -/
theorem dense_apply {n K N : Nat} (x : FVec Ideal ⟨2, ![n, K]⟩ .f32) (w : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![n, N]⟩ ![0, 1]) (r : Fin n) (c : Fin N) :
    addf (Host.dotGeneral (DotDims.plain n K N) none x w)
        (broadcastInDim ⟨2, ![n, N]⟩ ![0, 1] h2 (broadcastInDim ⟨2, ![1, N]⟩ ![1] h1 b)) (ix2 r c)
      = (∑ k : Fin K, x (ix2 r k) * w (ix2 k c)) + b (ix1 c) := by
  rw [addf_apply, bias2_apply, hostDot_apply]

end RefLayers

end
-- ==== Proof.RefMessages.lean ====
/-
  The host's spelling of the edge messages is the specification's.

  The first layer multiplies the concatenation [h_i, h_j, |x_i - x_j|^2] (257 columns) by the whole 257 x 128 weight
  matrix; the sum over the 257 positions is the sum over the first 128, the next 128 and the last one, that is
  h_i . (top rows) + h_j . (middle rows) + |x_i - x_j|^2 * (last row). Any number n of rows, any values.
-/
import proofs.«178050_j6622839570871_2_alg».proof.Proof.RefSum257
import proofs.«178050_j6622839570871_2_alg».proof.Proof.RefDense

noncomputable section

namespace RefLayers

open Idealize.ShloMosaic Idealize.ShloMosaic.ValueIdx Boundary

/-! ## The messages -/

section Messages
variable {n : Nat}
  (D1 : DotDims ⟨2, ![n, 257]⟩ ⟨2, ![257, 128]⟩ ⟨2, ![n, 128]⟩)
  (D2 : DotDims ⟨2, ![n, 128]⟩ ⟨2, ![128, 128]⟩ ⟨2, ![n, 128]⟩)
  (hD1 : D1 = DotDims.plain n 257 128) (hD2 : D2 = DotDims.plain n 128 128)
  (hb : (⟨1, ![n]⟩ : Shape).BroadcastsInDim ⟨2, ![n, 1]⟩ ![0])
  (hred : (⟨2, ![n, 3]⟩ : Shape).ReducesTo [1] ⟨1, ![n]⟩) (hS : 0 < (⟨0, ![]⟩ : Shape).numel)
  (hcat : Shape.Concatenates [(⟨2, ![n, 128]⟩ : Shape), ⟨2, ![n, 128]⟩, ⟨2, ![n, 1]⟩] ⟨2, ![n, 257]⟩ 1)
  (h1 : (⟨1, ![128]⟩ : Shape).BroadcastsInDim ⟨2, ![1, 128]⟩ ![1])
  (h2 : (⟨2, ![1, 128]⟩ : Shape).BroadcastsInDim ⟨2, ![n, 128]⟩ ![0, 1])
  (h0 : (⟨0, ![]⟩ : Shape).BroadcastsInDim ⟨2, ![n, 128]⟩ ![])
  (hi hj : FVec Ideal ⟨2, ![n, 128]⟩ .f32) (xi xj : FVec Ideal ⟨2, ![n, 3]⟩ .f32)
  (W1 : FVec Ideal ⟨2, ![257, 128]⟩ .f32) (b1 : FVec Ideal ⟨1, ![128]⟩ .f32)
  (W2 : FVec Ideal ⟨2, ![128, 128]⟩ .f32) (b2 : FVec Ideal ⟨1, ![128]⟩ .f32)

/-- The host's hidden layer of the edge perceptron, as the program spells it. -/
def hostHidden : FVec Ideal ⟨2, ![n, 128]⟩ .f32 :=
  maximumf (addf (Host.dotGeneral D1 none
        (concatenate ⟨2, ![n, 257]⟩ 1 [⟨⟨2, ![n, 128]⟩, hi⟩, ⟨⟨2, ![n, 128]⟩, hj⟩,
          ⟨⟨2, ![n, 1]⟩, broadcastInDim ⟨2, ![n, 1]⟩ ![0] hb
            (Host.reduceAdd (mulf (subf xi xj) (subf xi xj)) (constant ⟨0, ![]⟩ .f32 0x00000000#32) hred hS)⟩] hcat) W1)
      (broadcastInDim ⟨2, ![n, 128]⟩ ![0, 1] h2 (broadcastInDim ⟨2, ![1, 128]⟩ ![1] h1 b1)))
    (broadcastInDim ⟨2, ![n, 128]⟩ ![] h0 (constant ⟨0, ![]⟩ .f32 0x00000000#32))

/-- The host's messages, as the program spells them. -/
def hostMessages : FVec Ideal ⟨2, ![n, 128]⟩ .f32 :=
  addf (Host.dotGeneral D2 none (hostHidden D1 hb hred hS hcat h1 h2 h0 hi hj xi xj W1 b1) W2)
    (broadcastInDim ⟨2, ![n, 128]⟩ ![0, 1] h2 (broadcastInDim ⟨2, ![1, 128]⟩ ![1] h1 b2))

include hD1 in
/-- The hidden layer at (r, c) is the specification's hidden row: the sum over the 257 columns of the concatenation
    is cut into its three pieces. -/
theorem hostHidden_apply (r : Fin n) (c : Fin 128) :
    hostHidden D1 hb hred hS hcat h1 h2 h0 hi hj xi xj W1 b1 (ix2 r c)
      = hidden (row hi r) (row hj r) (dist2 (row xi r) (row xj r)) (topRows W1) (midRows W1) (lastRow W1) b1 c := by
  subst hD1
  unfold hostHidden
  rw [denseRelu_apply, sum257, cat257_last, sqdist_apply]
  simp only [cat257_lo, cat257_mid, subf_apply]
  rfl

include hD1 hD2 in
/-- The host's messages are the specification's. -/
theorem hostMessages_eq :
    hostMessages D1 D2 hb hred hS hcat h1 h2 h0 hi hj xi xj W1 b1 W2 b2
      = messages hi hj xi xj (topRows W1) (midRows W1) (lastRow W1) b1 W2 b2 := by
  funext j
  obtain ⟨r, c, rfl⟩ : ∃ (r : Fin n) (c : Fin 128), j = ix2 r c := ⟨j 0, j 1, eq_ix2 j⟩
  subst hD2
  unfold hostMessages
  rw [dense_apply]
  simp only [hostHidden_apply D1 hD1]
  rfl

end Messages

end RefLayers

end
-- ==== Proof.RefGates.lean ====
/-
  The host's spelling of the gated coordinate differences is the specification's.

  The gate is written 1 / (1 + exp (-z)) with z the second perceptron's output; this is the logistic function of z
  by definition. The [n, 1] column of gates is broadcast along the three coordinates. Any number n of rows, any values.
-/
import proofs.«178050_j6622839570871_2_alg».proof.Proof.RefDense

noncomputable section

namespace RefLayers

open Idealize.ShloMosaic Idealize.ShloMosaic.ValueIdx Boundary

/-! ## The gated differences -/

section Gates
variable {n : Nat}
  (D2 : DotDims ⟨2, ![n, 128]⟩ ⟨2, ![128, 128]⟩ ⟨2, ![n, 128]⟩)
  (D3 : DotDims ⟨2, ![n, 128]⟩ ⟨2, ![128, 1]⟩ ⟨2, ![n, 1]⟩)
  (hD2 : D2 = DotDims.plain n 128 128) (hD3 : D3 = DotDims.plain n 128 1)
  (h1 : (⟨1, ![128]⟩ : Shape).BroadcastsInDim ⟨2, ![1, 128]⟩ ![1])
  (h2 : (⟨2, ![1, 128]⟩ : Shape).BroadcastsInDim ⟨2, ![n, 128]⟩ ![0, 1])
  (h0 : (⟨0, ![]⟩ : Shape).BroadcastsInDim ⟨2, ![n, 128]⟩ ![])
  (k1 : (⟨1, ![1]⟩ : Shape).BroadcastsInDim ⟨2, ![1, 1]⟩ ![1])
  (k2 : (⟨2, ![1, 1]⟩ : Shape).BroadcastsInDim ⟨2, ![n, 1]⟩ ![0, 1])
  (k0 : (⟨0, ![]⟩ : Shape).BroadcastsInDim ⟨2, ![n, 1]⟩ ![])
  (hg : (⟨2, ![n, 1]⟩ : Shape).BroadcastsInDim ⟨2, ![n, 3]⟩ ![0, 1])
  (mi : FVec Ideal ⟨2, ![n, 128]⟩ .f32) (xi xj : FVec Ideal ⟨2, ![n, 3]⟩ .f32)
  (V1 : FVec Ideal ⟨2, ![128, 128]⟩ .f32) (c1 : FVec Ideal ⟨1, ![128]⟩ .f32)
  (V2 : FVec Ideal ⟨2, ![128, 1]⟩ .f32) (c2 : FVec Ideal ⟨1, ![1]⟩ .f32)

/-- The host's gated coordinate differences, as the program spells them: the gate is 1 / (1 + exp (-z)). -/
def hostGated : FVec Ideal ⟨2, ![n, 3]⟩ .f32 :=
  mulf (subf xi xj) (broadcastInDim ⟨2, ![n, 3]⟩ ![0, 1] hg
    (Host.divf (broadcastInDim ⟨2, ![n, 1]⟩ ![] k0 (constant ⟨0, ![]⟩ .f32 0x3F800000#32))
      (addf (broadcastInDim ⟨2, ![n, 1]⟩ ![] k0 (constant ⟨0, ![]⟩ .f32 0x3F800000#32))
        (Host.exp (Host.negf
          (addf (Host.dotGeneral D3 none
              (maximumf (addf (Host.dotGeneral D2 none mi V1)
                  (broadcastInDim ⟨2, ![n, 128]⟩ ![0, 1] h2 (broadcastInDim ⟨2, ![1, 128]⟩ ![1] h1 c1)))
                (broadcastInDim ⟨2, ![n, 128]⟩ ![] h0 (constant ⟨0, ![]⟩ .f32 0x00000000#32))) V2)
            (broadcastInDim ⟨2, ![n, 1]⟩ ![0, 1] k2 (broadcastInDim ⟨2, ![1, 1]⟩ ![1] k1 c2))))))))

include hD2 hD3 in
/-- The host's gated differences are the specification's. -/
theorem hostGated_eq :
    hostGated D2 D3 h1 h2 h0 k1 k2 k0 hg mi xi xj V1 c1 V2 c2 = gatedDiffs mi xi xj V1 c1 V2 c2 := by
  funext j
  obtain ⟨r, t, rfl⟩ : ∃ (r : Fin n) (t : Fin 3), j = ix2 r t := ⟨j 0, j 1, eq_ix2 j⟩
  subst hD2 hD3
  unfold hostGated
  show ((xi (ix2 r t) : EReal) - xj (ix2 r t)) * _
    = ((xi (ix2 r t) : EReal) - xj (ix2 r t)) * gate (row mi r) V1 c1 V2 c2
  refine congrArg (((xi (ix2 r t) : EReal) - xj (ix2 r t)) * ·) ?_
  refine (colBcast_apply _ hg r t).trans ?_
  unfold gate Ideal.logistic
  show Ideal.div (Ideal.ofBits .f32 0x3F800000#32) (Ideal.ofBits .f32 0x3F800000#32 + Ideal.exp (-_))
    = Ideal.div 1 (1 + Ideal.exp (-_))
  rw [ofBits_one_f32]
  refine congrArg (fun z : EReal => Ideal.div 1 (1 + Ideal.exp (-z))) ?_
  refine (dense_apply (n := n) (K := 128) (N := 1) _ V2 c2 k1 k2 r 0).trans ?_
  refine congrArg (· + (c2 (ix1 (0 : Fin 1)) : EReal))
    (Finset.sum_congr rfl fun k _ => congrArg (· * (V2 (ix2 k (0 : Fin 1)) : EReal)) ?_)
  exact denseRelu_apply (n := n) (K := 128) (N := 128) mi V1 c1 h1 h2 h0 r k

end Gates

end RefLayers

end
-- ==== Proof.RefCells.lean ====
/-
  The host's spelling of the cell update is the specification's.

  The perceptron's first layer multiplies the concatenation [h, m_up, m_down] (384 columns) by its weights; at a
  column l the concatenation reads the three rows laid end to end. Any number n of rows, any values.
-/
import proofs.«178050_j6622839570871_2_alg».proof.Proof.RefDense

noncomputable section

namespace RefLayers

open Idealize.ShloMosaic Idealize.ShloMosaic.ValueIdx Boundary

/-! ## The cells -/

section Cells
variable {n : Nat}
  (D4 : DotDims ⟨2, ![n, 384]⟩ ⟨2, ![384, 128]⟩ ⟨2, ![n, 128]⟩)
  (D2 : DotDims ⟨2, ![n, 128]⟩ ⟨2, ![128, 128]⟩ ⟨2, ![n, 128]⟩)
  (hD4 : D4 = DotDims.plain n 384 128) (hD2 : D2 = DotDims.plain n 128 128)
  (hcat : Shape.Concatenates [(⟨2, ![n, 128]⟩ : Shape), ⟨2, ![n, 128]⟩, ⟨2, ![n, 128]⟩] ⟨2, ![n, 384]⟩ 1)
  (h1 : (⟨1, ![128]⟩ : Shape).BroadcastsInDim ⟨2, ![1, 128]⟩ ![1])
  (h2 : (⟨2, ![1, 128]⟩ : Shape).BroadcastsInDim ⟨2, ![n, 128]⟩ ![0, 1])
  (h0 : (⟨0, ![]⟩ : Shape).BroadcastsInDim ⟨2, ![n, 128]⟩ ![])
  (h mu md : FVec Ideal ⟨2, ![n, 128]⟩ .f32)
  (W1 : FVec Ideal ⟨2, ![384, 128]⟩ .f32) (b1 : FVec Ideal ⟨1, ![128]⟩ .f32)
  (W2 : FVec Ideal ⟨2, ![128, 128]⟩ .f32) (b2 : FVec Ideal ⟨1, ![128]⟩ .f32)

/-- The host's cell update, as the program spells it. -/
def hostCells : FVec Ideal ⟨2, ![n, 128]⟩ .f32 :=
  addf h (addf (Host.dotGeneral D2 none
      (maximumf (addf (Host.dotGeneral D4 none
            (concatenate ⟨2, ![n, 384]⟩ 1 [⟨⟨2, ![n, 128]⟩, h⟩, ⟨⟨2, ![n, 128]⟩, mu⟩, ⟨⟨2, ![n, 128]⟩, md⟩] hcat) W1)
          (broadcastInDim ⟨2, ![n, 128]⟩ ![0, 1] h2 (broadcastInDim ⟨2, ![1, 128]⟩ ![1] h1 b1)))
        (broadcastInDim ⟨2, ![n, 128]⟩ ![] h0 (constant ⟨0, ![]⟩ .f32 0x00000000#32))) W2)
    (broadcastInDim ⟨2, ![n, 128]⟩ ![0, 1] h2 (broadcastInDim ⟨2, ![1, 128]⟩ ![1] h1 b2)))

include hD4 hD2 in
/-- The host's cell update is the specification's. -/
theorem hostCells_eq :
    hostCells D4 D2 hcat h1 h2 h0 h mu md W1 b1 W2 b2 = cells h mu md W1 b1 W2 b2 := by
  funext j
  obtain ⟨r, c, rfl⟩ : ∃ (r : Fin n) (c : Fin 128), j = ix2 r c := ⟨j 0, j 1, eq_ix2 j⟩
  subst hD4 hD2
  unfold hostCells
  show (h (ix2 r c) : EReal) + _ = cellRow (row h r) (row mu r) (row md r) W1 b1 W2 b2 c
  unfold cellRow
  refine congrArg ((h (ix2 r c) : EReal) + ·) ?_
  refine (dense_apply (n := n) (K := 128) (N := 128) _ W2 b2 h1 h2 r c).trans ?_
  refine congrArg (· + (b2 (ix1 c) : EReal))
    (Finset.sum_congr rfl fun k _ => congrArg (· * (W2 (ix2 k c) : EReal)) ?_)
  refine (denseRelu_apply (n := n) (K := 384) (N := 128) _ W1 b1 h1 h2 h0 r k).trans ?_
  refine congrArg (fun s : EReal => max (s + (b1 (ix1 k) : EReal)) 0)
    (Finset.sum_congr rfl fun l _ => congrArg (· * (W1 (ix2 l k) : EReal)) ?_)
  exact cat384_apply h mu md hcat r l

end Cells

end RefLayers

end
-- ==== Proof.RefRun.lean ====
/-
  The reference program's run, with every dense layer read as the specification's function.

  The reference gathers, for every edge, the feature rows and coordinate rows of its two cells (a negative index counts
  from the end), computes the edge messages and the gated coordinate differences, sums them per cell (a scatter with
  addition into zeros), and updates the cells. Here its two results are stated as terms in which the three perceptrons
  are Boundary.messages, Boundary.gatedDiffs and Boundary.cells; only the gathers with their index wrap, the segment
  sums, the two coordinate weights (a slice of the weight pair, reshaped to a scalar and splat) and the final
  products and sums remain as host operations of the argument arrays.
-/
import proofs.«178050_j6622839570871_2_alg».proof.Proof.Gen.ReferenceIdeal.Run
import proofs.«178050_j6622839570871_2_alg».proof.Proof.RefMessages
import proofs.«178050_j6622839570871_2_alg».proof.Proof.RefGates
import proofs.«178050_j6622839570871_2_alg».proof.Proof.RefCells

noncomputable section

namespace Cert.ReferenceIdeal.RefValue

open Cert.ReferenceIdeal Cert.ReferenceIdeal.Gen Idealize.ShloMosaic Idealize.ShloMosaic.TcCoe Idealize.SL.Sem Idealize.ShloMosaic.StableHlo
open Boundary

/-! ## The host operations that remain -/

/-- An index array with its negative entries counted from the end (50000 added), as a column of start indices. -/
abbrev wrap (i : IVec S262144 32) : IVec S262144x1 32 :=
  broadcastInDim S262144x1 ![0] bcast_S262144_S262144x1_0
    (select (cmpi .slt i (broadcastInDim S262144 ![] bcast_S_S262144 (constantI S_ 32 0#32)))
      (addi i (broadcastInDim S262144 ![] bcast_S_S262144 (constantI S_ 32 50000#32))) i)

/-- The coordinate rows of the cells an index array names. -/
abbrev gather3 (x : FVec Ideal S50000x3 .f32) (i : IVec S262144 32) : FVec Ideal S262144x3 .f32 :=
  Host.gather gather_S50000x3_S262144x1_S262144x3_1_0_n_n_0_1_13 x (wrap i)

/-- The feature rows of the cells an index array names. -/
abbrev gather128 (x : FVec Ideal S50000x128 .f32) (i : IVec S262144 32) : FVec Ideal S262144x128 .f32 :=
  Host.gather gather_S50000x128_S262144x1_S262144x128_1_0_n_n_0_1_1128 x (wrap i)

/-- The per-cell sums of edge rows of 128 entries: each edge's row is added to the cell its index names. -/
abbrev segSum128 (i : IVec S262144 32) (u : FVec Ideal S262144x128 .f32) : FVec Ideal S50000x128 .f32 :=
  Host.scatterAdd scatter_S50000x128_S262144x1_S262144x128_1_0_0_1
    (broadcastInDim S50000x128 ![] bcast_S_S50000x128 (constant S_ .f32 0x00000000#32))
    (broadcastInDim S262144x1 ![0] bcast_S262144_S262144x1_0 i) u

/-- The per-cell sums of edge rows of 3 entries. -/
abbrev segSum3 (i : IVec S262144 32) (u : FVec Ideal S262144x3 .f32) : FVec Ideal S50000x3 .f32 :=
  Host.scatterAdd scatter_S50000x3_S262144x1_S262144x3_1_0_0_1
    (broadcastInDim S50000x3 ![] bcast_S_S50000x3 (constant S_ .f32 0x00000000#32))
    (broadcastInDim S262144x1 ![0] bcast_S262144_S262144x1_0 i) u

section
variable (V : Valuation τ sig (Elt Ideal))

/-- The first and the second coordinate weight, splat over the cells' coordinates. -/
abbrev coordW0 : FVec Ideal S50000x3 .f32 :=
  broadcastInDim S50000x3 ![] bcast_S_S50000x3
    (shapeCast _ (extractStridedSlice S1 ![0] (V (Proc.devRef .tc main_arg30)) slices_S2_S1_0) shapeCasts_S1_S_)
abbrev coordW1 : FVec Ideal S50000x3 .f32 :=
  broadcastInDim S50000x3 ![] bcast_S_S50000x3
    (shapeCast _ (extractStridedSlice S1 ![1] (V (Proc.devRef .tc main_arg30)) slices_S2_S1_1) shapeCasts_S1_S_)

/-! ## The results as functions of the argument arrays -/

/-- The messages along the upper edges. -/
def msgUp : FVec Ideal S262144x128 .f32 :=
  messages (gather128 (V (Proc.devRef .tc main_arg0)) (V (Proc.devRef .tc main_arg6))) (gather128 (V (Proc.devRef .tc main_arg1)) (V (Proc.devRef .tc main_arg7)))
    (gather3 (V (Proc.devRef .tc main_arg3)) (V (Proc.devRef .tc main_arg6))) (gather3 (V (Proc.devRef .tc main_arg4)) (V (Proc.devRef .tc main_arg7)))
    (topRows (V (Proc.devRef .tc main_arg10))) (midRows (V (Proc.devRef .tc main_arg10))) (lastRow (V (Proc.devRef .tc main_arg10)))
    (V (Proc.devRef .tc main_arg11)) (V (Proc.devRef .tc main_arg12)) (V (Proc.devRef .tc main_arg13))

/-- The messages along the lower edges. -/
def msgDn : FVec Ideal S262144x128 .f32 :=
  messages (gather128 (V (Proc.devRef .tc main_arg0)) (V (Proc.devRef .tc main_arg8))) (gather128 (V (Proc.devRef .tc main_arg2)) (V (Proc.devRef .tc main_arg9)))
    (gather3 (V (Proc.devRef .tc main_arg3)) (V (Proc.devRef .tc main_arg8))) (gather3 (V (Proc.devRef .tc main_arg5)) (V (Proc.devRef .tc main_arg9)))
    (topRows (V (Proc.devRef .tc main_arg14))) (midRows (V (Proc.devRef .tc main_arg14))) (lastRow (V (Proc.devRef .tc main_arg14)))
    (V (Proc.devRef .tc main_arg15)) (V (Proc.devRef .tc main_arg16)) (V (Proc.devRef .tc main_arg17))

/-- The updated features, from a device's argument arrays. -/
def hOutV : FVec Ideal S50000x128 .f32 :=
  cells (V (Proc.devRef .tc main_arg0)) (segSum128 (V (Proc.devRef .tc main_arg6)) (msgUp V)) (segSum128 (V (Proc.devRef .tc main_arg8)) (msgDn V))
    (V (Proc.devRef .tc main_arg18)) (V (Proc.devRef .tc main_arg19)) (V (Proc.devRef .tc main_arg20)) (V (Proc.devRef .tc main_arg21))

/-- The updated coordinates, from a device's argument arrays. -/
def xOutV : FVec Ideal S50000x3 .f32 :=
  addf (addf (V (Proc.devRef .tc main_arg3))
      (mulf (coordW0 V) (segSum3 (V (Proc.devRef .tc main_arg6))
        (gatedDiffs (msgUp V) (gather3 (V (Proc.devRef .tc main_arg3)) (V (Proc.devRef .tc main_arg6))) (gather3 (V (Proc.devRef .tc main_arg4)) (V (Proc.devRef .tc main_arg7)))
          (V (Proc.devRef .tc main_arg22)) (V (Proc.devRef .tc main_arg23)) (V (Proc.devRef .tc main_arg24)) (V (Proc.devRef .tc main_arg25))))))
    (mulf (coordW1 V) (segSum3 (V (Proc.devRef .tc main_arg8))
      (gatedDiffs (msgDn V) (gather3 (V (Proc.devRef .tc main_arg3)) (V (Proc.devRef .tc main_arg8))) (gather3 (V (Proc.devRef .tc main_arg5)) (V (Proc.devRef .tc main_arg9)))
        (V (Proc.devRef .tc main_arg26)) (V (Proc.devRef .tc main_arg27)) (V (Proc.devRef .tc main_arg28)) (V (Proc.devRef .tc main_arg29)))))

/-! ## The run's terms are these -/

/-- The upper messages' buffer holds the specification's messages of the gathered rows. -/
theorem res42_eq : (Value.res_main_v42 V : FVec Ideal S262144x128 .f32) = msgUp V := by
  unfold Value.res_main_v42 Value.res_main_v14 msgUp
  exact RefLayers.hostMessages_eq (n := 262144) dot_S262144x257_S257x128_S262144x128_1_0_0_1_n_n
    dot_S262144x128_S128x128_S262144x128_1_0_0_1_n_n rfl rfl bcast_S262144_S262144x1_0 reducesTo_S262144x3_S262144_d1 h_S_
    concatenates_S262144x128_S262144x128_S262144x1_S262144x257_d1 bcast_S128_S1x128_1 bcast_S1x128_S262144x128_0_1
    bcast_S_S262144x128 _ _ _ _ _ _ _ _

/-- The lower messages' buffer likewise. -/
theorem res113_eq : (Value.res_main_v113 V : FVec Ideal S262144x128 .f32) = msgDn V := by
  unfold Value.res_main_v113 Value.res_main_v85 msgDn
  exact RefLayers.hostMessages_eq (n := 262144) dot_S262144x257_S257x128_S262144x128_1_0_0_1_n_n
    dot_S262144x128_S128x128_S262144x128_1_0_0_1_n_n rfl rfl bcast_S262144_S262144x1_0 reducesTo_S262144x3_S262144_d1 h_S_
    concatenates_S262144x128_S262144x128_S262144x1_S262144x257_d1 bcast_S128_S1x128_1 bcast_S1x128_S262144x128_0_1
    bcast_S_S262144x128 _ _ _ _ _ _ _ _

/-- The first result buffer's term is the specification's cell update of the argument arrays and the segment sums of
    the two message arrays. -/
theorem v153_eq : Value.val4 V (no_index (Proc.devRef .tc main_v153)) = hOutV V := by
  refine (Value.val4_main_v153 V).trans ?_
  refine (RefLayers.hostCells_eq (n := 50000) dot_S50000x384_S384x128_S50000x128_1_0_0_1_n_n
    dot_S50000x128_S128x128_S50000x128_1_0_0_1_n_n rfl rfl concatenates_S50000x128_S50000x128_S50000x128_S50000x384_d1
    bcast_S128_S1x128_1 bcast_S1x128_S50000x128_0_1 bcast_S_S50000x128 _ _ _ _ _ _ _).trans ?_
  unfold hOutV
  rw [res42_eq, res113_eq]

/-- The gated differences along the upper edges, as the program spells them, are the specification's. -/
theorem gatedUp_eq :
    RefLayers.hostGated (n := 262144) dot_S262144x128_S128x128_S262144x128_1_0_0_1_n_n
        dot_S262144x128_S128x1_S262144x1_1_0_0_1_n_n bcast_S128_S1x128_1 bcast_S1x128_S262144x128_0_1 bcast_S_S262144x128
        bcast_S1_S1x1_1 bcast_S1x1_S262144x1_0_1 bcast_S_S262144x1 bcast_S262144x1_S262144x3_0_1
        (Value.res_main_v42 V) (gather3 (V (Proc.devRef .tc main_arg3)) (V (Proc.devRef .tc main_arg6))) (gather3 (V (Proc.devRef .tc main_arg4)) (V (Proc.devRef .tc main_arg7)))
        (V (Proc.devRef .tc main_arg22)) (V (Proc.devRef .tc main_arg23)) (V (Proc.devRef .tc main_arg24)) (V (Proc.devRef .tc main_arg25))
      = gatedDiffs (msgUp V) (gather3 (V (Proc.devRef .tc main_arg3)) (V (Proc.devRef .tc main_arg6))) (gather3 (V (Proc.devRef .tc main_arg4)) (V (Proc.devRef .tc main_arg7)))
          (V (Proc.devRef .tc main_arg22)) (V (Proc.devRef .tc main_arg23)) (V (Proc.devRef .tc main_arg24)) (V (Proc.devRef .tc main_arg25)) := by
  refine (RefLayers.hostGated_eq (n := 262144) dot_S262144x128_S128x128_S262144x128_1_0_0_1_n_n
    dot_S262144x128_S128x1_S262144x1_1_0_0_1_n_n rfl rfl _ _ _ _ _ _ _ _ _ _ _ _ _ _).trans ?_
  rw [res42_eq]

/-- The gated differences along the lower edges likewise. -/
theorem gatedDn_eq :
    RefLayers.hostGated (n := 262144) dot_S262144x128_S128x128_S262144x128_1_0_0_1_n_n
        dot_S262144x128_S128x1_S262144x1_1_0_0_1_n_n bcast_S128_S1x128_1 bcast_S1x128_S262144x128_0_1 bcast_S_S262144x128
        bcast_S1_S1x1_1 bcast_S1x1_S262144x1_0_1 bcast_S_S262144x1 bcast_S262144x1_S262144x3_0_1
        (Value.res_main_v113 V) (gather3 (V (Proc.devRef .tc main_arg3)) (V (Proc.devRef .tc main_arg8))) (gather3 (V (Proc.devRef .tc main_arg5)) (V (Proc.devRef .tc main_arg9)))
        (V (Proc.devRef .tc main_arg26)) (V (Proc.devRef .tc main_arg27)) (V (Proc.devRef .tc main_arg28)) (V (Proc.devRef .tc main_arg29))
      = gatedDiffs (msgDn V) (gather3 (V (Proc.devRef .tc main_arg3)) (V (Proc.devRef .tc main_arg8))) (gather3 (V (Proc.devRef .tc main_arg5)) (V (Proc.devRef .tc main_arg9)))
          (V (Proc.devRef .tc main_arg26)) (V (Proc.devRef .tc main_arg27)) (V (Proc.devRef .tc main_arg28)) (V (Proc.devRef .tc main_arg29)) := by
  refine (RefLayers.hostGated_eq (n := 262144) dot_S262144x128_S128x128_S262144x128_1_0_0_1_n_n
    dot_S262144x128_S128x1_S262144x1_1_0_0_1_n_n rfl rfl _ _ _ _ _ _ _ _ _ _ _ _ _ _).trans ?_
  rw [res113_eq]

/-- The second result buffer's term is the argument coordinates plus the two weighted segment sums of the
    specification's gated differences. -/
theorem v155_eq : Value.val4 V (no_index (Proc.devRef .tc main_v155)) = xOutV V := by
  refine (Value.val4_main_v155 V).trans ?_
  unfold xOutV
  rw [← gatedUp_eq, ← gatedDn_eq]
  unfold Value.res_main_v14 Value.res_main_v85
  rfl

end

/-! ## The run -/

/-- The updated features and coordinates on device c, from the launch contents of its argument arrays. -/
def hOut (m : (ℓ : Loc nD τ sig) → Buf (Elt Ideal) ℓ) (c : Dev nD) : FVec Ideal S50000x128 .f32 := hOutV (launchContents m c)
def xOut (m : (ℓ : Loc nD τ sig) → Buf (Elt Ideal) ℓ) (c : Dev nD) : FVec Ideal S50000x3 .f32 := xOutV (launchContents m c)

/-- Every weakly fair execution of the reference terminates with its two results the specification's functions of the
    argument arrays and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v153) = hOut m c
      ∧ r.2.mem ((c.tc : Thread nD τ).loc main_v155) = xOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30) :=
  (θ_run defs _ _).mono (fun r h c =>
      ⟨(h c).1.trans ((Value.val4_main_v153 (launchContents m c)).symm.trans (v153_eq (launchContents m c))),
       (h c).2.1.trans ((Value.val4_main_v155 (launchContents m c)).symm.trans (v155_eq (launchContents m c))),
       (h c).2.2⟩)
    (Value.run (F := Ideal) m ρ)

end Cert.ReferenceIdeal.RefValue

end
-- ==== Proof.BridgeArgs.lean ====
/-
  The agreement of two memories on the arguments, read as the reference's launch contents.

  The launch contents of a device's argument buffer are the memory at that buffer's location; so the hypothesis that
  the reference's memory agrees with the kernel program's on the thirty-one arguments says that each argument's launch
  contents in the reference are the kernel program's memory at its argument. The host operations the two programs share
  (the index wrap, the two gathers, the two segment sums) are the same functions: their records list the same literals.
-/
import proofs.«178050_j6622839570871_2_alg».proof.Proof.RefRun
import proofs.«178050_j6622839570871_2_alg».proof.Proof.KTerms

set_option maxRecDepth 16384

noncomputable section

namespace Cert.Proof.Bridge

open Idealize.ShloMosaic Idealize.ShloMosaic.TcCoe Idealize.SL.Sem Idealize.ShloMosaic.StableHlo

/-- The agreement on the arguments, as equations on the reference's launch contents. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hag :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) :
      launchContents m' c (Proc.devRef .tc Cert.ReferenceIdeal.main_arg0) = m ((c.tc : Thread Cert.KernelIdeal.nD Cert.KernelIdeal.τ).loc Cert.KernelIdeal.main_arg0)
      ∧ launchContents m' c (Proc.devRef .tc Cert.ReferenceIdeal.main_arg1) = m ((c.tc : Thread Cert.KernelIdeal.nD Cert.KernelIdeal.τ).loc Cert.KernelIdeal.main_arg1)
      ∧ launchContents m' c (Proc.devRef .tc Cert.ReferenceIdeal.main_arg2) = m ((c.tc : Thread Cert.KernelIdeal.nD Cert.KernelIdeal.τ).loc Cert.KernelIdeal.main_arg2)
      ∧ launchContents m' c (Proc.devRef .tc Cert.ReferenceIdeal.main_arg3) = m ((c.tc : Thread Cert.KernelIdeal.nD Cert.KernelIdeal.τ).loc Cert.KernelIdeal.main_arg3)
      ∧ launchContents m' c (Proc.devRef .tc Cert.ReferenceIdeal.main_arg4) = m ((c.tc : Thread Cert.KernelIdeal.nD Cert.KernelIdeal.τ).loc Cert.KernelIdeal.main_arg4)
      ∧ launchContents m' c (Proc.devRef .tc Cert.ReferenceIdeal.main_arg5) = m ((c.tc : Thread Cert.KernelIdeal.nD Cert.KernelIdeal.τ).loc Cert.KernelIdeal.main_arg5)
      ∧ launchContents m' c (Proc.devRef .tc Cert.ReferenceIdeal.main_arg6) = m ((c.tc : Thread Cert.KernelIdeal.nD Cert.KernelIdeal.τ).loc Cert.KernelIdeal.main_arg6)
      ∧ launchContents m' c (Proc.devRef .tc Cert.ReferenceIdeal.main_arg7) = m ((c.tc : Thread Cert.KernelIdeal.nD Cert.KernelIdeal.τ).loc Cert.KernelIdeal.main_arg7)
      ∧ launchContents m' c (Proc.devRef .tc Cert.ReferenceIdeal.main_arg8) = m ((c.tc : Thread Cert.KernelIdeal.nD Cert.KernelIdeal.τ).loc Cert.KernelIdeal.main_arg8)
      ∧ launchContents m' c (Proc.devRef .tc Cert.ReferenceIdeal.main_arg9) = m ((c.tc : Thread Cert.KernelIdeal.nD Cert.KernelIdeal.τ).loc Cert.KernelIdeal.main_arg9)
      ∧ launchContents m' c (Proc.devRef .tc Cert.ReferenceIdeal.main_arg10) = m ((c.tc : Thread Cert.KernelIdeal.nD Cert.KernelIdeal.τ).loc Cert.KernelIdeal.main_arg10)
      ∧ launchContents m' c (Proc.devRef .tc Cert.ReferenceIdeal.main_arg11) = m ((c.tc : Thread Cert.KernelIdeal.nD Cert.KernelIdeal.τ).loc Cert.KernelIdeal.main_arg11)
      ∧ launchContents m' c (Proc.devRef .tc Cert.ReferenceIdeal.main_arg12) = m ((c.tc : Thread Cert.KernelIdeal.nD Cert.KernelIdeal.τ).loc Cert.KernelIdeal.main_arg12)
      ∧ launchContents m' c (Proc.devRef .tc Cert.ReferenceIdeal.main_arg13) = m ((c.tc : Thread Cert.KernelIdeal.nD Cert.KernelIdeal.τ).loc Cert.KernelIdeal.main_arg13)
      ∧ launchContents m' c (Proc.devRef .tc Cert.ReferenceIdeal.main_arg14) = m ((c.tc : Thread Cert.KernelIdeal.nD Cert.KernelIdeal.τ).loc Cert.KernelIdeal.main_arg14)
      ∧ launchContents m' c (Proc.devRef .tc Cert.ReferenceIdeal.main_arg15) = m ((c.tc : Thread Cert.KernelIdeal.nD Cert.KernelIdeal.τ).loc Cert.KernelIdeal.main_arg15)
      ∧ launchContents m' c (Proc.devRef .tc Cert.ReferenceIdeal.main_arg16) = m ((c.tc : Thread Cert.KernelIdeal.nD Cert.KernelIdeal.τ).loc Cert.KernelIdeal.main_arg16)
      ∧ launchContents m' c (Proc.devRef .tc Cert.ReferenceIdeal.main_arg17) = m ((c.tc : Thread Cert.KernelIdeal.nD Cert.KernelIdeal.τ).loc Cert.KernelIdeal.main_arg17)
      ∧ launchContents m' c (Proc.devRef .tc Cert.ReferenceIdeal.main_arg18) = m ((c.tc : Thread Cert.KernelIdeal.nD Cert.KernelIdeal.τ).loc Cert.KernelIdeal.main_arg18)
      ∧ launchContents m' c (Proc.devRef .tc Cert.ReferenceIdeal.main_arg19) = m ((c.tc : Thread Cert.KernelIdeal.nD Cert.KernelIdeal.τ).loc Cert.KernelIdeal.main_arg19)
      ∧ launchContents m' c (Proc.devRef .tc Cert.ReferenceIdeal.main_arg20) = m ((c.tc : Thread Cert.KernelIdeal.nD Cert.KernelIdeal.τ).loc Cert.KernelIdeal.main_arg20)
      ∧ launchContents m' c (Proc.devRef .tc Cert.ReferenceIdeal.main_arg21) = m ((c.tc : Thread Cert.KernelIdeal.nD Cert.KernelIdeal.τ).loc Cert.KernelIdeal.main_arg21)
      ∧ launchContents m' c (Proc.devRef .tc Cert.ReferenceIdeal.main_arg22) = m ((c.tc : Thread Cert.KernelIdeal.nD Cert.KernelIdeal.τ).loc Cert.KernelIdeal.main_arg22)
      ∧ launchContents m' c (Proc.devRef .tc Cert.ReferenceIdeal.main_arg23) = m ((c.tc : Thread Cert.KernelIdeal.nD Cert.KernelIdeal.τ).loc Cert.KernelIdeal.main_arg23)
      ∧ launchContents m' c (Proc.devRef .tc Cert.ReferenceIdeal.main_arg24) = m ((c.tc : Thread Cert.KernelIdeal.nD Cert.KernelIdeal.τ).loc Cert.KernelIdeal.main_arg24)
      ∧ launchContents m' c (Proc.devRef .tc Cert.ReferenceIdeal.main_arg25) = m ((c.tc : Thread Cert.KernelIdeal.nD Cert.KernelIdeal.τ).loc Cert.KernelIdeal.main_arg25)
      ∧ launchContents m' c (Proc.devRef .tc Cert.ReferenceIdeal.main_arg26) = m ((c.tc : Thread Cert.KernelIdeal.nD Cert.KernelIdeal.τ).loc Cert.KernelIdeal.main_arg26)
      ∧ launchContents m' c (Proc.devRef .tc Cert.ReferenceIdeal.main_arg27) = m ((c.tc : Thread Cert.KernelIdeal.nD Cert.KernelIdeal.τ).loc Cert.KernelIdeal.main_arg27)
      ∧ launchContents m' c (Proc.devRef .tc Cert.ReferenceIdeal.main_arg28) = m ((c.tc : Thread Cert.KernelIdeal.nD Cert.KernelIdeal.τ).loc Cert.KernelIdeal.main_arg28)
      ∧ launchContents m' c (Proc.devRef .tc Cert.ReferenceIdeal.main_arg29) = m ((c.tc : Thread Cert.KernelIdeal.nD Cert.KernelIdeal.τ).loc Cert.KernelIdeal.main_arg29)
      ∧ launchContents m' c (Proc.devRef .tc Cert.ReferenceIdeal.main_arg30) = m ((c.tc : Thread Cert.KernelIdeal.nD Cert.KernelIdeal.τ).loc Cert.KernelIdeal.main_arg30) :=
  hag

/-! ## The host operations of the two programs are the same functions -/

theorem wrap_eq (i : IVec Cert.ReferenceIdeal.S262144 32) :
    Cert.ReferenceIdeal.RefValue.wrap i = Cert.KernelIdeal.Whole.wrapCol i := rfl

theorem gather128_eq (x : FVec Ideal Cert.ReferenceIdeal.S50000x128 .f32) (i : IVec Cert.ReferenceIdeal.S262144 32) :
    Cert.ReferenceIdeal.RefValue.gather128 x i = Cert.KernelIdeal.Whole.takeRows128 x i := rfl

theorem gather3_eq (x : FVec Ideal Cert.ReferenceIdeal.S50000x3 .f32) (i : IVec Cert.ReferenceIdeal.S262144 32) :
    Cert.ReferenceIdeal.RefValue.gather3 x i = Cert.KernelIdeal.Whole.takeRows3 x i := rfl

theorem segSum128_eq (i : IVec Cert.ReferenceIdeal.S262144 32) (u : FVec Ideal Cert.ReferenceIdeal.S262144x128 .f32) :
    Cert.ReferenceIdeal.RefValue.segSum128 i u = Cert.KernelIdeal.Whole.segSum128 i u := rfl

theorem segSum3_eq (i : IVec Cert.ReferenceIdeal.S262144 32) (u : FVec Ideal Cert.ReferenceIdeal.S262144x3 .f32) :
    Cert.ReferenceIdeal.RefValue.segSum3 i u = Cert.KernelIdeal.Whole.segSum3 i u := rfl

end Cert.Proof.Bridge

end
-- ==== Proof.BridgeMsgs.lean ====
/-
  From memories that agree on the arguments, the reference's two message arrays are the kernel program's: both are
  the specification's messages of the same gathered rows and the same weights.
-/
import proofs.«178050_j6622839570871_2_alg».proof.Proof.BridgeArgs

set_option maxRecDepth 16384

noncomputable section

namespace Cert.Proof.Bridge

open Idealize.ShloMosaic Idealize.ShloMosaic.TcCoe Idealize.SL.Sem Idealize.ShloMosaic.StableHlo

theorem upper_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hag :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) :
    Cert.ReferenceIdeal.RefValue.msgUp (launchContents m' c) = Cert.KernelIdeal.Whole.upperMessages m c := by
  obtain ⟨e0, e1, e2, e3, e4, e5, e6, e7, e8, e9, e10, e11, e12, e13, e14, e15, e16, e17, e18, e19, e20, e21, e22, e23, e24, e25, e26, e27, e28, e29, e30⟩ := args_eq m m' c hag
  unfold Cert.ReferenceIdeal.RefValue.msgUp Cert.KernelIdeal.Whole.upperMessages
  rw [e0, e1, e3, e4, e6, e7, e10, e11, e12, e13]
  rfl

theorem lower_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hag :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) :
    Cert.ReferenceIdeal.RefValue.msgDn (launchContents m' c) = Cert.KernelIdeal.Whole.lowerMessages m c := by
  obtain ⟨e0, e1, e2, e3, e4, e5, e6, e7, e8, e9, e10, e11, e12, e13, e14, e15, e16, e17, e18, e19, e20, e21, e22, e23, e24, e25, e26, e27, e28, e29, e30⟩ := args_eq m m' c hag
  unfold Cert.ReferenceIdeal.RefValue.msgDn Cert.KernelIdeal.Whole.lowerMessages
  rw [e0, e2, e3, e5, e8, e9, e14, e15, e16, e17]
  rfl

end Cert.Proof.Bridge

end
-- ==== Proof.BridgeFeatures.lean ====
/-
  From memories that agree on the arguments, the reference's updated features are the kernel program's: the
  specification's cell update of the same features and the same segment sums of the same messages.
-/
import proofs.«178050_j6622839570871_2_alg».proof.Proof.BridgeMsgs

set_option maxRecDepth 16384

noncomputable section

namespace Cert.Proof.Bridge

open Idealize.ShloMosaic Idealize.ShloMosaic.TcCoe Idealize.SL.Sem Idealize.ShloMosaic.StableHlo

/-- From memories that agree on the arguments, the reference's updated features are the kernel program's. -/
theorem features_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hag :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) :
    Cert.ReferenceIdeal.RefValue.hOut m' c = Cert.KernelIdeal.Whole.featuresOut m c := by
  have hu := upper_eq m m' c hag
  have hl := lower_eq m m' c hag
  obtain ⟨e0, e1, e2, e3, e4, e5, e6, e7, e8, e9, e10, e11, e12, e13, e14, e15, e16, e17, e18, e19, e20, e21, e22, e23, e24, e25, e26, e27, e28, e29, e30⟩ := args_eq m m' c hag
  unfold Cert.ReferenceIdeal.RefValue.hOut Cert.ReferenceIdeal.RefValue.hOutV Cert.KernelIdeal.Whole.featuresOut
  rw [hu, hl, e0, e6, e8, e18, e19, e20, e21]
  rfl

end Cert.Proof.Bridge

end
-- ==== Proof.BridgeCoords.lean ====
/-
  From memories that agree on the arguments, the reference's updated coordinates are the kernel program's: the
  same coordinates plus the same two weighted segment sums of the specification's gated differences.
-/
import proofs.«178050_j6622839570871_2_alg».proof.Proof.BridgeMsgs

set_option maxRecDepth 16384

noncomputable section

namespace Cert.Proof.Bridge

open Idealize.ShloMosaic Idealize.ShloMosaic.TcCoe Idealize.SL.Sem Idealize.ShloMosaic.StableHlo

/-- From memories that agree on the arguments, the reference's updated coordinates are the kernel program's. -/
theorem coords_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hag :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) :
    Cert.ReferenceIdeal.RefValue.xOut m' c = Cert.KernelIdeal.Whole.coordsOut m c := by
  have hu := upper_eq m m' c hag
  have hl := lower_eq m m' c hag
  obtain ⟨e0, e1, e2, e3, e4, e5, e6, e7, e8, e9, e10, e11, e12, e13, e14, e15, e16, e17, e18, e19, e20, e21, e22, e23, e24, e25, e26, e27, e28, e29, e30⟩ := args_eq m m' c hag
  unfold Cert.ReferenceIdeal.RefValue.xOut Cert.ReferenceIdeal.RefValue.xOutV Cert.KernelIdeal.Whole.coordsOut
    Cert.KernelIdeal.Whole.upperGated Cert.KernelIdeal.Whole.lowerGated
    Cert.ReferenceIdeal.RefValue.coordW0 Cert.ReferenceIdeal.RefValue.coordW1
  rw [hu, hl, e3, e4, e5, e6, e7, e8, e9, e22, e23, e24, e25, e26, e27, e28, e29, e30]
  rfl

end Cert.Proof.Bridge

end
-- ==== Proof.Bridge.lean ====
/-
  The two programs' results are one function of the arguments: from memories that agree on the arguments, the
  reference's updated features and coordinates are the kernel program's. This module only gathers the two statements.
-/
import proofs.«178050_j6622839570871_2_alg».proof.Proof.BridgeFeatures
import proofs.«178050_j6622839570871_2_alg».proof.Proof.BridgeCoords
-- ==== Proof.lean ====
/-
  One step of message passing on a cell complex: a tiled kernel program against a plain reference.

  Both programs gather, for every boundary edge, the feature and coordinate rows of its cell and of its neighbour,
  send them through a two-layer perceptron (the message) and a gate perceptron with a logistic output (the gated
  coordinate difference), sum messages and gated differences into cells, and update every cell's features by a
  residual two-layer perceptron of (features, upper sum, lower sum) and its coordinates by the two scaled sums.
  The kernel program tiles the edges in blocks of 2048 and the cells in blocks of 2000, casts the matrix products'
  operands to a shorter float format, and splits the first layer's 257-wide contraction into the two 128-wide feature
  parts and the squared-distance term. On the extended reals a change of float format is the identity, a matrix
  product is a plain finite sum, a row of a result depends on the same row of the row-indexed operands only, and a sum
  over 257 positions is the sum over the first 128, the next 128 and the last: so the two programs compute the same
  arrays. Nothing here needs the inputs to be finite.

  The pieces: the specification of one edge's and one cell's row (Spec, SpecBlocks); the kernel bodies read at an
  index (KBlocks*), from blocks to whole arrays (KTiles*), the kernel program's run through its six segments and the
  host operations between the kernels (KRun, KHost, KTerms, KResult); the reference's dense layers as the same
  specification (Ref*), its run (RefRun); the two sides' result terms are one (Bridge); the frames (Frames).
-/
import proofs.«178050_j6622839570871_2_alg».proof.Defs
import proofs.«178050_j6622839570871_2_alg».proof.Proof.Gen.ReferenceIdeal.Run
import proofs.«178050_j6622839570871_2_alg».proof.Proof.Frames
import proofs.«178050_j6622839570871_2_alg».proof.Proof.KResult
import proofs.«178050_j6622839570871_2_alg».proof.Proof.RefRun
import proofs.«178050_j6622839570871_2_alg».proof.Proof.Bridge

noncomputable section

namespace Cert.Proof

open Idealize.ShloMosaic Idealize.SL.Sem

/-- From memories that agree on the arguments both idealized programs run to the end, their results are the same
    extended reals entry by entry, and their arguments are unchanged: the kernel program's run with its results read,
    the reference's run with its dense layers read as the specification, and the identity of the two result terms. -/
theorem algebraic : Cert.algebraic_KernelIdeal_ReferenceIdeal := by
  intro m ρ m' ρ' _ hagree
  refine ⟨fun c => Cert.KernelIdeal.Whole.featuresOut m c, fun c => Cert.KernelIdeal.Whole.coordsOut m c,
    Cert.KernelIdeal.Whole.run_results m ρ, ?_⟩
  exact (θ_run Cert.ReferenceIdeal.defs _ _).mono
    (fun r h c => ⟨(h c).1.trans (Cert.Proof.Bridge.features_eq m m' c (hagree c)),
      (h c).2.1.trans (Cert.Proof.Bridge.coords_eq m m' c (hagree c)), (h c).2.2⟩)
    (Cert.ReferenceIdeal.RefValue.run_spec m' ρ')

theorem claim : Cert.Claim :=
  ⟨Cert.Kernel.Gen.facts, Cert.KernelIdeal.Gen.facts, Cert.ReferenceIdeal.Gen.facts, Cert.Pre_finite_inputs.Gen.facts,
    Cert.Proof.Frames.frame_kernel, Cert.Proof.Frames.frame_kernelIdeal, Cert.Proof.Frames.frame_reference,
    Cert.Proof.Frames.preserves, algebraic⟩

end Cert.Proof

end
